-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048x400 : Shape := ⟨2, ![2048, 400]⟩
abbrev S400x32x1 : Shape := ⟨3, ![400, 32, 1]⟩
abbrev S32000x512 : Shape := ⟨2, ![32000, 512]⟩
abbrev S32000 : Shape := ⟨1, ![32000]⟩
abbrev S1x512 : Shape := ⟨2, ![1, 512]⟩
abbrev S1 : Shape := ⟨1, ![1]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x400 : S_.BroadcastsInDim S2048x400 (![] : Fin 0 → Fin S2048x400.rank)
  reducesTo_S2048x400_S_d0_1 : S2048x400.ReducesTo [0, 1] S_
  bcast_S_S32000x512 : S_.BroadcastsInDim S32000x512 (![] : Fin 0 → Fin S32000x512.rank)
  reducesTo_S32000x512_S_d0_1 : S32000x512.ReducesTo [0, 1] S_
  bcast_S_S32000 : S_.BroadcastsInDim S32000 (![] : Fin 0 → Fin S32000.rank)
  reducesTo_S32000_S_d0 : S32000.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x512 .f32) (main_arg6 : FVec F S1 .f32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_v19 : FVec F S1x512 .f32 := Host.absf main_arg5
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2048x512 .f32) (main_arg1 : FVec F S2048x400 .f32) (main_arg2 : IVec S400x32x1 32) (main_arg3 : FVec F S32000x512 .f32) (main_arg4 : FVec F S32000 .f32) (main_arg5 : FVec F S1x512 .f32) (main_arg6 : FVec F S1 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x400 .f32 := Host.absf main_arg1
  let main_cst_0 : FVec F S_ .f32 := constant S_ .f32 0x7F800000#32
  let main_v5 : FVec F S2048x400 .f32 := broadcastInDim S2048x400 ![] bcast_S_S2048x400 main_cst_0
  let main_v6 : IVec S2048x400 1 := cmpf .olt main_v4 main_v5
  let main_c_1 : IVec S_ 1 := constantI S_ 1 1#1
  let main_v7 : IVec S_ 1 := (fun x v => Host.reduce IntOp.andi x v reducesTo_S2048x400_S_d0_1 h_S_) main_v6 main_c_1
  let main_v8 : IVec S_ 1 := andi main_v3 main_v7
  let main_v9 : FVec F S32000x512 .f32 := Host.absf main_arg3
  let main_cst_2 : FVec F S_ .f32 := constant S_ .f32 0x7F800000#32
  let main_v10 : FVec F S32000x512 .f32 := broadcastInDim S32000x512 ![] bcast_S_S32000x512 main_cst_2
  let main_v11 : IVec S32000x512 1 := cmpf .olt main_v9 main_v10
  let main_c_3 : IVec S_ 1 := constantI S_ 1 1#1
  let main_v12 : IVec S_ 1 := (fun x v => Host.reduce IntOp.andi x v reducesTo_S32000x512_S_d0_1 h_S_) main_v11 main_c_3
  let main_v13 : IVec S_ 1 := andi main_v8 main_v12
  let main_v14 : FVec F S32000 .f32 := Host.absf main_arg4
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg5 main_arg6 main_v13 main_v16
-- ==== Kernel.lean ====
abbrev S2048x512 : Shape := ⟨2, ![2048, 512]⟩
abbrev S2048x400 : Shape := ⟨2, ![2048, 400]⟩
abbrev S400x32x1 : Shape := ⟨3, ![400, 32, 1]⟩
abbrev S32000x512 : Shape := ⟨2, ![32000, 512]⟩
abbrev S32000 : Shape := ⟨1, ![32000]⟩
abbrev S1x512 : Shape := ⟨2, ![1, 512]⟩
abbrev S1 : Shape := ⟨1, ![1]⟩
abbrev S512x1 : Shape := ⟨2, ![512, 1]⟩
abbrev S2048x1 : Shape := ⟨2, ![2048, 1]⟩
abbrev S1x1 : Shape := ⟨2, ![1, 1]⟩
abbrev S_ : Shape := ⟨0, ![]⟩
abbrev S1x32000 : Shape := ⟨2, ![1, 32000]⟩
abbrev S512x512 : Shape := ⟨2, ![512, 512]⟩
abbrev S1280x512 : Shape := ⟨2, ![1280, 512]⟩
abbrev S1x1280 : Shape := ⟨2, ![1, 1280]⟩
abbrev S512x1280 : Shape := ⟨2, ![512, 1280]⟩
abbrev S512 : Shape := ⟨1, ![512]⟩
abbrev S32 : Shape := ⟨1, ![32]⟩
abbrev S32x1 : Shape := ⟨2, ![32, 1]⟩
abbrev S400x32 : Shape := ⟨2, ![400, 32]⟩
abbrev S32x400 : Shape := ⟨2, ![32, 400]⟩
abbrev S12800 : Shape := ⟨1, ![12800]⟩
abbrev S64x1024000 : Shape := ⟨2, ![64, 1024000]⟩
abbrev S64x12800 : Shape := ⟨2, ![64, 12800]⟩
abbrev S12800x1 : Shape := ⟨2, ![12800, 1]⟩
abbrev S2048x32000 : Shape := ⟨2, ![2048, 32000]⟩

abbrev nBuf : Space → Nat
  | .hbm => 50
  | .vmem => 28
  | .smem => 0
  | _ => 0

abbrev bufTy : (tb : Table) → Fin (tcTables nBuf tb) → BufTy
  | .hbm, ⟨0, _⟩ => ⟨S2048x512, .f32⟩
  | .hbm, ⟨1, _⟩ => ⟨S2048x400, .f32⟩
  | .hbm, ⟨2, _⟩ => ⟨S400x32x1, .i32⟩
  | .hbm, ⟨3, _⟩ => ⟨S32000x512, .f32⟩
  | .hbm, ⟨4, _⟩ => ⟨S32000, .f32⟩
  | .hbm, ⟨5, _⟩ => ⟨S1x512, .f32⟩
  | .hbm, ⟨6, _⟩ => ⟨S1, .f32⟩
  | .hbm, ⟨7, _⟩ => ⟨S512x1, .f32⟩
  | .hbm, ⟨8, _⟩ => ⟨S2048x1, .f32⟩
  | .hbm, ⟨9, _⟩ => ⟨S1x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S1x32000, .f32⟩
  | .hbm, ⟨21, _⟩ => ⟨S32000x512, .bf16⟩
  | .hbm, ⟨22, _⟩ => ⟨S2048x1, .f32⟩
  | .hbm, ⟨23, _⟩ => ⟨S2048x1, .f32⟩
  | .hbm, ⟨24, _⟩ => ⟨S2048x400, .f32⟩
  | .hbm, ⟨25, _⟩ => ⟨S2048x400, .f32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32x1, .i32⟩
  | .hbm, ⟨31, _⟩ => ⟨S400x32, .i32⟩
  | .hbm, ⟨32, _⟩ => ⟨S32x400, .i32⟩
  | .hbm, ⟨33, _⟩ => ⟨S32x400, .i32⟩
  | .hbm, ⟨34, _⟩ => ⟨S32x400, .i32⟩
  | .hbm, ⟨35, _⟩ => ⟨S12800, .i32⟩
  | .hbm, ⟨36, _⟩ => ⟨S_, .f32⟩
  | .hbm, ⟨37, _⟩ => ⟨S64x1024000, .f32⟩
  | .hbm, ⟨38, _⟩ => ⟨S64x12800, .f32⟩
  | .hbm, ⟨39, _⟩ => ⟨S_, .i32⟩
  | .hbm, ⟨40, _⟩ => ⟨S12800, .i32⟩
  | .hbm, ⟨41, _⟩ => ⟨S12800, .i1⟩
  | .hbm, ⟨42, _⟩ => ⟨S_, .i32⟩
  | .hbm, ⟨43, _⟩ => ⟨S12800, .i32⟩
  | .hbm, ⟨44, _⟩ => ⟨S12800, .i32⟩
  | .hbm, ⟨45, _⟩ => ⟨S12800, .i32⟩
  | .hbm, ⟨46, _⟩ => ⟨S12800x1, .i32⟩
  | .hbm, ⟨47, _⟩ => ⟨S64x1024000, .f32⟩
  | .hbm, ⟨48, _⟩ => ⟨S2048x32000, .f32⟩
  | .hbm, ⟨49, _⟩ => ⟨S2048x32000, .f32⟩
  | .local _ .vmem, ⟨0, _⟩ => ⟨S512x512, .f32⟩
  | .local _ .vmem, ⟨1, _⟩ => ⟨S512x512, .f32⟩
  | .local _ .vmem, ⟨2, _⟩ => ⟨S1280x512, .bf16⟩
  | .local _ .vmem, ⟨3, _⟩ => ⟨S1280x512, .bf16⟩
  | .local _ .vmem, ⟨4, _⟩ => ⟨S1x1280, .f32⟩
  | .local _ .vmem, ⟨5, _⟩ => ⟨S1x1280, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x512, .f32⟩
  | .local _ .vmem, ⟨13, _⟩ => ⟨S512x512, .f32⟩
  | .local _ .vmem, ⟨14, _⟩ => ⟨S1280x512, .bf16⟩
  | .local _ .vmem, ⟨15, _⟩ => ⟨S1280x512, .bf16⟩
  | .local _ .vmem, ⟨16, _⟩ => ⟨S1x1280, .f32⟩
  | .local _ .vmem, ⟨17, _⟩ => ⟨S1x1280, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1280, .f32⟩
  | .local _ .vmem, ⟨25, _⟩ => ⟨S512x1280, .f32⟩
  | .local _ .vmem, ⟨26, _⟩ => ⟨S512x1280, .f32⟩
  | .local _ .vmem, ⟨27, _⟩ => ⟨S512x1280, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1280 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  transposes_S1x512_S512x1_1_0 : S1x512.Transposes [1, 0] S512x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  shapeCasts_S32000_S1x32000 : S32000.ShapeCasts S1x32000
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  transposes_S1280x512_p1_0_S512x1280 : S1280x512.Transposes [1, 0] S512x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  reduces_S512x1280_S512 : S512x1280.Reduces [1] S512
  shapeCasts_S512_S512x1 : S512.ShapeCasts S512x1
  broadcasts_S512x1_S512x1280 : S512x1.Broadcasts S512x1280
  bcast_S2048x1_S2048x400_0_1 : S2048x1.BroadcastsInDim S2048x400 (![0, 1] : Fin 2 → Fin S2048x400.rank)
  bcast_S_S32 : S_.BroadcastsInDim S32 (![] : Fin 0 → Fin S32.rank)
  bcast_S32_S32x1_0 : S32.BroadcastsInDim S32x1 (![0] : Fin 1 → Fin S32x1.rank)
  shapeCasts_S400x32x1_S400x32 : S400x32x1.ShapeCasts S400x32
  transposes_S400x32_S32x400_1_0 : S400x32.Transposes [1, 0] S32x400
  bcast_S32x1_S32x400_0_1 : S32x1.BroadcastsInDim S32x400 (![0, 1] : Fin 2 → Fin S32x400.rank)
  shapeCasts_S32x400_S12800 : S32x400.ShapeCasts S12800
  bcast_S_S64x1024000 : S_.BroadcastsInDim S64x1024000 (![] : Fin 0 → Fin S64x1024000.rank)
  shapeCasts_S2048x400_S64x12800 : S2048x400.ShapeCasts S64x12800
  bcast_S_S12800 : S_.BroadcastsInDim S12800 (![] : Fin 0 → Fin S12800.rank)
  bcast_S12800_S12800x1_0 : S12800.BroadcastsInDim S12800x1 (![0] : Fin 1 → Fin S12800x1.rank)
  shapeCasts_S64x1024000_S2048x32000 : S64x1024000.ShapeCasts S2048x32000
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  dot_S2048x512_S512x1_S2048x1_1_0_0_1_n_n_wf : DotDims.WF S2048x512 S512x1 S2048x1 [1] [0] [0] [1] [] []
  dot_S512x512_S512x1280_S512x1280_1_0_0_1_n_n_wf : DotDims.WF S512x512 S512x1280 S512x1280 [1] [0] [0] [1] [] []
  scatter_S64x1024000_S12800x1_S64x12800_0_1_1_1_wf : ScatterDims.WF S64x1024000 S12800x1 S64x12800 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S32000x512.size a
  hwx0_1 : ∀ i : grid0.Coords, EltTy.bits .bf16 = 32 ∨ (Rect.block (s := S32000x512) S1280x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x512.size a
  hwx1_0 : ∀ i : grid1.Coords, EltTy.bits .f32 = 32 ∨ (Rect.block (s := S2048x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S32000x512.size a
  hwx1_1 : ∀ i : grid1.Coords, EltTy.bits .bf16 = 32 ∨ (Rect.block (s := S32000x512) S1280x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S2048x1.size a
  hwx1_3 : ∀ i : grid1.Coords, EltTy.bits .f32 = 32 ∨ (Rect.block (s := S2048x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S2048x1.size a
  hwx1_4 : ∀ i : grid1.Coords, EltTy.bits .f32 = 32 ∨ (Rect.block (s := S2048x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S2048x1.size a
  hwx1_5 : ∀ i : grid1.Coords, EltTy.bits .f32 = 32 ∨ (Rect.block (s := S2048x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1280.size a ≤ S2048x32000.size a
  hwx1_6 : ∀ i : grid1.Coords, EltTy.bits .f32 = 32 ∨ (Rect.block (s := S2048x32000) S512x1280.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1280.size a ≤ S2048x32000.size a
  hwx1_7 : ∀ i : grid1.Coords, EltTy.bits .f32 = 32 ∨ (Rect.block (s := S2048x32000) S512x1280.size (cc1_transform_7 i) (hinb1_7 i)).WholeWords (EltTy.packing .f32)

variable [Facts₀]

def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S512x512_S512x1280_S512x1280_1_0_0_1_n_n : DotDims S512x512 S512x1280 S512x1280 where
  lhsContracting := [1]
  rhsContracting := [0]
  lhsNonContracting := [0]
  rhsNonContracting := [1]
  lhsBatch := []
  rhsBatch := []
  wf := dot_S512x512_S512x1280_S512x1280_1_0_0_1_n_n_wf
def scatter_S64x1024000_S12800x1_S64x12800_0_1_1_1 : ScatterDims S64x1024000 S12800x1 S64x12800 where
  updateWindowDims := [0]
  insertedWindowDims := [1]
  scatterDimsToOperandDims := [1]
  indexVectorDim := 1
  wf := scatter_S64x1024000_S12800x1_S64x12800_0_1_1_1_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v34) S512x1280.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v35) S512x1280.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2048x512 : Shape := ⟨2, ![2048, 512]⟩
abbrev S2048x400 : Shape := ⟨2, ![2048, 400]⟩
abbrev S400x32x1 : Shape := ⟨3, ![400, 32, 1]⟩
abbrev S32000x512 : Shape := ⟨2, ![32000, 512]⟩
abbrev S32000 : Shape := ⟨1, ![32000]⟩
abbrev S1x512 : Shape := ⟨2, ![1, 512]⟩
abbrev S1 : Shape := ⟨1, ![1]⟩
abbrev S512x1 : Shape := ⟨2, ![512, 1]⟩
abbrev S2048x1 : Shape := ⟨2, ![2048, 1]⟩
abbrev S1x1 : Shape := ⟨2, ![1, 1]⟩
abbrev S_ : Shape := ⟨0, ![]⟩
abbrev S512x32000 : Shape := ⟨2, ![512, 32000]⟩
abbrev S2048x32000 : Shape := ⟨2, ![2048, 32000]⟩
abbrev S1x32000 : Shape := ⟨2, ![1, 32000]⟩
abbrev S2048 : Shape := ⟨1, ![2048]⟩
abbrev S32 : Shape := ⟨1, ![32]⟩
abbrev S32x1 : Shape := ⟨2, ![32, 1]⟩
abbrev S400x32 : Shape := ⟨2, ![400, 32]⟩
abbrev S32x400 : Shape := ⟨2, ![32, 400]⟩
abbrev S12800 : Shape := ⟨1, ![12800]⟩
abbrev S64x1024000 : Shape := ⟨2, ![64, 1024000]⟩
abbrev S64x12800 : Shape := ⟨2, ![64, 12800]⟩
abbrev S12800x1 : Shape := ⟨2, ![12800, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x400, .f32⟩
  | .hbm, ⟨2, _⟩ => ⟨S400x32x1, .i32⟩
  | .hbm, ⟨3, _⟩ => ⟨S32000x512, .f32⟩
  | .hbm, ⟨4, _⟩ => ⟨S32000, .f32⟩
  | .hbm, ⟨5, _⟩ => ⟨S1x512, .f32⟩
  | .hbm, ⟨6, _⟩ => ⟨S1, .f32⟩
  | .hbm, ⟨7, _⟩ => ⟨S512x1, .f32⟩
  | .hbm, ⟨8, _⟩ => ⟨S2048x1, .f32⟩
  | .hbm, ⟨9, _⟩ => ⟨S1x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S512x32000, .f32⟩
  | .hbm, ⟨21, _⟩ => ⟨S2048x32000, .f32⟩
  | .hbm, ⟨22, _⟩ => ⟨S1x32000, .f32⟩
  | .hbm, ⟨23, _⟩ => ⟨S2048x32000, .f32⟩
  | .hbm, ⟨24, _⟩ => ⟨S2048x32000, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048x1, .f32⟩
  | .hbm, ⟨31, _⟩ => ⟨S2048x32000, .f32⟩
  | .hbm, ⟨32, _⟩ => ⟨S2048x32000, .f32⟩
  | .hbm, ⟨33, _⟩ => ⟨S2048x32000, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x32000, .f32⟩
  | .hbm, ⟨38, _⟩ => ⟨S2048x32000, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x32000, .f32⟩
  | .hbm, ⟨43, _⟩ => ⟨S2048x32000, .f32⟩
  | .hbm, ⟨44, _⟩ => ⟨S2048x400, .f32⟩
  | .hbm, ⟨45, _⟩ => ⟨S2048x400, .f32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32x1, .i32⟩
  | .hbm, ⟨51, _⟩ => ⟨S400x32, .i32⟩
  | .hbm, ⟨52, _⟩ => ⟨S32x400, .i32⟩
  | .hbm, ⟨53, _⟩ => ⟨S32x400, .i32⟩
  | .hbm, ⟨54, _⟩ => ⟨S32x400, .i32⟩
  | .hbm, ⟨55, _⟩ => ⟨S12800, .i32⟩
  | .hbm, ⟨56, _⟩ => ⟨S64x1024000, .f32⟩
  | .hbm, ⟨57, _⟩ => ⟨S64x12800, .f32⟩
  | .hbm, ⟨58, _⟩ => ⟨S_, .i32⟩
  | .hbm, ⟨59, _⟩ => ⟨S12800, .i32⟩
  | .hbm, ⟨60, _⟩ => ⟨S12800, .i1⟩
  | .hbm, ⟨61, _⟩ => ⟨S_, .i32⟩
  | .hbm, ⟨62, _⟩ => ⟨S12800, .i32⟩
  | .hbm, ⟨63, _⟩ => ⟨S12800, .i32⟩
  | .hbm, ⟨64, _⟩ => ⟨S12800, .i32⟩
  | .hbm, ⟨65, _⟩ => ⟨S12800x1, .i32⟩
  | .hbm, ⟨66, _⟩ => ⟨S64x1024000, .f32⟩
  | .hbm, ⟨67, _⟩ => ⟨S2048x32000, .f32⟩
  | .hbm, ⟨68, _⟩ => ⟨S_, .f32⟩
  | .hbm, ⟨69, _⟩ => ⟨S_, .f32⟩
  | .hbm, ⟨70, _⟩ => ⟨S2048x32000, .f32⟩
  | .hbm, ⟨71, _⟩ => ⟨S2048x32000, .f32⟩
  | .hbm, ⟨72, _⟩ => ⟨S2048x32000, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  transposes_S1x512_S512x1_1_0 : S1x512.Transposes [1, 0] S512x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  transposes_S32000x512_S512x32000_1_0 : S32000x512.Transposes [1, 0] S512x32000
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S2048x1_S2048x400_0_1 : S2048x1.BroadcastsInDim S2048x400 (![0, 1] : Fin 2 → Fin S2048x400.rank)
  bcast_S_S32 : S_.BroadcastsInDim S32 (![] : Fin 0 → Fin S32.rank)
  bcast_S32_S32x1_0 : S32.BroadcastsInDim S32x1 (![0] : Fin 1 → Fin S32x1.rank)
  shapeCasts_S400x32x1_S400x32 : S400x32x1.ShapeCasts S400x32
  transposes_S400x32_S32x400_1_0 : S400x32.Transposes [1, 0] S32x400
  bcast_S32x1_S32x400_0_1 : S32x1.BroadcastsInDim S32x400 (![0, 1] : Fin 2 → Fin S32x400.rank)
  shapeCasts_S32x400_S12800 : S32x400.ShapeCasts S12800
  shapeCasts_S2048x32000_S64x1024000 : S2048x32000.ShapeCasts S64x1024000
  shapeCasts_S2048x400_S64x12800 : S2048x400.ShapeCasts S64x12800
  bcast_S_S12800 : S_.BroadcastsInDim S12800 (![] : Fin 0 → Fin S12800.rank)
  bcast_S12800_S12800x1_0 : S12800.BroadcastsInDim S12800x1 (![0] : Fin 1 → Fin S12800x1.rank)
  shapeCasts_S64x1024000_S2048x32000 : S64x1024000.ShapeCasts S2048x32000
  bcast_S_S2048x32000 : S_.BroadcastsInDim S2048x32000 (![] : Fin 0 → Fin S2048x32000.rank)
  dot_S2048x512_S512x1_S2048x1_1_0_0_1_n_n_wf : DotDims.WF S2048x512 S512x1 S2048x1 [1] [0] [0] [1] [] []
  dot_S2048x512_S512x32000_S2048x32000_1_0_0_1_n_n_wf : DotDims.WF S2048x512 S512x32000 S2048x32000 [1] [0] [0] [1] [] []
  scatter_S64x1024000_S12800x1_S64x12800_0_1_1_1_wf : ScatterDims.WF S64x1024000 S12800x1 S64x12800 [0] [1] [1] 1

variable [Facts₀]

def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def dot_S2048x512_S512x32000_S2048x32000_1_0_0_1_n_n : DotDims S2048x512 S512x32000 S2048x32000 where
  lhsContracting := [1]
  rhsContracting := [0]
  lhsNonContracting := [0]
  rhsNonContracting := [1]
  lhsBatch := []
  rhsBatch := []
  wf := dot_S2048x512_S512x32000_S2048x32000_1_0_0_1_n_n_wf
def scatter_S64x1024000_S12800x1_S64x12800_0_1_1_1 : ScatterDims S64x1024000 S12800x1 S64x12800 where
  updateWindowDims := [0]
  insertedWindowDims := [1]
  scatterDimsToOperandDims := [1]
  indexVectorDim := 1
  wf := scatter_S64x1024000_S12800x1_S64x12800_0_1_1_1_wf

class Facts : Prop extends Facts₀ where

variable [Facts]
-- ==== Proof.R0Shared.lean ====
/-
  The first pallas_call, the row statistics: what its runs share. Its grid is 4 row tiles by 25 vocabulary
  blocks; the body keeps, in two scratch columns, the running maximum and the running normaliser of the tile's
  512 rows, resets them at a tile's first block and copies them to the two output columns at its last block.
  Here: a window's block at a grid point as the region finds it; that an input's staging buffer holds its block
  at every point; the two branch conditions in closed form over the grid; where the two output windows are idle;
  the memrefs the body is called with; and the region invariant's scratch part spelt as owned memrefs.
-/
import proofs.«178329_j25546465477119_2_alg».proof.Proof.Gen.KernelIdeal.Launch
import proofs.«178329_j25546465477119_2_alg».proof.Proof.Gen.KernelIdeal.Skeleton
import proofs.«178329_j25546465477119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-state tile's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias block's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions over the grid -/

/-- "This is the tile's first vocabulary block", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- "This is the tile's last vocabulary block". -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a tile's last block the two output columns are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a tile's last block they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The two scratch columns: the running maximum and the running normaliser. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

end Cert.KernelIdeal.Gen

end
-- ==== Proof.R0RunB.lean ====
/-
  The body at a middle block of a tile: neither branch is taken. From the running maximum and normaliser the block before left in the two scratch columns it stores the updated ones; the two output columns are handed back untouched.
-/
import proofs.«178329_j25546465477119_2_alg».proof.Proof.R0Shared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__rowstats_kernel i arg2 harg2 arg3 harg3 arg4 harg4 arg5 harg5 arg6 harg6 arg7 harg7 arg8 harg8) K } := by
  refine ⟨[], [], ?_, ?_, fun xi3 xi4 E K => ?run⟩
  case run =>
    simp only [cc0__rowstats_kernel_eq_skeleton]; unfold cc0__rowstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Gen

end
-- ==== Proof.R0RunA.lean ====
/-
  The body at a tile's first block: the reset branch is taken. Whatever the two scratch columns held, it stores minus infinity and zero into them and then the first block's maximum and normaliser; the two output columns are handed back untouched.
-/
import proofs.«178329_j25546465477119_2_alg».proof.Proof.R0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__rowstats_kernel i arg2 harg2 arg3 harg3 arg4 harg4 arg5 harg5 arg6 harg6 arg7 harg7 arg8 harg8) K } := by
  refine ⟨[], [], ?_, ?_, fun xi3 xi4 E K => ?run⟩
  case run =>
    simp only [cc0__rowstats_kernel_eq_skeleton]; unfold cc0__rowstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Gen

end
-- ==== Proof.R0RunC.lean ====
/-
  The body at a tile's last block: the write-out branch is taken. It updates the two scratch columns as at a middle block and then copies them into the two output columns, whatever those held.
-/
import proofs.«178329_j25546465477119_2_alg».proof.Proof.R0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__rowstats_kernel i arg2 harg2 arg3 harg3 arg4 harg4 arg5 harg5 arg6 harg6 arg7 harg7 arg8 harg8) K } := by
  refine ⟨?_, ?_, ?_, ?_, fun E K => ?run⟩
  case run =>
    simp only [cc0__rowstats_kernel_eq_skeleton]; unfold cc0__rowstats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Gen

end
-- ==== Proof.R0Frame.lean ====
/-
  The first pallas_call, the row statistics: its proof data and the body's obligation at every grid point.
  A tile's 25 points fall in three cases: its first block (the scratch columns are reset, then updated), a middle
  block (updated), its last block (updated, then copied to the two output columns). What the scratch columns and
  the output columns hold after point n is defined by recursion on n (`outsAt0`): the case's stores applied to
  the point's input blocks and, away from a tile's first block, to what point n − 1 left in the scratch columns.
  The region invariant carries the two scratch columns at those contents from point to point; the core's other
  scoped buffers and the generator register pass through untouched.
-/
import proofs.«178329_j25546465477119_2_alg».proof.Proof.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the case leaves in output column 3's staging buffer (nothing is stored: a placeholder no one reads, the window being idle there). -/
def out0_A_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- What the case leaves in output column 4's staging buffer (nothing is stored: a placeholder no one reads, the window being idle there). -/
def out0_A_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

theorem scover0_A_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) (y : S512x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S512x1.size (by sl_kernel_rfl) y

/-- What the case leaves in scratch column 0. -/
def sout0_A_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

theorem scover0_A_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) (y : S512x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S512x1.size (by sl_kernel_rfl) y

/-- What the case leaves in scratch column 1. -/
def sout0_A_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- What the case leaves in output column 3's staging buffer (nothing is stored: a placeholder no one reads, the window being idle there). -/
def out0_B_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- What the case leaves in output column 4's staging buffer (nothing is stored: a placeholder no one reads, the window being idle there). -/
def out0_B_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

theorem scover0_B_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S512x1.size (by sl_kernel_rfl) y

/-- What the case leaves in scratch column 0. -/
def sout0_B_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

theorem scover0_B_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S512x1.size (by sl_kernel_rfl) y

/-- What the case leaves in scratch column 1. -/
def sout0_B_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

theorem cover0_C_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S512x1.size (by sl_kernel_rfl) y

/-- What the case leaves in output column 3's staging buffer. -/
def out0_C_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

theorem cover0_C_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S512x1.size (by sl_kernel_rfl) y

/-- What the case leaves in output column 4's staging buffer. -/
def out0_C_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

theorem scover0_C_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S512x1.size (by sl_kernel_rfl) y

/-- What the case leaves in scratch column 0. -/
def sout0_C_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

theorem scover0_C_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S512x1.size (by sl_kernel_rfl) y

/-- What the case leaves in scratch column 1. -/
def sout0_C_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## What the columns hold after each point -/

/-- After the body at position `n`: (output column 3, output column 4, scratch column 0, scratch column 1). -/
def outsAt0 (c : Dev nD) : (n : ℕ) → n < cfg0.N → Vec F S512x1 .f32 × Vec F S512x1 .f32 × Vec F S512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers other than the two scratch columns (the second call's staging buffers), each whole at
    some contents. -/
def restBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two scratch columns spelt as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restBufs (F := F) c) ∗ (∃ r, prngReg c r)) := by
  unfold Pipeline.ΦA restBufs; rw [scopedRest0_eq]; simp only [scM0_0, scM0_1, owns_whole]; try rfl

/-- Before position `n`: at the region's entry the class invariant; afterwards the two scratch columns at what the
    point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restBufs (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restBufs (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restBufs (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 25 = 24
  · -- a tile's last block
    have h0 : ¬t.val % 25 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [outsAt0_C V c t h0 h1]
    unfold out0_C_3 out0_C_4 sout0_C_0 sout0_C_1; (try dsimp only)
    rw [PhiS_castSucc V c t, PhiS_pos V c _ _ hz]
    iintro ⟨⟨⟨HS0, HS1, Hrest⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _ _)
    unfold owns; iexists _; isplitr
    swap; · iexact H4
    ipureintro; exact View.read_writes_of_cover _ _ _ _ _ (cover0_C_4 c _ _ _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    by_cases h0 : t.val % 25 = 0
    · -- a tile's first block
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
    · -- a middle block
      have hz : t.val ≠ 0 := by omega
      rw [outsAt0_B V c t h0 h1]
      unfold sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the scratch columns' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Region0

end Cert.KernelIdeal.Gen

end
-- ==== Proof.Region1.lean ====
/- Region 1 of @main: the second pallas_call, `cc1__prob_kernel`, at a parameter `V` — the TensorCore's buffer
   contents when the region is entered. Seven input windows (the hidden block, the weights block, the bias row, the
   row maxima, the row sums, the copy gate, the delta block) and one output window, stored whole once per grid point.
   Stated here: each window's block at a point, the output buffer after the body as a function of the seven input
   blocks, the body's triple, the pipeline's proof data and its body obligation. -/
import proofs.«178329_j25546465477119_2_alg».proof.Proof.Gen.KernelIdeal.Launch
import proofs.«178329_j25546465477119_2_alg».proof.Proof.Gen.KernelIdeal.Skeleton
import proofs.«178329_j25546465477119_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when region 1 is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds the window's block at every point, whether the pipeline fetched
    it there or not: where it did not, the block index has not moved since the last fetch and the body leaves the
    buffer as it found it. One statement per input window, for any proof data over `V` that keeps the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded, and the output stored, as one whole rectangle -/

abbrev rHidden : Rect S512x512 := Rect.unit (s := S512x512) ![0, 0] S512x512.size inb_S512x512_S512x512_0_0
abbrev rWeights : Rect S1280x512 := Rect.unit (s := S1280x512) ![0, 0] S1280x512.size inb_S1280x512_S1280x512_0_0
abbrev rBias : Rect S1x1280 := Rect.unit (s := S1x1280) ![0, 0] S1x1280.size inb_S1x1280_S1x1280_0_0
abbrev rColumn : Rect S512x1 := Rect.unit (s := S512x1) ![0, 0] S512x1.size inb_S512x1_S512x1_0_0
abbrev rTile : Rect S512x1280 := Rect.unit (s := S512x1280) ![0, 0] S512x1280.size inb_S512x1280_S512x1280_0_0

/-! ## What the body leaves in the output window's buffer -/

/-- The output buffer after the body, from the seven input blocks: its one store, of the payload at the seven
    loaded vectors, over the whole buffer. -/
def out1_7 (x0 : Vec F S512x512 .f32) (x1 : Vec F S1280x512 .bf16) (x2 : Vec F S1x1280 .f32) (x3 x4 x5 : Vec F S512x1 .f32)
    (x6 : Vec F S512x1280 .f32) : Vec F S512x1280 .f32 :=
  View.canon [⟨rTile, k1_pay1 (View.ld x0 rHidden) (View.ld x1 rWeights) (View.ld x2 rBias) (View.ld x3 rColumn) (View.ld x4 rColumn)
    (View.ld x5 rColumn) (View.ld x6 rTile)⟩]

/-- The one store covers the buffer. -/
theorem cover1_7 (p0 : Vec F S512x1280 .f32) (y : S512x1280.Idx) :
    ∃ pc ∈ ([⟨rTile, p0⟩] : List (View.Piece (Elt F) S512x1280 .f32)), y ∈ pc.1.set :=
  View.cover_of_tiled [⟨rTile, p0⟩] S512x1280.size (by rfl) y

/-! ## The body's triple -/

set_option maxHeartbeats 4000000 in
/-- The kernel body on whole staging memrefs, the inputs' at read contents `x0 … x6` and the output's at anything, runs
    to the continuation holding the inputs' as they were and the output's at `out1_7` of the inputs. -/
theorem sound_kernel1 (c : Dev nD) (E : Set ℕ) (i : grid1.Coords)
    (arg0 : Memref sig .tc .vmem S512x512 .f32) (harg0 : arg0.IsWhole) (arg1 : Memref sig .tc .vmem S1280x512 .bf16) (harg1 : arg1.IsWhole)
    (arg2 : Memref sig .tc .vmem S1x1280 .f32) (harg2 : arg2.IsWhole) (arg3 : Memref sig .tc .vmem S512x1 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1280 .f32) (harg6 : arg6.IsWhole) (arg7 : Memref sig .tc .vmem S512x1280 .f32) (harg7 : arg7.IsWhole)
    (x0 : Vec F S512x512 .f32) (x1 : Vec F S1280x512 .bf16) (x2 : Vec F S1x1280 .f32) (x3 x4 x5 : Vec F S512x1 .f32)
    (x6 : Vec F S512x1280 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E
          (cc1__prob_kernel i arg0 harg0 arg1 harg1 arg2 harg2 arg3 harg3 arg4 harg4 arg5 harg5 arg6 harg6 arg7 harg7) K := by
  simp only [cc1__prob_kernel_eq_skeleton]; unfold cc1__prob_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them; after the body at point `t` each
    input's buffer at its block and the output's at `out1_7` of the seven input blocks; the invariant that of a body
    which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so the body's triple applies; the invariant and the
    core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.FramesA.lean ====
/-
  The program's items as segments. Between the items of @main — a stretch of host operations, the row-statistics
  call, a second stretch, the probability call — every unscoped buffer of the core is held at known contents: the
  launch contents, then each stretch's operations applied, then, after a pallas_call, its output arrays at what
  its write-backs leave. Each call is a segment over that thread state: its arrays are taken out of the unscoped
  buffers on entry and put back on exit; the generator register is lent to the region invariant and returned; the
  core owes nothing throughout.
-/
import proofs.«178329_j25546465477119_2_alg».proof.Proof.R0Frame
import proofs.«178329_j25546465477119_2_alg».proof.Proof.Region1
import proofs.«178329_j25546465477119_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- The contents the first call is entered with, read at a TensorCore reference. -/
abbrev Vr1 : (c : Dev nD) → (b : Ref sig .tc) → Buf (Elt F) ((c : Thread nD τ).loc b) := fun c b => V1 m c b

/-- What the first call leaves: its two output columns at their written-back contents (any other reference: as launched;
    never read). -/
def outs0 : (r : Ref sig .tc) → (c : Dev nD) → Buf (Elt F) ((c : Thread nD τ).loc r) :=
  Function.update (Function.update (fun r c => m ((c : Thread nD τ).loc r)) main_v13_0 (fun c => (dat0 (Vr1 m) c).arrAt 3 cfg0.N))
    main_v13_1 (fun c => (dat0 (Vr1 m) c).arrAt 4 cfg0.N)
abbrev outsA : Outs (F := F) := fun _ => outs0 m

theorem outs0_v13_0 (c : Dev nD) : outs0 m main_v13_0 c = (dat0 (Vr1 m) c).arrAt 3 cfg0.N := by
  unfold outs0
  rw [Function.update_of_ne (by decide), Function.update_self]
theorem outs0_v13_1 (c : Dev nD) : outs0 m main_v13_1 c = (dat0 (Vr1 m) c).arrAt 4 cfg0.N := by
  unfold outs0
  rw [Function.update_self]

/-- The contents the second call is entered with. -/
abbrev Vr3 : (c : Dev nD) → (b : Ref sig .tc) → Buf (Elt F) ((c : Thread nD τ).loc b) := fun c b => V3 m (outsA m) c b

/-- The contents after the second call: as it was entered, the result array at what its write-backs leave. -/
def W4 (c : Dev nD) : Valuation τ sig (Elt F) :=
  Function.update (V3 m (outsA m) c) (Proc.devRef .tc main_v35) ((dat1 (Vr3 m) c).arrAt 7 cfg1.N)
theorem W4_main_v35 (c : Dev nD) : W4 m c main_v35 = (dat1 (Vr3 m) c).arrAt 7 cfg1.N := by
  unfold W4; rw [Function.update_self]
theorem W4_of_ne (c : Dev nD) (r : Ref sig .tc) (h : r ≠ main_v35) : W4 m c r = V3 m (outsA m) c r := by
  unfold W4; rw [Function.update_of_ne (StableHlo.devRef_ne_of_ne h)]
theorem W4_main_arg0 (c : Dev nD) : W4 m c main_arg0 = m ((c : Thread nD τ).loc main_arg0) :=
  (W4_of_ne m c main_arg0 (by decide)).trans <| (V3_of m (outsA m) c main_arg0 (by decide)).trans <| (V2_of m (outsA m) c main_arg0 (by decide)).trans <| (V1_of m c main_arg0 (by decide)).trans rfl
theorem W4_main_arg1 (c : Dev nD) : W4 m c main_arg1 = m ((c : Thread nD τ).loc main_arg1) :=
  (W4_of_ne m c main_arg1 (by decide)).trans <| (V3_of m (outsA m) c main_arg1 (by decide)).trans <| (V2_of m (outsA m) c main_arg1 (by decide)).trans <| (V1_of m c main_arg1 (by decide)).trans rfl
theorem W4_main_arg2 (c : Dev nD) : W4 m c main_arg2 = m ((c : Thread nD τ).loc main_arg2) :=
  (W4_of_ne m c main_arg2 (by decide)).trans <| (V3_of m (outsA m) c main_arg2 (by decide)).trans <| (V2_of m (outsA m) c main_arg2 (by decide)).trans <| (V1_of m c main_arg2 (by decide)).trans rfl
theorem W4_main_arg3 (c : Dev nD) : W4 m c main_arg3 = m ((c : Thread nD τ).loc main_arg3) :=
  (W4_of_ne m c main_arg3 (by decide)).trans <| (V3_of m (outsA m) c main_arg3 (by decide)).trans <| (V2_of m (outsA m) c main_arg3 (by decide)).trans <| (V1_of m c main_arg3 (by decide)).trans rfl
theorem W4_main_arg4 (c : Dev nD) : W4 m c main_arg4 = m ((c : Thread nD τ).loc main_arg4) :=
  (W4_of_ne m c main_arg4 (by decide)).trans <| (V3_of m (outsA m) c main_arg4 (by decide)).trans <| (V2_of m (outsA m) c main_arg4 (by decide)).trans <| (V1_of m c main_arg4 (by decide)).trans rfl
theorem W4_main_arg5 (c : Dev nD) : W4 m c main_arg5 = m ((c : Thread nD τ).loc main_arg5) :=
  (W4_of_ne m c main_arg5 (by decide)).trans <| (V3_of m (outsA m) c main_arg5 (by decide)).trans <| (V2_of m (outsA m) c main_arg5 (by decide)).trans <| (V1_of m c main_arg5 (by decide)).trans rfl
theorem W4_main_arg6 (c : Dev nD) : W4 m c main_arg6 = m ((c : Thread nD τ).loc main_arg6) :=
  (W4_of_ne m c main_arg6 (by decide)).trans <| (V3_of m (outsA m) c main_arg6 (by decide)).trans <| (V2_of m (outsA m) c main_arg6 (by decide)).trans <| (V1_of m c main_arg6 (by decide)).trans rfl

theorem V2_v13_0 (c : Dev nD) : V2 m (outsA m) c main_v13_0 = (dat0 (Vr1 m) c).arrAt 3 cfg0.N := by
  show Function.update (Function.update (V1 m c) main_v13_0 (outs0 m main_v13_0 c)) main_v13_1 (outs0 m main_v13_1 c) main_v13_0 = _
  rw [Function.update_of_ne (StableHlo.devRef_ne_of_ne (by decide)), Function.update_self]
  exact outs0_v13_0 m c
theorem V2_v13_1 (c : Dev nD) : V2 m (outsA m) c main_v13_1 = (dat0 (Vr1 m) c).arrAt 4 cfg0.N := by
  show Function.update (Function.update (V1 m c) main_v13_0 (outs0 m main_v13_0 c)) main_v13_1 (outs0 m main_v13_1 c) main_v13_1 = _
  rw [Function.update_self]
  exact outs0_v13_1 m c

/-- After the first call each of its arrays holds what the pipeline leaves, -/
theorem hF0 (c : Dev nD) (w : Fin cfg0.W) : (dat0 (Vr1 m) c).arrAt w cfg0.N = V2 m (outsA m) c (Pipeline.arrRef spec0 w) := by
  match w with
  | ⟨0, _⟩ => exact (((dat0 (Vr1 m) c).arrAt_in 0 rfl _).trans (A_eq0 (Vr1 m) c 0)).trans (V2_of m (outsA m) c main_arg0 (by decide)).symm
  | ⟨1, _⟩ => exact (((dat0 (Vr1 m) c).arrAt_in 1 rfl _).trans (A_eq0 (Vr1 m) c 1)).trans (V2_of m (outsA m) c main_v12 (by decide)).symm
  | ⟨2, _⟩ => exact (((dat0 (Vr1 m) c).arrAt_in 2 rfl _).trans (A_eq0 (Vr1 m) c 2)).trans (V2_of m (outsA m) c main_v11 (by decide)).symm
  | ⟨3, _⟩ => exact (V2_v13_0 m c).symm
  | ⟨4, _⟩ => exact (V2_v13_1 m c).symm
/-- and every other buffer what it held on entry. -/
theorem hrest0 (c : Dev nD) : ∀ b, b ∉ Finset.univ.image (Pipeline.arrRef spec0) → V2 m (outsA m) c b = Vr1 m c b :=
  fun b hb => V2_of m (outsA m) c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- After the second call each of its arrays holds what the pipeline leaves, -/
theorem hF1 (c : Dev nD) (w : Fin cfg1.W) : (dat1 (Vr3 m) c).arrAt w cfg1.N = W4 m c (Pipeline.arrRef spec1 w) := by
  match w with
  | ⟨0, _⟩ => exact (((dat1 (Vr3 m) c).arrAt_in 0 rfl _).trans (A_eq1 (Vr3 m) c 0)).trans (W4_of_ne m c main_arg0 (by decide)).symm
  | ⟨1, _⟩ => exact (((dat1 (Vr3 m) c).arrAt_in 1 rfl _).trans (A_eq1 (Vr3 m) c 1)).trans (W4_of_ne m c main_v12 (by decide)).symm
  | ⟨2, _⟩ => exact (((dat1 (Vr3 m) c).arrAt_in 2 rfl _).trans (A_eq1 (Vr3 m) c 2)).trans (W4_of_ne m c main_v11 (by decide)).symm
  | ⟨3, _⟩ => exact (((dat1 (Vr3 m) c).arrAt_in 3 rfl _).trans (A_eq1 (Vr3 m) c 3)).trans (W4_of_ne m c main_v13_0 (by decide)).symm
  | ⟨4, _⟩ => exact (((dat1 (Vr3 m) c).arrAt_in 4 rfl _).trans (A_eq1 (Vr3 m) c 4)).trans (W4_of_ne m c main_v13_1 (by decide)).symm
  | ⟨5, _⟩ => exact (((dat1 (Vr3 m) c).arrAt_in 5 rfl _).trans (A_eq1 (Vr3 m) c 5)).trans (W4_of_ne m c main_v10 (by decide)).symm
  | ⟨6, _⟩ => exact (((dat1 (Vr3 m) c).arrAt_in 6 rfl _).trans (A_eq1 (Vr3 m) c 6)).trans (W4_of_ne m c main_v34 (by decide)).symm
  | ⟨7, _⟩ => exact (W4_main_v35 m c).symm
theorem hrest1 (c : Dev nD) : ∀ b, b ∉ Finset.univ.image (Pipeline.arrRef spec1) → W4 m c b = Vr3 m c b :=
  fun b hb => W4_of_ne m c b (by
    rintro rfl
    exact hb (Finset.mem_image.mpr ⟨7, Finset.mem_univ _, rfl⟩))

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Efam : Fin 3 → Dev nD → sProp 𝕄 := fun _ c => Rst (F := F) c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pallas call 0 as a segment: entered with every unscoped buffer at the contents before it, left with them at the
    contents after it — its arrays taken out of the unscoped buffers on entry and put back, at what the write-backs
    leave, on exit; the generator register lent to the region invariant and returned; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outsA m) c) ∗ Rst c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr1 m) c)
    unfold Pipeline.ΦA
    iintro ⟨Hp, -, Hr⟩
    isplitl [Hr]; · iexact Hr
    iexact Hp
  hout c := by
    rw [Pipeline.ownSems0_none]
    refine BIBase.Entails.trans (hout0 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (fun b => V2 m (outsA m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at the contents before it, left with them at the
    contents after it — its arrays taken out of the unscoped buffers on entry and put back, at what the write-backs
    leave, on exit; the generator register lent to the region invariant and returned; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (V3 m (outsA m) c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frames.lean ====
/-
  The whole program's run: every weakly fair execution of @main from a memory with zero counters ends, faulting
  nowhere, with every unscoped buffer of every core at the last boundary's contents — the seven arguments as
  launched, the result at what the second call's write-backs leave.
-/
import proofs.«178329_j25546465477119_2_alg».proof.Proof.FramesA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ (c : Dev nD), ∀ b ∈ Pipeline.ucRefs τ sig,
      r.2.mem (((c : Thread nD τ)).1, b) = W4 m c b) :=
  Pipeline.θ_run_regions_kit_dev (pcfgs (F := F)) adm (pdats m) () cellOf_inj emb₁ defs₀ 𝒱₀ L lv m ρ main
    (segs m (outsA m) 𝒱₀ L lv Efam () (pdats m) (reg0 m) (reg1 m))
    (fun c Q => by
      rw [main_segs adm (pdats m) () 𝒱₀ L lv (seg0 m 𝒱₀ L lv Efam) (seg2 m (outsA m) 𝒱₀ L lv Efam) (reg0 m) (reg1 m) rfl rfl c])
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (W4 m c) ∗ ∃ r, prngReg c r))
    (hch := fun c => ⟨.rfl, .rfl, .rfl, .rfl,
      (show (iprop(StableHlo.held (c : Thread nD τ) (Pipeline.ucRefs τ sig) (W4 m c) ∗ Rst c) : sProp 𝕄)
          ⊢ iprop(iprop(StableHlo.held (c : Thread nD τ) (Pipeline.ucRefs τ sig) (W4 m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The program's frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

/-- The run with the result named: the result array ends at what the second call's write-backs leave. -/
theorem run_value : θ_run defs (onTc (τ := τ) (main (F := F))) ⟨m, fun _ => 0, ρ⟩ (fun r => ∀ c : Dev nD,
      r.2.mem ((c.tc : Thread nD τ).loc main_v35) = (dat1 (Vr3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v35 (by decide))).trans (W4_main_v35 m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

end Cert.KernelIdeal.Gen

end
-- ==== Proof.R0SharedK.lean ====
/-
  The first pallas_call, the row statistics: what its runs share. Its grid is 4 row tiles by 25 vocabulary
  blocks; the body keeps, in two scratch columns, the running maximum and the running normaliser of the tile's
  512 rows, resets them at a tile's first block and copies them to the two output columns at its last block.
  Here: a window's block at a grid point as the region finds it; that an input's staging buffer holds its block
  at every point; the two branch conditions in closed form over the grid; where the two output windows are idle;
  the memrefs the body is called with; and the region invariant's scratch part spelt as owned memrefs.
-/
import proofs.«178329_j25546465477119_2_alg».proof.Proof.Gen.Kernel.Launch
import proofs.«178329_j25546465477119_2_alg».proof.Proof.Gen.Kernel.Skeleton
import proofs.«178329_j25546465477119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden-state tile's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias block's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions over the grid -/

/-- "This is the tile's first vocabulary block", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)
/-- "This is the tile's last vocabulary block". -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a tile's last block the two output columns are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a tile's last block they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The two scratch columns: the running maximum and the running normaliser. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

end Cert.Kernel.Gen

end
-- ==== Proof.R0RunBK.lean ====
/-
  The body at a middle block of a tile: neither branch is taken. From the running maximum and normaliser the block before left in the two scratch columns it stores the updated ones; the two output columns are handed back untouched.
-/
import proofs.«178329_j25546465477119_2_alg».proof.Proof.R0SharedK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__rowstats_kernel i arg2 harg2 arg3 harg3 arg4 harg4 arg5 harg5 arg6 harg6 arg7 harg7 arg8 harg8) K } := by
  refine ⟨[], [], ?_, ?_, fun xi3 xi4 E K => ?run⟩
  case run =>
    simp only [cc0__rowstats_kernel_eq_skeleton]; unfold cc0__rowstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Gen

end
-- ==== Proof.R0RunAK.lean ====
/-
  The body at a tile's first block: the reset branch is taken. Whatever the two scratch columns held, it stores minus infinity and zero into them and then the first block's maximum and normaliser; the two output columns are handed back untouched.
-/
import proofs.«178329_j25546465477119_2_alg».proof.Proof.R0RunBK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (xi3 xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__rowstats_kernel i arg2 harg2 arg3 harg3 arg4 harg4 arg5 harg5 arg6 harg6 arg7 harg7 arg8 harg8) K } := by
  refine ⟨[], [], ?_, ?_, fun xi3 xi4 E K => ?run⟩
  case run =>
    simp only [cc0__rowstats_kernel_eq_skeleton]; unfold cc0__rowstats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Gen

end
-- ==== Proof.R0RunCK.lean ====
/-
  The body at a tile's last block: the write-out branch is taken. It updates the two scratch columns as at a middle block and then copies them into the two output columns, whatever those held.
-/
import proofs.«178329_j25546465477119_2_alg».proof.Proof.R0RunAK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) :
    Σ' (L3 : List (View.Piece (Elt F) S512x1 .f32)) (L4 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__rowstats_kernel i arg2 harg2 arg3 harg3 arg4 harg4 arg5 harg5 arg6 harg6 arg7 harg7 arg8 harg8) K } := by
  refine ⟨?_, ?_, ?_, ?_, fun E K => ?run⟩
  case run =>
    simp only [cc0__rowstats_kernel_eq_skeleton]; unfold cc0__rowstats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Gen

end
-- ==== Proof.R0FrameK.lean ====
/-
  The first pallas_call, the row statistics: its proof data and the body's obligation at every grid point.
  A tile's 25 points fall in three cases: its first block (the scratch columns are reset, then updated), a middle
  block (updated), its last block (updated, then copied to the two output columns). What the scratch columns and
  the output columns hold after point n is defined by recursion on n (`outsAt0`): the case's stores applied to
  the point's input blocks and, away from a tile's first block, to what point n − 1 left in the scratch columns.
  The region invariant carries the two scratch columns at those contents from point to point; the core's other
  scoped buffers and the generator register pass through untouched.
-/
import proofs.«178329_j25546465477119_2_alg».proof.Proof.R0RunCK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the case leaves in output column 3's staging buffer (nothing is stored: a placeholder no one reads, the window being idle there). -/
def out0_A_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

/-- What the case leaves in output column 4's staging buffer (nothing is stored: a placeholder no one reads, the window being idle there). -/
def out0_A_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

theorem scover0_A_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) (y : S512x1.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S512x1.size (by sl_kernel_rfl) y

/-- What the case leaves in scratch column 0. -/
def sout0_A_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

theorem scover0_A_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) (y : S512x1.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL (kernelRun0_A c i arg2 harg2 arg3 harg3 arg4 harg4 arg5 harg5 arg6 harg6 arg7 harg7 arg8 harg8 hc0 hc1 x0 x1 x2).2.2.2.1 S512x1.size (by sl_kernel_rfl) y

/-- What the case leaves in scratch column 1. -/
def sout0_A_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

/-- What the case leaves in output column 3's staging buffer (nothing is stored: a placeholder no one reads, the window being idle there). -/
def out0_B_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

/-- What the case leaves in output column 4's staging buffer (nothing is stored: a placeholder no one reads, the window being idle there). -/
def out0_B_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

theorem scover0_B_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.1 S512x1.size (by sl_kernel_rfl) y

/-- What the case leaves in scratch column 0. -/
def sout0_B_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

theorem scover0_B_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) (y : S512x1.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_B c i arg2 harg2 arg3 harg3 arg4 harg4 arg5 harg5 arg6 harg6 arg7 harg7 arg8 harg8 hc0 hc1 x0 x1 x2 xs0 xs1).2.2.2.1 S512x1.size (by sl_kernel_rfl) y

/-- What the case leaves in scratch column 1. -/
def sout0_B_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

theorem cover0_C_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S512x1.size (by sl_kernel_rfl) y

/-- What the case leaves in output column 3's staging buffer. -/
def out0_C_3 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

theorem cover0_C_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S512x1.size (by sl_kernel_rfl) y

/-- What the case leaves in output column 4's staging buffer. -/
def out0_C_4 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

theorem scover0_C_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S512x1.size (by sl_kernel_rfl) y

/-- What the case leaves in scratch column 0. -/
def sout0_C_0 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

theorem scover0_C_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) (y : S512x1.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S512x1.size (by sl_kernel_rfl) y

/-- What the case leaves in scratch column 1. -/
def sout0_C_1 (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-! ## What the columns hold after each point -/

/-- After the body at position `n`: (output column 3, output column 4, scratch column 0, scratch column 1). -/
def outsAt0 (c : Dev nD) : (n : ℕ) → n < cfg0.N → Vec F S512x1 .f32 × Vec F S512x1 .f32 × Vec F S512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers other than the two scratch columns (the second call's staging buffers), each whole at
    some contents. -/
def restBufs (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two scratch columns spelt as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restBufs (F := F) c) ∗ (∃ r, prngReg c r)) := by
  unfold Pipeline.ΦA restBufs; rw [scopedRest0_eq]; simp only [scM0_0, scM0_1, owns_whole]; try rfl

/-- Before position `n`: at the region's entry the class invariant; afterwards the two scratch columns at what the
    point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restBufs (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restBufs (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restBufs (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 25 = 24
  · -- a tile's last block
    have h0 : ¬t.val % 25 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [outsAt0_C V c t h0 h1]
    unfold out0_C_3 out0_C_4 sout0_C_0 sout0_C_1; (try dsimp only)
    rw [PhiS_castSucc V c t, PhiS_pos V c _ _ hz]
    iintro ⟨⟨⟨HS0, HS1, Hrest⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _ _)
    unfold owns; iexists _; isplitr
    swap; · iexact H4
    ipureintro; exact View.read_writes_of_cover _ _ _ _ _ (cover0_C_4 c _ _ _ _ _ _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    by_cases h0 : t.val % 25 = 0
    · -- a tile's first block
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc V c t, PhiS_pos V c _ _ hz]
        iintro ⟨⟨⟨HS0, HS1, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hrest Hg]
        · isplitl [HS0 HS1 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexists _; iexact H3
        iexists _; iexact H4
    · -- a middle block
      have hz : t.val ≠ 0 := by omega
      rw [outsAt0_B V c t h0 h1]
      unfold sout0_B_0 sout0_B_1; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the scratch columns' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Region0

end Cert.Kernel.Gen

end
-- ==== Proof.Region1K.lean ====
/- Region 1 of @main: the second pallas_call, `cc1__prob_kernel`, at a parameter `V` — the TensorCore's buffer
   contents when the region is entered. Seven input windows (the hidden block, the weights block, the bias row, the
   row maxima, the row sums, the copy gate, the delta block) and one output window, stored whole once per grid point.
   Stated here: each window's block at a point, the output buffer after the body as a function of the seven input
   blocks, the body's triple, the pipeline's proof data and its body obligation. -/
import proofs.«178329_j25546465477119_2_alg».proof.Proof.Gen.Kernel.Launch
import proofs.«178329_j25546465477119_2_alg».proof.Proof.Gen.Kernel.Skeleton
import proofs.«178329_j25546465477119_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when region 1 is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds the window's block at every point, whether the pipeline fetched
    it there or not: where it did not, the block index has not moved since the last fetch and the body leaves the
    buffer as it found it. One statement per input window, for any proof data over `V` that keeps the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is loaded, and the output stored, as one whole rectangle -/

abbrev rHidden : Rect S512x512 := Rect.unit (s := S512x512) ![0, 0] S512x512.size inb_S512x512_S512x512_0_0
abbrev rWeights : Rect S1280x512 := Rect.unit (s := S1280x512) ![0, 0] S1280x512.size inb_S1280x512_S1280x512_0_0
abbrev rBias : Rect S1x1280 := Rect.unit (s := S1x1280) ![0, 0] S1x1280.size inb_S1x1280_S1x1280_0_0
abbrev rColumn : Rect S512x1 := Rect.unit (s := S512x1) ![0, 0] S512x1.size inb_S512x1_S512x1_0_0
abbrev rTile : Rect S512x1280 := Rect.unit (s := S512x1280) ![0, 0] S512x1280.size inb_S512x1280_S512x1280_0_0

/-! ## What the body leaves in the output window's buffer -/

/-- The output buffer after the body, from the seven input blocks: its one store, of the payload at the seven
    loaded vectors, over the whole buffer. -/
def out1_7 (x0 : Vec F S512x512 .f32) (x1 : Vec F S1280x512 .bf16) (x2 : Vec F S1x1280 .f32) (x3 x4 x5 : Vec F S512x1 .f32)
    (x6 : Vec F S512x1280 .f32) : Vec F S512x1280 .f32 :=
  View.canon [⟨rTile, k1_pay1 (View.ld x0 rHidden) (View.ld x1 rWeights) (View.ld x2 rBias) (View.ld x3 rColumn) (View.ld x4 rColumn)
    (View.ld x5 rColumn) (View.ld x6 rTile)⟩]

/-- The one store covers the buffer. -/
theorem cover1_7 (p0 : Vec F S512x1280 .f32) (y : S512x1280.Idx) :
    ∃ pc ∈ ([⟨rTile, p0⟩] : List (View.Piece (Elt F) S512x1280 .f32)), y ∈ pc.1.set :=
  View.cover_of_tiled [⟨rTile, p0⟩] S512x1280.size (by rfl) y

/-! ## The body's triple -/

set_option maxHeartbeats 4000000 in
/-- The kernel body on whole staging memrefs, the inputs' at read contents `x0 … x6` and the output's at anything, runs
    to the continuation holding the inputs' as they were and the output's at `out1_7` of the inputs. -/
theorem sound_kernel1 (c : Dev nD) (E : Set ℕ) (i : grid1.Coords)
    (arg0 : Memref sig .tc .vmem S512x512 .f32) (harg0 : arg0.IsWhole) (arg1 : Memref sig .tc .vmem S1280x512 .bf16) (harg1 : arg1.IsWhole)
    (arg2 : Memref sig .tc .vmem S1x1280 .f32) (harg2 : arg2.IsWhole) (arg3 : Memref sig .tc .vmem S512x1 .f32) (harg3 : arg3.IsWhole)
    (arg4 : Memref sig .tc .vmem S512x1 .f32) (harg4 : arg4.IsWhole) (arg5 : Memref sig .tc .vmem S512x1 .f32) (harg5 : arg5.IsWhole)
    (arg6 : Memref sig .tc .vmem S512x1280 .f32) (harg6 : arg6.IsWhole) (arg7 : Memref sig .tc .vmem S512x1280 .f32) (harg7 : arg7.IsWhole)
    (x0 : Vec F S512x512 .f32) (x1 : Vec F S1280x512 .bf16) (x2 : Vec F S1x1280 .f32) (x3 x4 x5 : Vec F S512x1 .f32)
    (x6 : Vec F S512x1280 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E
          (cc1__prob_kernel i arg0 harg0 arg1 harg1 arg2 harg2 arg3 harg3 arg4 harg4 arg5 harg5 arg6 harg6 arg7 harg7) K := by
  simp only [cc1__prob_kernel_eq_skeleton]; unfold cc1__prob_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them; after the body at point `t` each
    input's buffer at its block and the output's at `out1_7` of the seven input blocks; the invariant that of a body
    which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' memrefs hold their blocks, so the body's triple applies; the invariant and the
    core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.FramesAK.lean ====
/-
  The program's items as segments. Between the items of @main — a stretch of host operations, the row-statistics
  call, a second stretch, the probability call — every unscoped buffer of the core is held at known contents: the
  launch contents, then each stretch's operations applied, then, after a pallas_call, its output arrays at what
  its write-backs leave. Each call is a segment over that thread state: its arrays are taken out of the unscoped
  buffers on entry and put back on exit; the generator register is lent to the region invariant and returned; the
  core owes nothing throughout.
-/
import proofs.«178329_j25546465477119_2_alg».proof.Proof.R0FrameK
import proofs.«178329_j25546465477119_2_alg».proof.Proof.Region1K
import proofs.«178329_j25546465477119_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- The contents the first call is entered with, read at a TensorCore reference. -/
abbrev Vr1 : (c : Dev nD) → (b : Ref sig .tc) → Buf (Elt F) ((c : Thread nD τ).loc b) := fun c b => V1 m c b

/-- What the first call leaves: its two output columns at their written-back contents (any other reference: as launched;
    never read). -/
def outs0 : (r : Ref sig .tc) → (c : Dev nD) → Buf (Elt F) ((c : Thread nD τ).loc r) :=
  Function.update (Function.update (fun r c => m ((c : Thread nD τ).loc r)) main_v13_0 (fun c => (dat0 (Vr1 m) c).arrAt 3 cfg0.N))
    main_v13_1 (fun c => (dat0 (Vr1 m) c).arrAt 4 cfg0.N)
abbrev outsA : Outs (F := F) := fun _ => outs0 m

theorem outs0_v13_0 (c : Dev nD) : outs0 m main_v13_0 c = (dat0 (Vr1 m) c).arrAt 3 cfg0.N := by
  unfold outs0
  rw [Function.update_of_ne (by decide), Function.update_self]
theorem outs0_v13_1 (c : Dev nD) : outs0 m main_v13_1 c = (dat0 (Vr1 m) c).arrAt 4 cfg0.N := by
  unfold outs0
  rw [Function.update_self]

/-- The contents the second call is entered with. -/
abbrev Vr3 : (c : Dev nD) → (b : Ref sig .tc) → Buf (Elt F) ((c : Thread nD τ).loc b) := fun c b => V3 m (outsA m) c b

/-- The contents after the second call: as it was entered, the result array at what its write-backs leave. -/
def W4 (c : Dev nD) : Valuation τ sig (Elt F) :=
  Function.update (V3 m (outsA m) c) (Proc.devRef .tc main_v35) ((dat1 (Vr3 m) c).arrAt 7 cfg1.N)
theorem W4_main_v35 (c : Dev nD) : W4 m c main_v35 = (dat1 (Vr3 m) c).arrAt 7 cfg1.N := by
  unfold W4; rw [Function.update_self]
theorem W4_of_ne (c : Dev nD) (r : Ref sig .tc) (h : r ≠ main_v35) : W4 m c r = V3 m (outsA m) c r := by
  unfold W4; rw [Function.update_of_ne (StableHlo.devRef_ne_of_ne h)]
theorem W4_main_arg0 (c : Dev nD) : W4 m c main_arg0 = m ((c : Thread nD τ).loc main_arg0) :=
  (W4_of_ne m c main_arg0 (by decide)).trans <| (V3_of m (outsA m) c main_arg0 (by decide)).trans <| (V2_of m (outsA m) c main_arg0 (by decide)).trans <| (V1_of m c main_arg0 (by decide)).trans rfl
theorem W4_main_arg1 (c : Dev nD) : W4 m c main_arg1 = m ((c : Thread nD τ).loc main_arg1) :=
  (W4_of_ne m c main_arg1 (by decide)).trans <| (V3_of m (outsA m) c main_arg1 (by decide)).trans <| (V2_of m (outsA m) c main_arg1 (by decide)).trans <| (V1_of m c main_arg1 (by decide)).trans rfl
theorem W4_main_arg2 (c : Dev nD) : W4 m c main_arg2 = m ((c : Thread nD τ).loc main_arg2) :=
  (W4_of_ne m c main_arg2 (by decide)).trans <| (V3_of m (outsA m) c main_arg2 (by decide)).trans <| (V2_of m (outsA m) c main_arg2 (by decide)).trans <| (V1_of m c main_arg2 (by decide)).trans rfl
theorem W4_main_arg3 (c : Dev nD) : W4 m c main_arg3 = m ((c : Thread nD τ).loc main_arg3) :=
  (W4_of_ne m c main_arg3 (by decide)).trans <| (V3_of m (outsA m) c main_arg3 (by decide)).trans <| (V2_of m (outsA m) c main_arg3 (by decide)).trans <| (V1_of m c main_arg3 (by decide)).trans rfl
theorem W4_main_arg4 (c : Dev nD) : W4 m c main_arg4 = m ((c : Thread nD τ).loc main_arg4) :=
  (W4_of_ne m c main_arg4 (by decide)).trans <| (V3_of m (outsA m) c main_arg4 (by decide)).trans <| (V2_of m (outsA m) c main_arg4 (by decide)).trans <| (V1_of m c main_arg4 (by decide)).trans rfl
theorem W4_main_arg5 (c : Dev nD) : W4 m c main_arg5 = m ((c : Thread nD τ).loc main_arg5) :=
  (W4_of_ne m c main_arg5 (by decide)).trans <| (V3_of m (outsA m) c main_arg5 (by decide)).trans <| (V2_of m (outsA m) c main_arg5 (by decide)).trans <| (V1_of m c main_arg5 (by decide)).trans rfl
theorem W4_main_arg6 (c : Dev nD) : W4 m c main_arg6 = m ((c : Thread nD τ).loc main_arg6) :=
  (W4_of_ne m c main_arg6 (by decide)).trans <| (V3_of m (outsA m) c main_arg6 (by decide)).trans <| (V2_of m (outsA m) c main_arg6 (by decide)).trans <| (V1_of m c main_arg6 (by decide)).trans rfl

theorem V2_v13_0 (c : Dev nD) : V2 m (outsA m) c main_v13_0 = (dat0 (Vr1 m) c).arrAt 3 cfg0.N := by
  show Function.update (Function.update (V1 m c) main_v13_0 (outs0 m main_v13_0 c)) main_v13_1 (outs0 m main_v13_1 c) main_v13_0 = _
  rw [Function.update_of_ne (StableHlo.devRef_ne_of_ne (by decide)), Function.update_self]
  exact outs0_v13_0 m c
theorem V2_v13_1 (c : Dev nD) : V2 m (outsA m) c main_v13_1 = (dat0 (Vr1 m) c).arrAt 4 cfg0.N := by
  show Function.update (Function.update (V1 m c) main_v13_0 (outs0 m main_v13_0 c)) main_v13_1 (outs0 m main_v13_1 c) main_v13_1 = _
  rw [Function.update_self]
  exact outs0_v13_1 m c

/-- After the first call each of its arrays holds what the pipeline leaves, -/
theorem hF0 (c : Dev nD) (w : Fin cfg0.W) : (dat0 (Vr1 m) c).arrAt w cfg0.N = V2 m (outsA m) c (Pipeline.arrRef spec0 w) := by
  match w with
  | ⟨0, _⟩ => exact (((dat0 (Vr1 m) c).arrAt_in 0 rfl _).trans (A_eq0 (Vr1 m) c 0)).trans (V2_of m (outsA m) c main_arg0 (by decide)).symm
  | ⟨1, _⟩ => exact (((dat0 (Vr1 m) c).arrAt_in 1 rfl _).trans (A_eq0 (Vr1 m) c 1)).trans (V2_of m (outsA m) c main_v12 (by decide)).symm
  | ⟨2, _⟩ => exact (((dat0 (Vr1 m) c).arrAt_in 2 rfl _).trans (A_eq0 (Vr1 m) c 2)).trans (V2_of m (outsA m) c main_v11 (by decide)).symm
  | ⟨3, _⟩ => exact (V2_v13_0 m c).symm
  | ⟨4, _⟩ => exact (V2_v13_1 m c).symm
/-- and every other buffer what it held on entry. -/
theorem hrest0 (c : Dev nD) : ∀ b, b ∉ Finset.univ.image (Pipeline.arrRef spec0) → V2 m (outsA m) c b = Vr1 m c b :=
  fun b hb => V2_of m (outsA m) c b (by
    intro hmem
    simp only [List.mem_cons, List.mem_nil_iff, or_false] at hmem
    rcases hmem with rfl | rfl
    · exact hb (Finset.mem_image.mpr ⟨3, Finset.mem_univ _, rfl⟩)
    · exact hb (Finset.mem_image.mpr ⟨4, Finset.mem_univ _, rfl⟩))

/-- After the second call each of its arrays holds what the pipeline leaves, -/
theorem hF1 (c : Dev nD) (w : Fin cfg1.W) : (dat1 (Vr3 m) c).arrAt w cfg1.N = W4 m c (Pipeline.arrRef spec1 w) := by
  match w with
  | ⟨0, _⟩ => exact (((dat1 (Vr3 m) c).arrAt_in 0 rfl _).trans (A_eq1 (Vr3 m) c 0)).trans (W4_of_ne m c main_arg0 (by decide)).symm
  | ⟨1, _⟩ => exact (((dat1 (Vr3 m) c).arrAt_in 1 rfl _).trans (A_eq1 (Vr3 m) c 1)).trans (W4_of_ne m c main_v12 (by decide)).symm
  | ⟨2, _⟩ => exact (((dat1 (Vr3 m) c).arrAt_in 2 rfl _).trans (A_eq1 (Vr3 m) c 2)).trans (W4_of_ne m c main_v11 (by decide)).symm
  | ⟨3, _⟩ => exact (((dat1 (Vr3 m) c).arrAt_in 3 rfl _).trans (A_eq1 (Vr3 m) c 3)).trans (W4_of_ne m c main_v13_0 (by decide)).symm
  | ⟨4, _⟩ => exact (((dat1 (Vr3 m) c).arrAt_in 4 rfl _).trans (A_eq1 (Vr3 m) c 4)).trans (W4_of_ne m c main_v13_1 (by decide)).symm
  | ⟨5, _⟩ => exact (((dat1 (Vr3 m) c).arrAt_in 5 rfl _).trans (A_eq1 (Vr3 m) c 5)).trans (W4_of_ne m c main_v10 (by decide)).symm
  | ⟨6, _⟩ => exact (((dat1 (Vr3 m) c).arrAt_in 6 rfl _).trans (A_eq1 (Vr3 m) c 6)).trans (W4_of_ne m c main_v34 (by decide)).symm
  | ⟨7, _⟩ => exact (W4_main_v35 m c).symm
theorem hrest1 (c : Dev nD) : ∀ b, b ∉ Finset.univ.image (Pipeline.arrRef spec1) → W4 m c b = Vr3 m c b :=
  fun b hb => W4_of_ne m c b (by
    rintro rfl
    exact hb (Finset.mem_image.mpr ⟨7, Finset.mem_univ _, rfl⟩))

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Efam : Fin 3 → Dev nD → sProp 𝕄 := fun _ c => Rst (F := F) c
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Pallas call 0 as a segment: entered with every unscoped buffer at the contents before it, left with them at the
    contents after it — its arrays taken out of the unscoped buffers on entry and put back, at what the write-backs
    leave, on exit; the generator register lent to the region invariant and returned; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outsA m) c) ∗ Rst c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr1 m) c)
    unfold Pipeline.ΦA
    iintro ⟨Hp, -, Hr⟩
    isplitl [Hr]; · iexact Hr
    iexact Hp
  hout c := by
    rw [Pipeline.ownSems0_none]
    refine BIBase.Entails.trans (hout0 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (fun b => V2 m (outsA m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at the contents before it, left with them at the
    contents after it — its arrays taken out of the unscoped buffers on entry and put back, at what the write-backs
    leave, on exit; the generator register lent to the region invariant and returned; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (V3 m (outsA m) c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.FramesK.lean ====
/-
  The whole program's run: every weakly fair execution of @main from a memory with zero counters ends, faulting
  nowhere, with every unscoped buffer of every core at the last boundary's contents — the seven arguments as
  launched, the result at what the second call's write-backs leave.
-/
import proofs.«178329_j25546465477119_2_alg».proof.Proof.FramesAK

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ (c : Dev nD), ∀ b ∈ Pipeline.ucRefs τ sig,
      r.2.mem (((c : Thread nD τ)).1, b) = W4 m c b) :=
  Pipeline.θ_run_regions_kit_dev (pcfgs (F := F)) adm (pdats m) () cellOf_inj emb₁ defs₀ 𝒱₀ L lv m ρ main
    (segs m (outsA m) 𝒱₀ L lv Efam () (pdats m) (reg0 m) (reg1 m))
    (fun c Q => by
      rw [main_segs adm (pdats m) () 𝒱₀ L lv (seg0 m 𝒱₀ L lv Efam) (seg2 m (outsA m) 𝒱₀ L lv Efam) (reg0 m) (reg1 m) rfl rfl c])
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (W4 m c) ∗ ∃ r, prngReg c r))
    (hch := fun c => ⟨.rfl, .rfl, .rfl, .rfl,
      (show (iprop(StableHlo.held (c : Thread nD τ) (Pipeline.ucRefs τ sig) (W4 m c) ∗ Rst c) : sProp 𝕄)
          ⊢ iprop(iprop(StableHlo.held (c : Thread nD τ) (Pipeline.ucRefs τ sig) (W4 m c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The program's frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

/-- The run with the result named: the result array ends at what the second call's write-backs leave. -/
theorem run_value : θ_run defs (onTc (τ := τ) (main (F := F))) ⟨m, fun _ => 0, ρ⟩ (fun r => ∀ c : Dev nD,
      r.2.mem ((c.tc : Thread nD τ).loc main_v35) = (dat1 (Vr3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v35 (by decide))).trans (W4_main_v35 m c),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

end Cert.Kernel.Gen

end
-- ==== Proof.Spec.lean ====
/-
  The function both programs compute, index by index, on the extended reals.

  For a row n of the hidden states and a vocabulary entry v, the logit is the inner product of row n of the hidden
  states with row v of the output weights, plus the bias at v. A row's maximum is the running maximum of its
  32000 logits taken from minus infinity; a row's normaliser is the sum of the exponentials of the logits minus that
  maximum. The result at (n, v) is the logarithm of the larger of a floor constant and

      exp (logit − max) · (1 / normaliser) · (1 − copy gate at row n) + (scattered attention mass at (n, v)).

  The copy gate and the scattered mass are computed by the same host operations in both programs; here they are
  parameters.
-/
import Idealize.ShloMosaic.PureOps.Ideal
import Idealize.ShloMosaic.Lib.ValueIdx

noncomputable section

namespace Cert.Spec

open Idealize.ShloMosaic Idealize.ShloMosaic.ValueIdx
open scoped BigOperators

/-- The logit of row `n` at vocabulary entry `v`: the inner product over the 512 features, plus the bias. -/
def lg (x0 : (⟨2, ![2048, 512]⟩ : Shape).Idx → EReal) (x3 : (⟨2, ![32000, 512]⟩ : Shape).Idx → EReal)
    (x4 : (⟨1, ![32000]⟩ : Shape).Idx → EReal) (n : Fin 2048) (v : Fin 32000) : EReal :=
  (∑ k : Fin 512, x0 (ix2 n k) * x3 (ix2 v k)) + x4 (ix1 v)

/-- The maximum of row `n`'s logits, taken from minus infinity. -/
def rowMax (x0 : (⟨2, ![2048, 512]⟩ : Shape).Idx → EReal) (x3 : (⟨2, ![32000, 512]⟩ : Shape).Idx → EReal)
    (x4 : (⟨1, ![32000]⟩ : Shape).Idx → EReal) (n : Fin 2048) : EReal :=
  (Finset.univ : Finset (Fin 32000)).fold max ⊥ (fun v => lg x0 x3 x4 n v)

/-- The normaliser of row `n`: the sum of the exponentials of its logits minus the row's maximum. -/
def rowSum (x0 : (⟨2, ![2048, 512]⟩ : Shape).Idx → EReal) (x3 : (⟨2, ![32000, 512]⟩ : Shape).Idx → EReal)
    (x4 : (⟨1, ![32000]⟩ : Shape).Idx → EReal) (n : Fin 2048) : EReal :=
  ∑ v : Fin 32000, Ideal.exp (lg x0 x3 x4 n v - rowMax x0 x3 x4 n)

/-- The result at (n, v), given the row's copy gate `pc n` and the scattered mass `delta n v`. -/
def out (x0 : (⟨2, ![2048, 512]⟩ : Shape).Idx → EReal) (x3 : (⟨2, ![32000, 512]⟩ : Shape).Idx → EReal)
    (x4 : (⟨1, ![32000]⟩ : Shape).Idx → EReal) (pc : Fin 2048 → EReal) (delta : Fin 2048 → Fin 32000 → EReal)
    (n : Fin 2048) (v : Fin 32000) : EReal :=
  Ideal.log (max (Ideal.ofBits .f32 0x1E3CE508#32)
    (Ideal.exp (lg x0 x3 x4 n v - rowMax x0 x3 x4 n)
        * Ideal.div (Ideal.ofBits .f32 0x3F800000#32) (rowSum x0 x3 x4 n)
        * (Ideal.ofBits .f32 0x3F800000#32 - pc n)
      + delta n v))

end Cert.Spec

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibHostRows2.lean ====
/-
  The host's reductions over the last axis of a rank-2 array, read at a row, at the ideal values and for any extents.

  A one-operand host reduce with a maximum body over the last axis of an [a, n] array is, at row p, the running
  maximum from the initial value over the n entries of row p; the host's sum over the last axis is, at row p, the
  initial value plus the sum of the n entries of row p.
-/
import Idealize.ShloMosaic.Lib.ValueIdx
import Idealize.ShloMosaic.PureOps.Ideal.Laws

noncomputable section

namespace Cert.Lib.HostRows2

open Idealize.ShloMosaic Idealize.ShloMosaic.ValueIdx

/-- The host's maximum over the last axis of an [a, n] array, from the initial value, read at row p: the running
    maximum over the row. -/
theorem hostMax_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  show (Finset.univ : Finset (Fin n)).fold max (init (Shape.Idx.first hu)) (x ∘ h.lift (ix1 p)) = _
  refine congrArg (fun f => (Finset.univ : Finset (Fin n)).fold max (init (Shape.Idx.first hu)) f) (funext fun k => congrArg x ?_)
  exact funext fun ax => Fin.ext (by match ax with | ⟨0, _⟩ => rfl | ⟨1, _⟩ => rfl)

/-- The host's sum over the last axis of an [a, n] array, from the initial value, read at row p: the initial value
    plus the sum over the row. -/
theorem hostSum_last2_apply {a n : ℕ} {φ : FTy} {u : Shape} (x : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (_ + ·) (Finset.sum_congr rfl fun k _ => congrArg x ?_)
  exact funext fun ax => Fin.ext (by match ax with | ⟨0, _⟩ => rfl | ⟨1, _⟩ => rfl)

end Cert.Lib.HostRows2

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.RefValue.lean ====
/-
  The reference's result read at one index.

  At row n and vocabulary entry v the reference computes the logarithm of the larger of the floor constant and

      exp (logit − row maximum) / (row normaliser) · (1 − copy gate at row n) + (scattered attention mass at (n, v)),

  where the scattered mass is the accumulating scatter of the gated attention weights into an all-zero array.  The
  scatter into the reshaped probabilities is the reshaped probabilities plus the scatter into zeros, the two reshapes
  cancel, and the division by the row normaliser — a positive real when every logit is real — is the product with
  its reciprocal.
-/
import proofs.«178329_j25546465477119_2_alg».proof.Proof.Gen.ReferenceIdeal.Read
import proofs.«178329_j25546465477119_2_alg».proof.Proof.Spec
import proofs.«178329_j25546465477119_2_alg».proof.Proof.LibReals
import proofs.«178329_j25546465477119_2_alg».proof.Proof.LibHostRows2
import proofs.«178329_j25546465477119_2_alg».proof.Proof.LibSigmoid

set_option Elab.async false

noncomputable section

namespace Cert.RefValue

open Cert.ReferenceIdeal Cert.ReferenceIdeal.Gen Cert.ReferenceIdeal.Read
open Idealize.ShloMosaic Idealize.ShloMosaic.ValueIdx Idealize.ShloMosaic.StableHlo
open scoped BigOperators

/-- The scattered attention mass as an array: the same scatter into an all-zero operand, reshaped to [2048, 32000]. -/
def delta (x0 : (⟨S2048x512, .f32⟩ : BufTy).Contents (Elt Ideal)) (x1 : (⟨S2048x400, .f32⟩ : BufTy).Contents (Elt Ideal))
    (x2 : (⟨S400x32x1, .i32⟩ : BufTy).Contents (Elt Ideal)) (x5 : (⟨S1x512, .f32⟩ : BufTy).Contents (Elt Ideal))
    (x6 : (⟨S1, .f32⟩ : BufTy).Contents (Elt Ideal)) : (⟨S2048x32000, .f32⟩ : BufTy).Contents (Elt Ideal) :=
  shapeCast S2048x32000 (Host.scatterAdd (F := Ideal) (φ := .f32) scatter_S64x1024000_S12800x1_S64x12800_0_1_1_1 (fun _ => (0 : EReal))
    (val_main_v49 (F := Ideal) x2) (val_main_v43 (F := Ideal) x0 x1 x5 x6)) shapeCasts_S64x1024000_S2048x32000

section
variable (x0 : (⟨S2048x512, .f32⟩ : BufTy).Contents (Elt Ideal)) (x1 : (⟨S2048x400, .f32⟩ : BufTy).Contents (Elt Ideal))
  (x2 : (⟨S400x32x1, .i32⟩ : BufTy).Contents (Elt Ideal)) (x3 : (⟨S32000x512, .f32⟩ : BufTy).Contents (Elt Ideal))
  (x4 : (⟨S32000, .f32⟩ : BufTy).Contents (Elt Ideal)) (x5 : (⟨S1x512, .f32⟩ : BufTy).Contents (Elt Ideal))
  (x6 : (⟨S1, .f32⟩ : BufTy).Contents (Elt Ideal))

/-- The single-precision word 0xFF800000 denotes minus infinity. -/
private theorem ofBits_neg_inf : Ideal.ofBits .f32 0xFF800000#32 = ⊥ := by
  simp [Ideal.ofBits, Ideal.ieee]

/-! ### The softmax, read at an index -/

/-- The reference's logit at (n, v) is the inner product of row n of the hidden states with row v of the weights,
    plus the bias at v. -/
theorem logit_apply (n : Fin 2048) (v : Fin 32000) :
    val_main_v15 (F := Ideal) x0 x3 x4 (ix2 n v) = Cert.Spec.lg x0 x3 x4 n v := by
  have e1 : ∀ k : Fin 512, lidx_main_v12 (ix2 n v) k = ix2 n k := fun k =>
    funext fun a => Fin.ext (by match a with | ⟨0, _⟩ => rfl | ⟨1, _⟩ => rfl)
  have e2 : ∀ k : Fin 512, idx_main_v11 (ridx_main_v12 (ix2 n v) k) = ix2 v k := fun k =>
    funext fun a => Fin.ext (by match a with | ⟨0, _⟩ => rfl | ⟨1, _⟩ => rfl)
  have e3 : idx_main_v13 (idx_main_v14 (ix2 n v)) = ix1 v :=
    funext fun a => Fin.ext (by match a with | ⟨0, _⟩ => rfl)
  rw [val_main_v15_apply, val_main_v12_apply, val_main_v14_apply, val_main_v13_apply, e3]
  unfold Cert.Spec.lg
  simp only [Ideal.addf_def]
  refine congrArg (· + _) (Finset.sum_congr rfl fun k _ => ?_)
  rw [val_main_v11_apply, e1, e2]

/-- The reference's row maximum — the host's maximum over the row from minus infinity, then the larger of minus
    infinity and that — is the running maximum of the row's logits. -/
theorem rowMax_apply (n : Fin 2048) :
    val_main_v18 (F := Ideal) x0 x3 x4 (ix1 n) = Cert.Spec.rowMax x0 x3 x4 n := by
  rw [val_main_v18_apply, val_main_v17_apply, val_main_cst_2_apply]
  unfold val_main_v16
  rw [Cert.Lib.HostRows2.hostMax_last2_apply (val_main_v15 (F := Ideal) x0 x3 x4) (val_main_cst_1 (F := Ideal))
    reducesTo_S2048x32000_S2048_d1 (by decide) h_S_ n, val_main_cst_1_apply]
  simp only [Ideal.ofBits_def, Ideal.maximumf_def, ofBits_neg_inf]
  rw [max_eq_right bot_le]
  unfold Cert.Spec.rowMax
  exact congrArg (fun f => (Finset.univ : Finset (Fin 32000)).fold max ⊥ f) (funext fun k => logit_apply x0 x3 x4 n k)

/-- The reference's shifted exponential at (n, v). -/
theorem expShift_apply (n : Fin 2048) (v : Fin 32000) :
    val_main_v22 (F := Ideal) x0 x3 x4 (ix2 n v)
      = Ideal.exp (Cert.Spec.lg x0 x3 x4 n v - Cert.Spec.rowMax x0 x3 x4 n) := by
  have e : idx_main_v19 (idx_main_v20 (ix2 n v)) = ix1 n :=
    funext fun a => Fin.ext (by match a with | ⟨0, _⟩ => rfl)
  rw [val_main_v22_apply, val_main_v21_apply, val_main_v20_apply, val_main_v19_apply, e, rowMax_apply, logit_apply]
  simp only [Ideal.hostUnary_exp_def, Ideal.subf_def]

/-- The reference's row normaliser: the host's sum over the row from zero. -/
theorem rowSum_apply (n : Fin 2048) :
    val_main_v23 (F := Ideal) x0 x3 x4 (ix1 n) = Cert.Spec.rowSum x0 x3 x4 n := by
  rw [val_main_v23_apply, val_main_cst_3_apply]
  simp only [Ideal.ofBits_def, Ideal.ofBits_zero_f32, zero_add]
  unfold Cert.Spec.rowSum
  refine Finset.sum_congr rfl fun k _ => ?_
  have e : idx_main_v23 (ix1 n) k = ix2 n k :=
    funext fun a => Fin.ext (by match a with | ⟨0, _⟩ => rfl | ⟨1, _⟩ => rfl)
  rw [e, expShift_apply]

/-- The reference's probability at (n, v), before the scatter: the softmax with the division spelt as a division,
    times one minus the copy gate of row n. -/
theorem prob_apply (n : Fin 2048) (v : Fin 32000) :
    val_main_v30 (F := Ideal) x0 x3 x4 x5 x6 (ix2 n v)
      = Ideal.div (Ideal.exp (Cert.Spec.lg x0 x3 x4 n v - Cert.Spec.rowMax x0 x3 x4 n)) (Cert.Spec.rowSum x0 x3 x4 n)
          * (Ideal.ofBits .f32 0x3F800000#32 - val_main_v10 (F := Ideal) x0 x5 x6 (ix2 n 0)) := by
  have e1 : idx_main_v24 (idx_main_v25 (ix2 n v)) = ix1 n :=
    funext fun a => Fin.ext (by match a with | ⟨0, _⟩ => rfl)
  have e2 : idx_main_v29 (ix2 n v) = ix2 n 0 :=
    funext fun a => Fin.ext (by match a with | ⟨0, _⟩ => rfl | ⟨1, _⟩ => rfl)
  rw [val_main_v30_apply, val_main_v26_apply, val_main_v25_apply, val_main_v24_apply, e1, rowSum_apply, expShift_apply,
    val_main_v29_apply, e2, val_main_v28_apply, val_main_v27_apply, val_main_cst_4_apply]
  simp only [Ideal.mulf_def, Ideal.hostDivf_def, Ideal.subf_def, Ideal.ofBits_def]

/-! ### The scatter, read at an index -/

/-- The scattered mass read at an index: the scatter into zeros at the same flat position. -/
theorem delta_apply (i : S2048x32000.Idx) :
    delta x0 x1 x2 x5 x6 i
      = Host.scatterAdd (F := Ideal) (φ := .f32) scatter_S64x1024000_S12800x1_S64x12800_0_1_1_1 (fun _ => (0 : EReal))
          (val_main_v49 (F := Ideal) x2) (val_main_v43 (F := Ideal) x0 x1 x5 x6) (idx_main_v51 i) := by
  unfold delta
  exact shapeCast_apply _ shapeCasts_S64x1024000_S2048x32000 i (idx_main_v51 i)
    (by rewrite [Shape.rowMajor_val_two, Shape.rowMajor_val_two]; have h0 : (i 0).val < 2048 := (i 0).isLt; have h1 : (i 1).val < 32000 := (i 1).isLt; show ((i 0).val * 32000 + (i 1).val) / 1024000 * 1024000 + ((i 0).val * 32000 + (i 1).val) % 1024000 = (i 0).val * 32000 + (i 1).val; omega)

/-- Reshaping [2048, 32000] to [64, 1024000] and back returns to the same entry. -/
theorem reshape_round (n : Fin 2048) (v : Fin 32000) : idx_main_v42 (idx_main_v51 (ix2 n v)) = ix2 n v := by
  have hn : n.val < 2048 := n.isLt
  have hv : v.val < 32000 := v.isLt
  refine funext fun a => Fin.ext ?_
  match a with
  | ⟨0, _⟩ =>
    show ((n.val * 32000 + v.val) / 1024000 * 1024000 + (n.val * 32000 + v.val) % 1024000) / 32000 = n.val
    omega
  | ⟨1, _⟩ =>
    show ((n.val * 32000 + v.val) / 1024000 * 1024000 + (n.val * 32000 + v.val) % 1024000) % 32000 = v.val
    omega

/-- An accumulating scatter adds, to each entry of its operand, a sum that does not depend on the operand: the
    scatter read at an entry is the operand's entry plus the same scatter into zeros read there. -/
theorem scatterAdd_split {s si su : Shape} {w : Nat} (d : ScatterDims s si su) (x : FVec Ideal s .f32) (idx : IVec si w)
    (upd : FVec Ideal su .f32) (i : s.Idx) :
    Host.scatterAdd (F := Ideal) d x idx upd i
      = x i + Host.scatterAdd (F := Ideal) (φ := .f32) d (fun _ => (0 : EReal)) idx upd i := by
  show Ideal.hostScatterAdd d x idx upd i = x i + Ideal.hostScatterAdd d (fun _ => (0 : EReal)) idx upd i
  unfold Ideal.hostScatterAdd
  rw [zero_add]

/-- The reference's array after the scatter, at (n, v): the probability there plus the scattered mass there. -/
theorem scattered_apply (n : Fin 2048) (v : Fin 32000) :
    val_main_v51 (F := Ideal) x0 x1 x2 x3 x4 x5 x6 (ix2 n v)
      = val_main_v30 (F := Ideal) x0 x3 x4 x5 x6 (ix2 n v) + delta x0 x1 x2 x5 x6 (ix2 n v) := by
  rw [val_main_v51_apply, delta_apply]
  unfold val_main_v50
  rw [scatterAdd_split, val_main_v42_apply, reshape_round]

/-! ### The row normaliser is a positive real -/

open Cert.Reals in
/-- Every logit is a real number when the hidden states, the weights and the bias are. -/
theorem lg_real (h0 : ∀ i, IsRealS (x0 i)) (h3 : ∀ i, IsRealS (x3 i)) (h4 : ∀ i, IsRealS (x4 i))
    (n : Fin 2048) (v : Fin 32000) : IsRealS (Cert.Spec.lg x0 x3 x4 n v) := by
  unfold Cert.Spec.lg
  exact IsRealS.add (isRealS_sum _ _ fun k _ => IsRealS.mul (h0 _) (h3 _)) (h4 _)

open Cert.Reals in
/-- The running maximum, from minus infinity, of a nonempty finite family of reals is a real. -/
theorem fold_max_real {ι : Type} (s : Finset ι) (hs : s.Nonempty) (f : ι → EReal) (hf : ∀ i ∈ s, IsRealS (f i)) :
    IsRealS (s.fold max ⊥ f) := by
  classical
  induction s using Finset.induction_on with
  | empty => exact absurd hs Finset.not_nonempty_empty
  | insert a s ha ih =>
    rw [Finset.fold_insert ha]
    by_cases hs' : s.Nonempty
    · exact IsRealS.max (hf a (Finset.mem_insert_self a s)) (ih hs' fun i hi => hf i (Finset.mem_insert_of_mem hi))
    · rw [Finset.not_nonempty_iff_eq_empty] at hs'
      subst hs'
      rw [Finset.fold_empty, max_eq_left bot_le]
      exact hf a (Finset.mem_insert_self a _)

open Cert.Reals in
/-- The row normaliser is a nonzero real: a sum of 32000 exponentials of reals. -/
theorem rowSum_real (h0 : ∀ i, IsRealS (x0 i)) (h3 : ∀ i, IsRealS (x3 i)) (h4 : ∀ i, IsRealS (x4 i)) (n : Fin 2048) :
    ∃ L : ℝ, L ≠ 0 ∧ Cert.Spec.rowSum x0 x3 x4 n = (L : EReal) := by
  have hM : IsRealS (Cert.Spec.rowMax x0 x3 x4 n) :=
    fold_max_real _ ⟨0, Finset.mem_univ _⟩ _ fun v _ => lg_real x0 x3 x4 h0 h3 h4 n v
  have hr : ∀ v : Fin 32000, ∃ r : ℝ, Cert.Spec.lg x0 x3 x4 n v - Cert.Spec.rowMax x0 x3 x4 n = (r : EReal) :=
    fun v => IsRealS.sub (lg_real x0 x3 x4 h0 h3 h4 n v) hM
  choose r hr using hr
  refine ⟨∑ v : Fin 32000, Real.exp (r v), ?_, ?_⟩
  · exact (Finset.sum_pos (fun v _ => Real.exp_pos (r v)) ⟨0, Finset.mem_univ _⟩).ne'
  · unfold Cert.Spec.rowSum
    rw [coe_fintype_sum]
    exact Finset.sum_congr rfl fun v _ => by rw [hr v, Ideal.exp_coe]

/-- A quotient by a nonzero real is the product with the quotient of one by it. -/
theorem div_eq_mul_one_div (a : EReal) {L : EReal} (hL : ∃ r : ℝ, r ≠ 0 ∧ L = (r : EReal)) :
    Ideal.div a L = a * Ideal.div (Ideal.ofBits .f32 0x3F800000#32) L := by
  obtain ⟨r, hr, rfl⟩ := hL
  rw [Ideal.div_coe hr, Ideal.div_coe hr, Cert.GruLib.ofBits_one, one_mul]

end

/-- The reference's result at (n, v) is the specification's, with the copy gate and the scattered mass the
    reference's own. -/
theorem ref_out (x0 : (⟨S2048x512, .f32⟩ : BufTy).Contents (Elt Ideal)) (x1 : (⟨S2048x400, .f32⟩ : BufTy).Contents (Elt Ideal))
    (x2 : (⟨S400x32x1, .i32⟩ : BufTy).Contents (Elt Ideal)) (x3 : (⟨S32000x512, .f32⟩ : BufTy).Contents (Elt Ideal))
    (x4 : (⟨S32000, .f32⟩ : BufTy).Contents (Elt Ideal)) (x5 : (⟨S1x512, .f32⟩ : BufTy).Contents (Elt Ideal))
    (x6 : (⟨S1, .f32⟩ : BufTy).Contents (Elt Ideal))
    (h0 : ∀ i, Cert.Reals.IsRealS (x0 i)) (h3 : ∀ i, Cert.Reals.IsRealS (x3 i)) (h4 : ∀ i, Cert.Reals.IsRealS (x4 i))
    (n : Fin 2048) (v : Fin 32000) :
    val_main_v53 (F := Ideal) x0 x1 x2 x3 x4 x5 x6 (ix2 n v)
      = Cert.Spec.out x0 x3 x4 (fun n => val_main_v10 (F := Ideal) x0 x5 x6 (ix2 n 0))
          (fun n v => delta x0 x1 x2 x5 x6 (ix2 n v)) n v := by
  rw [val_main_v53_apply, val_main_v52_apply, val_main_call0_v1_apply, val_main_call0_v0_apply, val_main_cst_7_apply,
    scattered_apply, prob_apply, div_eq_mul_one_div _ (rowSum_real x0 x3 x4 h0 h3 h4 n)]
  unfold Cert.Spec.out
  simp only [Ideal.hostUnary_log_def, Ideal.maximumf_def, Ideal.ofBits_def]

end Cert.RefValue

end
-- ==== Proof.KernelHost.lean ====
/-
  The kernel program's host operations, read back.

  Before its first region the kernel program computes the copy gate (the logistic function of a row product plus a
  bias), reshapes the vocabulary bias to a row and changes the format of the vocabulary weights; between its two regions it
  scatters the gated attention weights into an all-zero array. These are the same operations, on the same
  arguments, as the corresponding stages of the reference program, so the arrays they leave are the reference's
  stage functions of the launch contents.
-/
import proofs.«178329_j25546465477119_2_alg».proof.Proof.Gen.KernelIdeal.Regions
import proofs.«178329_j25546465477119_2_alg».proof.Proof.Gen.ReferenceIdeal.Read
import proofs.«178329_j25546465477119_2_alg».proof.Proof.RefValue
import Idealize.ShloMosaic.Lib.StableHlo.Run

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (outs : Outs (F := Ideal)) (c : Dev nD)

/-- The copy gate after the first host stretch is the reference's, of the launch contents. -/
theorem V1_v10 : (V1 m c main_v10 : S2048x1.Idx → EReal)
    = Cert.ReferenceIdeal.Read.val_main_v10 (F := Ideal) (m ((c.tc : Thread nD τ).loc main_arg0))
        (m ((c.tc : Thread nD τ).loc main_arg5)) (m ((c.tc : Thread nD τ).loc main_arg6)) := by
  dsimp only [Gen.V1]
  after_results
  rfl

/-- The vocabulary bias as a row. -/
theorem V1_v11 : V1 m c main_v11
    = shapeCast S1x32000 (m ((c.tc : Thread nD τ).loc main_arg4)) shapeCasts_S32000_S1x32000 := by
  dsimp only [Gen.V1]
  after_results
  rfl

/-- The vocabulary weights in the narrower format. -/
theorem V1_v12 : (V1 m c main_v12 : FVec Ideal S32000x512 .bf16)
    = truncf (F := Ideal) (s := S32000x512) (φ := .f32) .bf16 (m ((c.tc : Thread nD τ).loc main_arg3)) bitsLt_bf16_f32 := by
  dsimp only [Gen.V1]
  after_results

/-- On the extended reals a change of format changes nothing. -/
theorem V1_v12_apply (i : S32000x512.Idx) :
    (V1 m c main_v12 : S32000x512.Idx → EReal) i
      = (m ((c.tc : Thread nD τ).loc main_arg3) : S32000x512.Idx → EReal) i := by
  rw [V1_v12]
  rfl

/-! ### The arguments are not written by the first host stretch -/

theorem V1_arg0 : V1 m c main_arg0 = m ((c.tc : Thread nD τ).loc main_arg0) := V1_of m c main_arg0 (by decide)
theorem V1_arg1 : V1 m c main_arg1 = m ((c.tc : Thread nD τ).loc main_arg1) := V1_of m c main_arg1 (by decide)
theorem V1_arg2 : V1 m c main_arg2 = m ((c.tc : Thread nD τ).loc main_arg2) := V1_of m c main_arg2 (by decide)
theorem V1_arg3 : V1 m c main_arg3 = m ((c.tc : Thread nD τ).loc main_arg3) := V1_of m c main_arg3 (by decide)
theorem V1_arg4 : V1 m c main_arg4 = m ((c.tc : Thread nD τ).loc main_arg4) := V1_of m c main_arg4 (by decide)
theorem V1_arg5 : V1 m c main_arg5 = m ((c.tc : Thread nD τ).loc main_arg5) := V1_of m c main_arg5 (by decide)
theorem V1_arg6 : V1 m c main_arg6 = m ((c.tc : Thread nD τ).loc main_arg6) := V1_of m c main_arg6 (by decide)

/-! ### What the first region and the second host stretch leave alone -/

/-- A reference that neither the first region may change nor the second host stretch writes holds, after both, what it
    held after the first host stretch. -/
theorem V3_keep (r : Ref sig .tc) (h1 : r ∉ hostOps1_W)
    (h2 : r ∉ ([main_v13_0, main_v13_1] : List (Ref sig .tc))) : V3 m outs c r = V1 m c r :=
  (V3_of m outs c r h1).trans (V2_of m outs c r h2)

theorem V3_arg0 : V3 m outs c main_arg0 = m ((c.tc : Thread nD τ).loc main_arg0) :=
  (V3_keep m outs c main_arg0 (by decide) (by decide)).trans (V1_arg0 m c)
theorem V3_arg1 : V3 m outs c main_arg1 = m ((c.tc : Thread nD τ).loc main_arg1) :=
  (V3_keep m outs c main_arg1 (by decide) (by decide)).trans (V1_arg1 m c)
theorem V3_arg2 : V3 m outs c main_arg2 = m ((c.tc : Thread nD τ).loc main_arg2) :=
  (V3_keep m outs c main_arg2 (by decide) (by decide)).trans (V1_arg2 m c)
theorem V3_arg3 : V3 m outs c main_arg3 = m ((c.tc : Thread nD τ).loc main_arg3) :=
  (V3_keep m outs c main_arg3 (by decide) (by decide)).trans (V1_arg3 m c)
theorem V3_arg4 : V3 m outs c main_arg4 = m ((c.tc : Thread nD τ).loc main_arg4) :=
  (V3_keep m outs c main_arg4 (by decide) (by decide)).trans (V1_arg4 m c)
theorem V3_arg5 : V3 m outs c main_arg5 = m ((c.tc : Thread nD τ).loc main_arg5) :=
  (V3_keep m outs c main_arg5 (by decide) (by decide)).trans (V1_arg5 m c)
theorem V3_arg6 : V3 m outs c main_arg6 = m ((c.tc : Thread nD τ).loc main_arg6) :=
  (V3_keep m outs c main_arg6 (by decide) (by decide)).trans (V1_arg6 m c)

theorem V3_v10 : (V3 m outs c main_v10 : S2048x1.Idx → EReal)
    = Cert.ReferenceIdeal.Read.val_main_v10 (F := Ideal) (m ((c.tc : Thread nD τ).loc main_arg0))
        (m ((c.tc : Thread nD τ).loc main_arg5)) (m ((c.tc : Thread nD τ).loc main_arg6)) :=
  (V3_keep m outs c main_v10 (by decide) (by decide)).trans (V1_v10 m c)

theorem V3_v11 : V3 m outs c main_v11
    = shapeCast S1x32000 (m ((c.tc : Thread nD τ).loc main_arg4)) shapeCasts_S32000_S1x32000 :=
  (V3_keep m outs c main_v11 (by decide) (by decide)).trans (V1_v11 m c)

theorem V3_v12 : (V3 m outs c main_v12 : FVec Ideal S32000x512 .bf16)
    = truncf (F := Ideal) (s := S32000x512) (φ := .f32) .bf16 (m ((c.tc : Thread nD τ).loc main_arg3)) bitsLt_bf16_f32 :=
  (V3_keep m outs c main_v12 (by decide) (by decide)).trans (V1_v12 m c)

theorem V3_v12_apply (i : S32000x512.Idx) :
    (V3 m outs c main_v12 : S32000x512.Idx → EReal) i
      = (m ((c.tc : Thread nD τ).loc main_arg3) : S32000x512.Idx → EReal) i := by
  rw [V3_v12]
  rfl

/-! ### What the first region leaves in its two outputs reaches the second region -/

theorem V3_v13_1 : V3 m outs c main_v13_1 = outs 2 main_v13_1 c :=
  (V3_of m outs c main_v13_1 (by decide)).trans (by
    simp only [V2, Function.update_self])

theorem V3_v13_0 : V3 m outs c main_v13_0 = outs 2 main_v13_0 c :=
  (V3_of m outs c main_v13_0 (by decide)).trans (by
    simp only [V2, Function.update_of_ne (StableHlo.devRef_ne_of_ne (by decide) :
      (Proc.devRef .tc main_v13_0 : DevRef τ sig) ≠ Proc.devRef .tc main_v13_1), Function.update_self])

/-! ### The scattered attention mass -/

/-- The all-zero operand of the scatter. -/
theorem zeros_eq :
    (broadcastInDim S64x1024000 ![] bcast_S_S64x1024000 (constant (F := Ideal) S_ .f32 0x00000000#32)
        : S64x1024000.Idx → EReal) = fun _ => (0 : EReal) := by
  funext j
  show Ideal.ofBits .f32 0x00000000#32 = 0
  exact Ideal.ofBits_zero_f32

/-- The scatter of the gated attention weights into zeros, reshaped, is the reference's. -/
theorem V3_v34 : (V3 m outs c main_v34 : S2048x32000.Idx → EReal)
    = Cert.RefValue.delta (m ((c.tc : Thread nD τ).loc main_arg0)) (m ((c.tc : Thread nD τ).loc main_arg1))
        (m ((c.tc : Thread nD τ).loc main_arg2)) (m ((c.tc : Thread nD τ).loc main_arg5))
        (m ((c.tc : Thread nD τ).loc main_arg6)) := by
  dsimp only [Gen.V3]
  after_results
  rw [V2_of m outs c main_arg2 (by decide), V2_of m outs c main_arg1 (by decide), V2_of m outs c main_v10 (by decide),
    V1_of m c main_arg2 (by decide), V1_of m c main_arg1 (by decide), V1_v10 m c, zeros_eq]
  rfl

end Cert.KernelIdeal.Host

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.R0Pieces.lean ====
/- The first pallas_call's body, case by case: what each control case leaves in the two scratch columns and, at a tile's
   last block, in the two output columns, as the body's payloads of the input blocks and of what the scratch columns
   held. A middle block and a last block store the updated running maximum and running normaliser computed from the
   loaded scratch contents; a first block stores them computed from the reset values, because its loads follow the two
   reset stores; a last block then copies the two updated columns out. -/
import proofs.«178329_j25546465477119_2_alg».proof.Proof.R0Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offset of every access of the body: the origin. -/
theorem origin0 : (![0, 0] : Fin 2 → Nat) = fun _ => 0 := by
  funext a; match a with | ⟨0, _⟩ => rfl | ⟨1, _⟩ => rfl

/-! ## A middle block: the two scratch columns are updated from what the block before left in them -/

set_option maxHeartbeats 1000000 in
theorem sout0_B_0_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) :
    sout0_B_0 c i arg2 harg2 arg3 harg3 arg4 harg4 arg5 harg5 arg6 harg6 arg7 harg7 arg8 harg8 hc0 hc1 x0 x1 x2 xs0 xs1 = k0_pay6 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

set_option maxHeartbeats 1000000 in
theorem sout0_B_1_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x512 .f32) (x1 : Vec F S1280x512 .bf16) (x2 : Vec F S1x1280 .f32) (xs0 xs1 : Vec F S512x1 .f32) :
    sout0_B_1 c i arg2 harg2 arg3 harg3 arg4 harg4 arg5 harg5 arg6 harg6 arg7 harg7 arg8 harg8 hc0 hc1 x0 x1 x2 xs0 xs1 = k0_pay5 x0 x1 x2 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

/-! ## A tile's last block: updated likewise, then copied to the two output columns -/

set_option maxHeartbeats 1000000 in
theorem sout0_C_0_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) :
    sout0_C_0 c i arg2 harg2 arg3 harg3 arg4 harg4 arg5 harg5 arg6 harg6 arg7 harg7 arg8 harg8 hc0 hc1 x0 x1 x2 xs0 xs1 = k0_pay6 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

set_option maxHeartbeats 1000000 in
theorem sout0_C_1_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) :
    sout0_C_1 c i arg2 harg2 arg3 harg3 arg4 harg4 arg5 harg5 arg6 harg6 arg7 harg7 arg8 harg8 hc0 hc1 x0 x1 x2 xs0 xs1 = k0_pay5 x0 x1 x2 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

set_option maxHeartbeats 1000000 in
theorem out0_C_3_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) :
    out0_C_3 c i arg2 harg2 arg3 harg3 arg4 harg4 arg5 harg5 arg6 harg6 arg7 harg7 arg8 harg8 hc0 hc1 x0 x1 x2 xs0 xs1 = k0_pay6 x0 x1 x2 xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

set_option maxHeartbeats 1000000 in
theorem out0_C_4_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x512 .f32) (x1 : Vec F S1280x512 .bf16) (x2 : Vec F S1x1280 .f32) (xs0 xs1 : Vec F S512x1 .f32) :
    out0_C_4 c i arg2 harg2 arg3 harg3 arg4 harg4 arg5 harg5 arg6 harg6 arg7 harg7 arg8 harg8 hc0 hc1 x0 x1 x2 xs0 xs1 = k0_pay5 x0 x1 x2 xs0 xs0 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

/-! ## A tile's first block: the scratch columns are reset first, so the update reads the reset values -/

set_option maxHeartbeats 1000000 in
theorem sout0_A_0_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) :
    sout0_A_0 c i arg2 harg2 arg3 harg3 arg4 harg4 arg5 harg5 arg6 harg6 arg7 harg7 arg8 harg8 hc0 hc1 x0 x1 x2 = k0_pay6 x0 x1 x2 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

set_option maxHeartbeats 1000000 in
theorem sout0_A_1_eq (c : Dev nD) (i : grid0.Coords) (arg2 : Memref sig .tc .vmem S512x512 .f32) (harg2 : arg2.IsWhole) (arg3 : Memref sig .tc .vmem S1280x512 .bf16) (harg3 : arg3.IsWhole) (arg4 : Memref sig .tc .vmem S1x1280 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x512 .f32) (x1 : Vec F S1280x512 .bf16) (x2 : Vec F S1x1280 .f32) :
    sout0_A_1 c i arg2 harg2 arg3 harg3 arg4 harg4 arg5 harg5 arg6 harg6 arg7 harg7 arg8 harg8 hc0 hc1 x0 x1 x2 = k0_pay5 x0 x1 x2 k0_pay1 k0_pay1 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  first | rw [View.canon_unit_zero (S := S512x1) origin0] | rw [View.canon_cons_unit_zero (S := S512x1) origin0]
  simp only [View.readCov_unit_zero (S := S512x1) _ origin0, View.readAt_eq_ld, harg2.read_unread, harg3.read_unread, harg4.read_unread,
    harg7.read_unread, harg8.read_unread, View.ld_unit_zero (S := S512x512) origin0, View.ld_unit_zero (S := S1280x512) origin0,
    View.ld_unit_zero (S := S1x1280) origin0, View.ld_unit_zero (S := S512x1) origin0]

end Cert.KernelIdeal.Gen

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.OnlineSoftmax.lean ====
/-
  The streaming ("online") form of the softmax normaliser.

  A row of n = K · B real logits is read in K consecutive blocks of B. Two accumulators are kept: a running
  maximum m and a running normaliser l. A block with maximum c replaces m by m' = max m c and l by
  exp (m − m') · l + Σ over the block of exp (x − m'); before the first block m is the lower infinity and
  l is zero. Because exp (a − b) · Σ exp (x − a) = Σ exp (x − b), after each block m is the maximum of all
  logits read so far and l is the sum over them of exp (x − m). After the last block m is therefore the
  maximum of the whole row and l is the softmax denominator Σ exp (x − max).

  Everything is stated on the extended reals with the ideal exponential (exp of the lower infinity is zero).
-/
import Idealize.ShloMosaic.PureOps.Ideal
import proofs.«178329_j25546465477119_2_alg».proof.Proof.LibReals
import proofs.«178329_j25546465477119_2_alg».proof.Proof.LibBlockSumGen

noncomputable section

namespace Cert.OnlineSoftmax

open Idealize.ShloMosaic
open scoped BigOperators
open Cert.Reals

/-- Block k of the n = K·B logits: entry j is logit B·k + j. -/
def blk {n K B : ℕ} (h : n = K * B) (g : Fin n → EReal) (k : Fin K) : Fin B → EReal :=
  fun j => g ⟨B * k.val + j.val, h ▸ Cert.LibBlockSumGen.block_index_lt k j⟩

/-- One update of (running maximum, running normaliser) by a block. -/
def step {B : ℕ} (b : Fin B → EReal) (s : EReal × EReal) : EReal × EReal :=
  (max s.1 ((Finset.univ : Finset (Fin B)).fold max ⊥ b),
   Ideal.exp (s.1 - max s.1 ((Finset.univ : Finset (Fin B)).fold max ⊥ b)) * s.2
     + ∑ j : Fin B, Ideal.exp (b j - max s.1 ((Finset.univ : Finset (Fin B)).fold max ⊥ b)))

/-- The accumulators after blocks 0 … k. -/
def acc {n K B : ℕ} (h : n = K * B) (g : Fin n → EReal) : (k : ℕ) → k < K → EReal × EReal
  | 0, hk => step (blk h g ⟨0, hk⟩) (⊥, 0)
  | k + 1, hk => step (blk h g ⟨k + 1, hk⟩) (acc h g k (Nat.lt_of_succ_lt hk))

/-! ## Maxima of finite families of reals -/

/-- The maximum of a finite family taken from the lower infinity is its supremum. -/
theorem fold_max_eq_sup {ι : Type*} (s : Finset ι) (f : ι → EReal) : s.fold max ⊥ f = s.sup f := rfl

/-- The supremum of a nonempty finite family of reals is a real. -/
theorem sup_coe_real {ι : Type*} (s : Finset ι) (hs : s.Nonempty) (r : ι → ℝ) :
    ∃ a : ℝ, s.sup (fun p => (r p : EReal)) = (a : EReal) := by
  obtain ⟨i, _, hi⟩ := Finset.exists_mem_eq_sup s hs (fun p => (r p : EReal))
  exact ⟨r i, hi⟩

/-! ## The rescaling law -/

/-- exp (a − b) · Σ exp (x − a) = Σ exp (x − b), over the reals inside the extended reals. -/
theorem rescale_coe {ι : Type*} (s : Finset ι) (x : ι → ℝ) (a b : ℝ) :
    Ideal.exp ((a : EReal) - (b : EReal)) * ∑ i ∈ s, Ideal.exp ((x i : EReal) - (a : EReal))
      = ∑ i ∈ s, Ideal.exp ((x i : EReal) - (b : EReal)) := by
  simp only [← EReal.coe_sub, Ideal.exp_coe, ← coe_finset_sum, ← EReal.coe_mul]
  congr 1
  rw [Finset.mul_sum]
  refine Finset.sum_congr rfl fun i _ => ?_
  rw [← Real.exp_add]
  congr 1
  ring

/-! ## The index sets: block k, and the blocks before block k -/

/-- The indices of block k. -/
def blkSet (n B k : ℕ) : Finset (Fin n) := Finset.univ.filter fun p => p.val / B = k

/-- The indices of the blocks before block k. -/
def pre (n B k : ℕ) : Finset (Fin n) := Finset.univ.filter fun p => p.val / B < k

theorem pre_zero (n B : ℕ) : pre n B 0 = ∅ := by
  ext p; simp [pre]

theorem pre_succ (n B k : ℕ) : pre n B (k + 1) = pre n B k ∪ blkSet n B k := by
  ext p
  simp only [pre, blkSet, Finset.mem_filter, Finset.mem_univ, true_and, Finset.mem_union]
  omega

theorem pre_disjoint (n B k : ℕ) : Disjoint (pre n B k) (blkSet n B k) := by
  rw [Finset.disjoint_left]
  intro p hp hq
  simp only [pre, blkSet, Finset.mem_filter, Finset.mem_univ, true_and] at hp hq
  omega

theorem pre_top {n K B : ℕ} (h : n = K * B) : pre n B K = Finset.univ := by
  ext p
  simp only [pre, Finset.mem_filter, Finset.mem_univ, true_and, iff_true]
  have hp : p.val < B * K := lt_of_lt_of_eq p.isLt (h.trans (Nat.mul_comm K B))
  exact Nat.div_lt_of_lt_mul hp

/-- Position j of block k as an index of the row. -/
def blkEmb {n K B : ℕ} (h : n = K * B) (k : Fin K) : Fin B ↪ Fin n :=
  ⟨fun j => ⟨B * k.val + j.val, h ▸ Cert.LibBlockSumGen.block_index_lt k j⟩, by
    intro a b hab
    have h1 : B * k.val + a.val = B * k.val + b.val := congrArg Fin.val hab
    exact Fin.ext (by omega)⟩

theorem blkSet_eq_map {n K B : ℕ} (h : n = K * B) (hB : 0 < B) (k : Fin K) :
    blkSet n B k.val = Finset.univ.map (blkEmb h k) := by
  ext p
  simp only [blkSet, Finset.mem_filter, Finset.mem_univ, true_and, Finset.mem_map, blkEmb,
    Function.Embedding.coeFn_mk]
  constructor
  · intro hp
    refine ⟨⟨p.val % B, Nat.mod_lt _ hB⟩, Fin.ext ?_⟩
    show B * k.val + p.val % B = p.val
    rw [← hp]
    exact Nat.div_add_mod p.val B
  · rintro ⟨j, rfl⟩
    show (B * k.val + j.val) / B = k.val
    rw [Nat.mul_add_div hB, Nat.div_eq_of_lt j.isLt, add_zero]

theorem blkSet_nonempty {n K B : ℕ} (h : n = K * B) (hB : 0 < B) (k : Fin K) : (blkSet n B k.val).Nonempty := by
  rw [blkSet_eq_map h hB k]
  haveI : Nonempty (Fin B) := ⟨⟨0, hB⟩⟩
  exact Finset.univ_nonempty.map

/-- The maximum of block k is the supremum over its index set. -/
theorem blk_fold {n K B : ℕ} (h : n = K * B) (hB : 0 < B) (r : Fin n → ℝ) (k : Fin K) :
    (Finset.univ : Finset (Fin B)).fold max ⊥ (blk h (fun i => (r i : EReal)) k)
      = (blkSet n B k.val).sup fun p => (r p : EReal) := by
  rw [blkSet_eq_map h hB k, Finset.sup_map]
  rfl

/-- The exponential sum of block k is the sum over its index set. -/
theorem blk_sum {n K B : ℕ} (h : n = K * B) (hB : 0 < B) (r : Fin n → ℝ) (k : Fin K) (c : EReal) :
    ∑ j : Fin B, Ideal.exp (blk h (fun i => (r i : EReal)) k j - c)
      = ∑ p ∈ blkSet n B k.val, Ideal.exp ((r p : EReal) - c) := by
  rw [blkSet_eq_map h hB k, Finset.sum_map]
  rfl

/-! ## One update -/

/-- If the accumulators hold the maximum and the normaliser of the logits indexed by T, an update by a block
    whose logits are indexed by S (disjoint from T, not empty) makes them hold those of T ∪ S. -/
theorem step_union {n B : ℕ} (r : Fin n → ℝ) (T S : Finset (Fin n)) (hd : Disjoint T S) (hS : S.Nonempty)
    (b : Fin B → EReal)
    (hbsup : (Finset.univ : Finset (Fin B)).fold max ⊥ b = S.sup fun p => (r p : EReal))
    (hbsum : ∀ c : EReal, ∑ j : Fin B, Ideal.exp (b j - c) = ∑ p ∈ S, Ideal.exp ((r p : EReal) - c)) :
    step b (T.sup (fun p => (r p : EReal)),
        ∑ p ∈ T, Ideal.exp ((r p : EReal) - T.sup fun p => (r p : EReal)))
      = ((T ∪ S).sup (fun p => (r p : EReal)),
        ∑ p ∈ T ∪ S, Ideal.exp ((r p : EReal) - (T ∪ S).sup fun p => (r p : EReal))) := by
  unfold step
  simp only
  rw [hbsup, hbsum]
  have hmax : max (T.sup fun p => (r p : EReal)) (S.sup fun p => (r p : EReal))
      = (T ∪ S).sup fun p => (r p : EReal) := (Finset.sup_union).symm
  rw [hmax]
  obtain ⟨a', ha'⟩ := sup_coe_real (T ∪ S) (hS.mono Finset.subset_union_right) r
  refine Prod.ext rfl ?_
  simp only
  rcases T.eq_empty_or_nonempty with rfl | hT
  · simp
  · obtain ⟨a, ha⟩ := sup_coe_real T hT r
    rw [ha, ha', rescale_coe, Finset.sum_union hd]

/-! ## The accumulators after each block -/

/-- After blocks 0 … k the accumulators hold the maximum of the logits of those blocks and the sum over them
    of exp (logit − that maximum). -/
theorem acc_eq {n K B : ℕ} (h : n = K * B) (hB : 0 < B) (r : Fin n → ℝ) : ∀ (k : ℕ) (hk : k < K),
    acc h (fun i => (r i : EReal)) k hk
      = ((pre n B (k + 1)).sup (fun p => (r p : EReal)),
        ∑ p ∈ pre n B (k + 1), Ideal.exp ((r p : EReal) - (pre n B (k + 1)).sup fun p => (r p : EReal)))
  | 0, hk => by
    have hs := step_union r ∅ (blkSet n B 0) (Finset.disjoint_empty_left _) (blkSet_nonempty h hB ⟨0, hk⟩)
      (blk h (fun i => (r i : EReal)) ⟨0, hk⟩) (blk_fold h hB r ⟨0, hk⟩) (blk_sum h hB r ⟨0, hk⟩)
    rw [Finset.sup_empty, Finset.sum_empty, Finset.empty_union] at hs
    rw [acc, pre_succ, pre_zero, Finset.empty_union]
    exact hs
  | k + 1, hk => by
    rw [acc, acc_eq h hB r k (Nat.lt_of_succ_lt hk), pre_succ n B (k + 1)]
    exact step_union r _ _ (pre_disjoint n B (k + 1)) (blkSet_nonempty h hB ⟨k + 1, hk⟩)
      (blk h (fun i => (r i : EReal)) ⟨k + 1, hk⟩) (blk_fold h hB r ⟨k + 1, hk⟩) (blk_sum h hB r ⟨k + 1, hk⟩)

/-- The index set of blocks 0 … k is not empty when there is a block k and blocks are not empty. -/
theorem pre_succ_nonempty {n K B : ℕ} (h : n = K * B) (hB : 0 < B) (k : ℕ) (hk : k < K) :
    (pre n B (k + 1)).Nonempty := by
  rw [pre_succ]
  exact (blkSet_nonempty h hB ⟨k, hk⟩).mono Finset.subset_union_right

/-- AFTER THE LAST BLOCK the running maximum is the maximum of the whole row and the running normaliser is the
    sum over the whole row of exp (logit − maximum). -/
theorem acc_last {n K B : ℕ} (h : n = K * B) (hB : 0 < B) (hK : 0 < K) (g : Fin n → EReal)
    (hg : ∀ i, Cert.Reals.IsRealS (g i)) :
    acc h g (K - 1) (Nat.sub_lt hK Nat.one_pos)
      = ((Finset.univ : Finset (Fin n)).fold max ⊥ g,
        ∑ i : Fin n, Ideal.exp (g i - (Finset.univ : Finset (Fin n)).fold max ⊥ g)) := by
  choose r hr using hg
  obtain rfl : g = fun i => (r i : EReal) := funext hr
  rw [acc_eq h hB r (K - 1) (Nat.sub_lt hK Nat.one_pos), Nat.sub_add_cancel hK, pre_top h]
  rfl

/-- After every block both accumulators are real numbers. -/
theorem acc_fst_real {n K B : ℕ} (h : n = K * B) (hB : 0 < B) (g : Fin n → EReal)
    (hg : ∀ i, Cert.Reals.IsRealS (g i)) (k : ℕ) (hk : k < K) :
    Cert.Reals.IsRealS (acc h g k hk).1 ∧ Cert.Reals.IsRealS (acc h g k hk).2 := by
  choose r hr using hg
  obtain rfl : g = fun i => (r i : EReal) := funext hr
  rw [acc_eq h hB r k hk]
  obtain ⟨a, ha⟩ := sup_coe_real (pre n B (k + 1)) (pre_succ_nonempty h hB k hk) r
  refine ⟨⟨a, ha⟩, ?_⟩
  simp only
  rw [ha]
  exact isRealS_sum _ _ fun p _ => ⟨Real.exp (r p - a), by rw [← EReal.coe_sub, Ideal.exp_coe]⟩

/-- The maximum of a nonempty row of reals is a real. -/
theorem fold_max_real {n : ℕ} (hn : 0 < n) (g : Fin n → EReal) (hg : ∀ i, Cert.Reals.IsRealS (g i)) :
    Cert.Reals.IsRealS ((Finset.univ : Finset (Fin n)).fold max ⊥ g) := by
  choose r hr using hg
  obtain rfl : g = fun i => (r i : EReal) := funext hr
  haveI : Nonempty (Fin n) := ⟨⟨0, hn⟩⟩
  exact sup_coe_real Finset.univ Finset.univ_nonempty r

/-- The softmax denominator of a nonempty row of reals is a positive real. -/
theorem sum_exp_pos_real {n : ℕ} (hn : 0 < n) (g : Fin n → EReal) (hg : ∀ i, Cert.Reals.IsRealS (g i)) :
    ∃ r : ℝ, 0 < r ∧ ∑ i : Fin n, Ideal.exp (g i - (Finset.univ : Finset (Fin n)).fold max ⊥ g) = (r : EReal) := by
  obtain ⟨a, ha⟩ := fold_max_real hn g hg
  choose x hx using hg
  obtain rfl : g = fun i => (x i : EReal) := funext hx
  haveI : Nonempty (Fin n) := ⟨⟨0, hn⟩⟩
  refine ⟨∑ i : Fin n, Real.exp (x i - a), Finset.sum_pos (fun i _ => Real.exp_pos _) Finset.univ_nonempty, ?_⟩
  rw [ha, coe_finset_sum]
  refine Finset.sum_congr rfl fun i _ => ?_
  rw [← EReal.coe_sub, Ideal.exp_coe]

/-- The single-precision word 0xFF800000 denotes the lower infinity. -/
theorem ofBits_neg_inf : Ideal.ofBits .f32 0xFF800000#32 = (⊥ : EReal) := by
  simp [Ideal.ofBits, Ideal.ieee]

end Cert.OnlineSoftmax

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.Region1Value.lean ====
/- The value of region 1's output block at the ideal instance, index by index: with the seven input blocks as
   variables, the output buffer after the body at (p, q) is
     log (max ε (exp (∑ₖ hidden (p, k) · weights (q, k) + bias (0, q) − rowMax (p, 0)) · (1 / rowSum (p, 0)) · (1 − gate (p, 0)) + delta (p, q))),
   every operation exact on the extended reals, ε the literal 0x1E3CE508. -/
import proofs.«178329_j25546465477119_2_alg».proof.Proof.Region1
import proofs.«178329_j25546465477119_2_alg».proof.Proof.LibColumns
import proofs.«178329_j25546465477119_2_alg».proof.Proof.LibRows
import proofs.«178329_j25546465477119_2_alg».proof.Proof.LibPlainDot
import Idealize.ShloMosaic.Lib.Pipeline.Value
import Idealize.ShloMosaic.Lib.ValueIdx

noncomputable section

namespace Cert.KernelIdeal.R1

open Idealize.ShloMosaic Idealize.ShloMosaic.ValueIdx
open Cert.KernelIdeal.Gen
open scoped BigOperators

/-- The offset of every access of the body: the origin. -/
theorem origin_eq : (![0, 0] : Fin 2 → Nat) = fun _ => 0 := by
  funext a; match a with | ⟨0, _⟩ => rfl | ⟨1, _⟩ => rfl

/-- The printed dimension numbers of the body's matrix product are the plain "rows × contraction times contraction ×
    columns" ones. -/
theorem dot_eq_plain : dot_S512x512_S512x1280_S512x1280_1_0_0_1_n_n = DotDims.plain 512 512 1280 := rfl

/-- The weights block [1280, 512] transposed to [512, 1280], read at (k, q), is the block at (q, k). -/
theorem transpose_weights_apply (x1 : Vec Ideal S1280x512 .bf16) (k : Fin 512) (q : Fin 1280) :
    transpose S512x1280 [1, 0] x1 transposes_S1280x512_p1_0_S512x1280 (ix2 k q) = x1 (ix2 q k) :=
  transpose_apply [1, 0] x1 transposes_S1280x512_p1_0_S512x1280 (ix2 k q) (ix2 q k) (fun b => by
    match b with
    | ⟨0, _⟩ => rfl
    | ⟨1, _⟩ => rfl)

/-- The body's matrix product at (p, q): the hidden row p against the weights row q. -/
theorem logits_apply (x0 : Vec Ideal S512x512 .f32) (x1 : Vec Ideal S1280x512 .bf16) (p : Fin 512) (q : Fin 1280) :
    matmul dot_S512x512_S512x1280_S512x1280_1_0_0_1_n_n none (truncf .bf16 x0 bitsLt_bf16_f32)
        (transpose S512x1280 [1, 0] x1 transposes_S1280x512_p1_0_S512x1280 : FVec Ideal S512x1280 .bf16)
        (constant (F := Ideal) S512x1280 .f32 0x00000000#32) (ix2 p q)
      = ∑ k : Fin 512, x0 (ix2 p k) * x1 (ix2 q k) := by
  rw [dot_eq_plain]
  refine (Cert.Lib.PlainDot.matmul_plain_zero_apply (M := 512) (K := 512) (N := 1280) none _ _ p q).trans ?_
  refine Finset.sum_congr rfl fun k _ => ?_
  rw [truncf_apply, transpose_weights_apply]

/-- The output block at (p, q), from the seven input blocks. -/
theorem out1_7_apply (x0 : Vec Ideal S512x512 .f32) (x1 : Vec Ideal S1280x512 .bf16) (x2 : Vec Ideal S1x1280 .f32)
    (x3 x4 x5 : Vec Ideal S512x1 .f32) (x6 : Vec Ideal S512x1280 .f32) (p : Fin 512) (q : Fin 1280) :
    out1_7 x0 x1 x2 x3 x4 x5 x6 (ix2 p q)
      = Ideal.log (max (Ideal.ofBits .f32 0x1E3CE508#32)
          (Ideal.exp (((∑ k : Fin 512, x0 (ix2 p k) * x1 (ix2 q k)) + x2 (ix2 0 q)) - x3 (ix2 p 0))
              * Ideal.div (Ideal.ofBits .f32 0x3F800000#32) (x4 (ix2 p 0))
              * (Ideal.ofBits .f32 0x3F800000#32 - x5 (ix2 p 0))
            + x6 (ix2 p q))) := by
  unfold out1_7
  rw [View.canon_unit_zero origin_eq]
  simp only [View.ld_unit_zero (S := S512x512) origin_eq, View.ld_unit_zero (S := S1280x512) origin_eq,
    View.ld_unit_zero (S := S1x1280) origin_eq, View.ld_unit_zero (S := S512x1) origin_eq, View.ld_unit_zero (S := S512x1280) origin_eq]
  unfold k1_pay1
  simp only [shapeCast_self]
  show Ideal.log (max (Ideal.ofBits .f32 0x1E3CE508#32)
      (Ideal.exp ((matmul dot_S512x512_S512x1280_S512x1280_1_0_0_1_n_n none (truncf .bf16 x0 bitsLt_bf16_f32)
              (transpose S512x1280 [1, 0] x1 transposes_S1280x512_p1_0_S512x1280 : FVec Ideal S512x1280 .bf16)
              (constant (F := Ideal) S512x1280 .f32 0x00000000#32) (ix2 p q)
            + broadcastTo S512x1280 x2 broadcasts_S1x1280_S512x1280 (ix2 p q))
          - broadcastTo S512x1280 x3 broadcasts_S512x1_S512x1280 (ix2 p q))
        * broadcastTo S512x1280 (divf (broadcast S512x1 (Scalar.ofBits (F := Ideal) .f32 0x3F800000#32)) x4 : FVec Ideal S512x1 .f32) broadcasts_S512x1_S512x1280 (ix2 p q)
        * broadcastTo S512x1280 (subf (broadcast S512x1 (Scalar.ofBits (F := Ideal) .f32 0x3F800000#32)) x5 : FVec Ideal S512x1 .f32) broadcasts_S512x1_S512x1280 (ix2 p q)
        + x6 (ix2 p q))) = _
  rw [logits_apply, Cert.Lib.Rows.broadcastTo_row_apply, Cert.Columns.broadcastTo_a1_ab_apply x3 _ p q 0,
    Cert.Columns.broadcastTo_a1_ab_apply (divf (F := Ideal) _ x4) _ p q 0, Cert.Columns.broadcastTo_a1_ab_apply (subf (F := Ideal) _ x5) _ p q 0]
  rfl

end Cert.KernelIdeal.R1

end
-- ==== Proof.R0Value.lean ====
/- The first pallas_call's arithmetic at the ideal instance, index by index. Per row p the body reads a block of 1280
   logits  b q = ∑ₖ hidden (p, k) · weights (q, k) + bias (0, q),  a running maximum s and a running normaliser l, and
   stores  max s (max over the block of b)  and  exp (s − that) · l + ∑ over the block of exp (b q − that): one step of the
   streaming softmax normaliser. The reset values are the lower infinity and zero. -/
import proofs.«178329_j25546465477119_2_alg».proof.Proof.Gen.KernelIdeal.Skeleton
import proofs.«178329_j25546465477119_2_alg».proof.Proof.OnlineSoftmax
import proofs.«178329_j25546465477119_2_alg».proof.Proof.LibColumns
import proofs.«178329_j25546465477119_2_alg».proof.Proof.LibRows
import proofs.«178329_j25546465477119_2_alg».proof.Proof.LibPlainDot
import proofs.«178329_j25546465477119_2_alg».proof.Proof.Region1Value
import Idealize.ShloMosaic.Lib.Pipeline.Value
import Idealize.ShloMosaic.Lib.ValueIdx

noncomputable section

namespace Cert.KernelIdeal.R0

open Idealize.ShloMosaic Idealize.ShloMosaic.ValueIdx
open Cert.KernelIdeal.Gen
open scoped BigOperators

/-- Row p's block of logits: the hidden row against each weights row, plus the bias. -/
def blockLogit (x0 : Vec Ideal S512x512 .f32) (x1 : Vec Ideal S1280x512 .bf16) (x2 : Vec Ideal S1x1280 .f32) (p : Fin 512) :
    Fin 1280 → EReal :=
  fun q => (∑ k : Fin 512, x0 (ix2 p k) * x1 (ix2 q k)) + x2 (ix2 0 q)

/-- The running maximum is reset to the lower infinity. -/
theorem pay1_apply (p : Fin 512) (u : Fin 1) : k0_pay1 (F := Ideal) (ix2 p u) = (⊥ : EReal) := by
  unfold k0_pay1
  simp only [shapeCast_self]
  exact Cert.OnlineSoftmax.ofBits_neg_inf

/-- The running normaliser is reset to zero. -/
theorem pay2_apply (p : Fin 512) (u : Fin 1) : k0_pay2 (F := Ideal) (ix2 p u) = 0 := by
  unfold k0_pay2
  simp only [shapeCast_self]
  exact Ideal.ofBits_zero_f32

variable (x0 : Vec Ideal S512x512 .f32) (x1 : Vec Ideal S1280x512 .bf16) (x2 : Vec Ideal S1x1280 .f32)
  (s l : Vec Ideal S512x1 .f32) (p : Fin 512) (u : Fin 1)

/-- The block of logits at (p, q). -/
theorem pay3_apply (q : Fin 1280) : k0_pay3 x0 x1 x2 (ix2 p q) = blockLogit x0 x1 x2 p q := by
  unfold k0_pay3
  simp only [shapeCast_self]
  show matmul dot_S512x512_S512x1280_S512x1280_1_0_0_1_n_n none (truncf .bf16 x0 bitsLt_bf16_f32)
        (transpose S512x1280 [1, 0] x1 transposes_S1280x512_p1_0_S512x1280 : FVec Ideal S512x1280 .bf16)
        (constant (F := Ideal) S512x1280 .f32 0x00000000#32) (ix2 p q)
      + broadcastTo S512x1280 x2 broadcasts_S1x1280_S512x1280 (ix2 p q) = _
  rw [Cert.KernelIdeal.R1.logits_apply, Cert.Lib.Rows.broadcastTo_row_apply]
  rfl

/-- The new running maximum at row p: the old one against the block's maximum. -/
theorem pay4_apply : k0_pay4 x0 x1 x2 s (ix2 p u)
    = max (s (ix2 p 0)) ((Finset.univ : Finset (Fin 1280)).fold max ⊥ (blockLogit x0 x1 x2 p)) := by
  obtain rfl : u = 0 := Subsingleton.elim _ _
  unfold k0_pay4
  show max (s (ix2 p 0)) (shapeCast S512x1 (multiReduction (F := Ideal) .maximumf [1] S512 (k0_pay3 x0 x1 x2) 0xFF800000#32
      reduces_S512x1280_S512 (.inl rfl) rfl) shapeCasts_S512_S512x1 (ix2 p 0)) = _
  refine congrArg (max (s (ix2 p 0))) ?_
  refine (Cert.Columns.shapeCast_a_a1_apply (a := 512) _ shapeCasts_S512_S512x1 p 0).trans ?_
  refine (Cert.Columns.laneMax_apply (a := 512) (b := 1280) (k0_pay3 x0 x1 x2) 0xFF800000#32 reduces_S512x1280_S512 (.inl rfl) rfl p).trans ?_
  rw [Cert.OnlineSoftmax.ofBits_neg_inf]
  simp only [pay3_apply]

/-- The stored running maximum is the first component of one streaming step. -/
theorem pay6_apply : k0_pay6 x0 x1 x2 s (ix2 p u)
    = (Cert.OnlineSoftmax.step (blockLogit x0 x1 x2 p) (s (ix2 p 0), l (ix2 p 0))).1 := by
  unfold k0_pay6
  simp only [shapeCast_self]
  exact pay4_apply x0 x1 x2 s p u

/-- The block's sum of exponentials against the new running maximum, at row p. -/
theorem blockExpSum_apply :
    shapeCast S512x1 (multiReduction (F := Ideal) .add [1] S512
        (exp (subf (k0_pay3 x0 x1 x2) (broadcastTo S512x1280 (k0_pay4 x0 x1 x2 s) broadcasts_S512x1_S512x1280)) : FVec Ideal S512x1280 .f32)
        0x00000000#32 reduces_S512x1280_S512 (.inl rfl) rfl) shapeCasts_S512_S512x1 (ix2 p 0)
      = ∑ j : Fin 1280, Ideal.exp (blockLogit x0 x1 x2 p j
          - max (s (ix2 p 0)) ((Finset.univ : Finset (Fin 1280)).fold max ⊥ (blockLogit x0 x1 x2 p))) := by
  refine (Cert.Columns.shapeCast_a_a1_apply (a := 512) _ shapeCasts_S512_S512x1 p 0).trans ?_
  refine (Cert.Columns.laneSum_apply (a := 512) (b := 1280) _ 0x00000000#32 reduces_S512x1280_S512 (.inl rfl) rfl p).trans ?_
  refine Finset.sum_congr rfl fun j _ => ?_
  show Ideal.exp (k0_pay3 x0 x1 x2 (ix2 p j)
      - broadcastTo S512x1280 (k0_pay4 x0 x1 x2 s) broadcasts_S512x1_S512x1280 (ix2 p j)) = _
  rw [pay3_apply, Cert.Columns.broadcastTo_a1_ab_apply (k0_pay4 x0 x1 x2 s) _ p j 0, pay4_apply]

/-- The stored running normaliser is the second component of one streaming step. -/
theorem pay5_apply : k0_pay5 x0 x1 x2 s s l (ix2 p u)
    = (Cert.OnlineSoftmax.step (blockLogit x0 x1 x2 p) (s (ix2 p 0), l (ix2 p 0))).2 := by
  obtain rfl : u = 0 := Subsingleton.elim _ _
  unfold k0_pay5
  simp only [shapeCast_self]
  show Ideal.exp (s (ix2 p 0) - k0_pay4 x0 x1 x2 s (ix2 p 0)) * l (ix2 p 0)
      + shapeCast S512x1 (multiReduction (F := Ideal) .add [1] S512
          (exp (subf (k0_pay3 x0 x1 x2) (broadcastTo S512x1280 (k0_pay4 x0 x1 x2 s) broadcasts_S512x1_S512x1280)) : FVec Ideal S512x1280 .f32)
          0x00000000#32 reduces_S512x1280_S512 (.inl rfl) rfl) shapeCasts_S512_S512x1 (ix2 p 0) = _
  rw [blockExpSum_apply, pay4_apply]
  rfl

end Cert.KernelIdeal.R0

end
-- ==== Proof.R0Final.lean ====
/-
  The first pallas_call's two output columns as whole-array functions, at the ideal values.
  Row n of the hidden states against vocabulary entry v gives the logit g n v (inner product plus bias). Tile ni of
  512 rows meets the 25 vocabulary blocks of 1280 entries at the grid points 25·ni, …, 25·ni + 24. After the point
  25·ni + vi the two scratch columns hold, at row p of the tile, the running maximum and the running normaliser of
  row 512·ni + p over the blocks 0 … vi — by induction along the tile, each point updating what the point before
  left. At a tile's last block the body copies the two columns out, and the write-backs of the four tiles cover the
  two output arrays: so they end holding every row's maximum and normaliser over all 32000 entries, whenever every
  logit is a real number.
-/
import proofs.«178329_j25546465477119_2_alg».proof.Proof.R0Pieces
import proofs.«178329_j25546465477119_2_alg».proof.Proof.R0Value
import Idealize.ShloMosaic.Lib.Pipeline.Value

set_option maxRecDepth 16384

noncomputable section

namespace Cert.KernelIdeal.R0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Reals
open scoped BigOperators

variable (V : (c : Dev nD) → (b : Ref sig .tc) → Buf (Elt Ideal) ((c : Thread nD τ).loc b)) (c : Dev nD)

/-- The hidden states, the output weights and the output bias as the region finds them, as arrays of extended reals. -/
abbrev hid : S2048x512.Idx → EReal := V c main_arg0
abbrev wts : S32000x512.Idx → EReal := V c main_v12
abbrev bias : S1x32000.Idx → EReal := V c main_v11

/-- Row `n`'s logits: the inner product with each vocabulary entry's weights, plus its bias. -/
def gl (n : Fin 2048) : Fin 32000 → EReal := fun v =>
  (∑ k : Fin 512, hid V c (ix2 n k) * wts V c (ix2 v k)) + bias V c (ix2 0 v)

theorem h32000 : 32000 = 25 * 1280 := by norm_num

/-! ## The blocks at a grid point -/

/-- The printed index maps over the grid: the hidden-state tile and the two output columns move with the row
    tile, the weight and bias blocks with the vocabulary block. -/
theorem idx_facts : ∀ t : Fin cfg0.N, win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = 0
    ∧ win0_4.index t (0 : Fin 2) = t.val / 25 ∧ win0_4.index t (1 : Fin 2) = 0 :=
  (by decide +kernel : ∀ t : Fin grid0.N, _)

theorem row_lt (t : Fin cfg0.N) (p : Fin 512) : 512 * (t.val / 25) + p.val < 2048 := by
  have hN : t.val < 100 := lt_of_lt_of_eq t.isLt (show cfg0.N = 100 from N_0)
  have := p.isLt; omega
theorem col_lt (t : Fin cfg0.N) (q : Fin 1280) : 1280 * (t.val % 25) + q.val < 32000 := by
  have := q.isLt; omega

/-- The hidden-state block at a point: rows 512·(t / 25) … of the array. -/
theorem iblk0_0_apply (t : Fin cfg0.N) (p : Fin 512) (k : Fin 512) :
    iblk0 V c 0 t (ix2 p k) = hid V c (ix2 ⟨512 * (t.val / 25) + p.val, row_lt t p⟩ k) := by
  obtain ⟨e0, e1, -⟩ := idx_facts t
  show V c main_arg0 (((cfg0.win 0).blk t).view.emb (ix2 p k)) = V c main_arg0 _
  refine congrArg (V c main_arg0) (funext fun a => Fin.ext ?_)
  match a with
  | ⟨0, _⟩ => show win0_0.index t (0 : Fin 2) * 512 + 1 * p.val = 512 * (t.val / 25) + p.val; omega
  | ⟨1, _⟩ => show win0_0.index t (1 : Fin 2) * 512 + 1 * k.val = k.val; omega
/-- The weight block at a point: rows 1280·(t % 25) … of the weights. -/
theorem iblk0_1_apply (t : Fin cfg0.N) (q : Fin 1280) (k : Fin 512) :
    iblk0 V c 1 t (ix2 q k) = wts V c (ix2 ⟨1280 * (t.val % 25) + q.val, col_lt t q⟩ k) := by
  obtain ⟨-, -, e0, e1, -⟩ := idx_facts t
  show V c main_v12 (((cfg0.win 1).blk t).view.emb (ix2 q k)) = V c main_v12 _
  refine congrArg (V c main_v12) (funext fun a => Fin.ext ?_)
  match a with
  | ⟨0, _⟩ => show win0_1.index t (0 : Fin 2) * 1280 + 1 * q.val = 1280 * (t.val % 25) + q.val; omega
  | ⟨1, _⟩ => show win0_1.index t (1 : Fin 2) * 512 + 1 * k.val = k.val; omega
/-- The bias block at a point. -/
theorem iblk0_2_apply (t : Fin cfg0.N) (q : Fin 1280) :
    iblk0 V c 2 t (ix2 0 q) = bias V c (ix2 0 ⟨1280 * (t.val % 25) + q.val, col_lt t q⟩) := by
  obtain ⟨-, -, -, -, e0, e1, -⟩ := idx_facts t
  show V c main_v11 (((cfg0.win 2).blk t).view.emb (ix2 0 q)) = V c main_v11 _
  refine congrArg (V c main_v11) (funext fun a => Fin.ext ?_)
  match a with
  | ⟨0, _⟩ => show win0_2.index t (0 : Fin 2) * 1 + 1 * 0 = 0; omega
  | ⟨1, _⟩ => show win0_2.index t (1 : Fin 2) * 1280 + 1 * q.val = 1280 * (t.val % 25) + q.val; omega

/-- The block's logits at a point are block t % 25 of the row's logits. -/
theorem blockLogit_eq (t : Fin cfg0.N) (p : Fin 512) :
    blockLogit (iblk0 V c 0 t) (iblk0 V c 1 t) (iblk0 V c 2 t) p
      = Cert.OnlineSoftmax.blk h32000 (gl V c ⟨512 * (t.val / 25) + p.val, row_lt t p⟩) ⟨t.val % 25, Nat.mod_lt _ (by norm_num)⟩ := by
  funext q
  unfold blockLogit Cert.OnlineSoftmax.blk gl
  rw [iblk0_2_apply]
  refine congrArg₂ (· + ·) (Finset.sum_congr rfl fun k _ => ?_) rfl
  rw [iblk0_0_apply, iblk0_1_apply]

/-! ## The scratch columns along a tile -/

section Tile
open Cert.OnlineSoftmax

/-- The accumulators after the first block: one update of the reset values. -/
theorem acc_zero' (g : Fin 32000 → EReal) (k : ℕ) (hk : k < 25) (h0 : k = 0) :
    acc h32000 g k hk = step (blk h32000 g ⟨k, hk⟩) (⊥, 0) := by
  subst h0; rfl

/-- The accumulators after a later block: one update of those after the block before. -/
theorem acc_succ' (g : Fin 32000 → EReal) (k : ℕ) (hk : k < 25) (h0 : ¬k = 0) :
    acc h32000 g k hk = step (blk h32000 g ⟨k, hk⟩) (acc h32000 g (k - 1) (lt_of_le_of_lt (Nat.sub_le _ _) hk)) := by
  cases k with
  | zero => exact absurd rfl h0
  | succ k => rfl

/-- A tile's first point: the two scratch columns are reset, then updated by the block. -/
theorem scratch_first (j : ℕ) (hj : j < cfg0.N) (h0 : j % 25 = 0) :
    (outsAt0 V c j hj).2.2.1 = k0_pay6 (iblk0 V c 0 ⟨j, hj⟩) (iblk0 V c 1 ⟨j, hj⟩) (iblk0 V c 2 ⟨j, hj⟩) (k0_pay1 (F := Ideal))
      ∧ (outsAt0 V c j hj).2.2.2
        = k0_pay5 (iblk0 V c 0 ⟨j, hj⟩) (iblk0 V c 1 ⟨j, hj⟩) (iblk0 V c 2 ⟨j, hj⟩) (k0_pay1 (F := Ideal)) (k0_pay1 (F := Ideal))
          (k0_pay2 (F := Ideal)) := by
  have h1 : ¬j % 25 = 24 := by omega
  have e := outsAt0_A V c ⟨j, hj⟩ h0 h1
  exact ⟨(by have q := congrArg (fun x => x.2.2.1) e; simp only [] at q; rw [sout0_A_0_eq (F := Ideal)] at q; exact q),
    (by have q := congrArg (fun x => x.2.2.2) e; simp only [] at q; rw [sout0_A_1_eq (F := Ideal)] at q; exact q)⟩

/-- Any other point: the two scratch columns are what the point before left, updated by the block. -/
theorem scratch_step (j : ℕ) (hj : j < cfg0.N) (h0 : ¬j % 25 = 0) :
    (outsAt0 V c j hj).2.2.1 = k0_pay6 (iblk0 V c 0 ⟨j, hj⟩) (iblk0 V c 1 ⟨j, hj⟩) (iblk0 V c 2 ⟨j, hj⟩)
        (outsAt0 V c (j - 1) (lt_of_le_of_lt (Nat.sub_le _ _) hj)).2.2.1
      ∧ (outsAt0 V c j hj).2.2.2 = k0_pay5 (iblk0 V c 0 ⟨j, hj⟩) (iblk0 V c 1 ⟨j, hj⟩) (iblk0 V c 2 ⟨j, hj⟩)
        (outsAt0 V c (j - 1) (lt_of_le_of_lt (Nat.sub_le _ _) hj)).2.2.1
        (outsAt0 V c (j - 1) (lt_of_le_of_lt (Nat.sub_le _ _) hj)).2.2.1
        (outsAt0 V c (j - 1) (lt_of_le_of_lt (Nat.sub_le _ _) hj)).2.2.2 := by
  by_cases h1 : j % 25 = 24
  · have e := outsAt0_C V c ⟨j, hj⟩ h0 h1
    exact ⟨(by have q := congrArg (fun x => x.2.2.1) e; simp only [] at q; rw [sout0_C_0_eq (F := Ideal)] at q; exact q),
      (by have q := congrArg (fun x => x.2.2.2) e; simp only [] at q; rw [sout0_C_1_eq (F := Ideal)] at q; exact q)⟩
  · have e := outsAt0_B V c ⟨j, hj⟩ h0 h1
    exact ⟨(by have q := congrArg (fun x => x.2.2.1) e; simp only [] at q; rw [sout0_B_0_eq (F := Ideal)] at q; exact q),
      (by have q := congrArg (fun x => x.2.2.2) e; simp only [] at q; rw [sout0_B_1_eq (F := Ideal)] at q; exact q)⟩

/-- A tile's last point copies the two scratch columns, as it leaves them, to the two output columns. -/
theorem out_last (j : ℕ) (hj : j < cfg0.N) (h1 : j % 25 = 24) :
    (outsAt0 V c j hj).1 = (outsAt0 V c j hj).2.2.1 ∧ (outsAt0 V c j hj).2.1 = (outsAt0 V c j hj).2.2.2 := by
  have h0 : ¬j % 25 = 0 := by omega
  have e := outsAt0_C V c ⟨j, hj⟩ h0 h1
  constructor
  · have q3 := congrArg (fun x => x.1) e
    simp only [] at q3
    rw [out0_C_3_eq (F := Ideal)] at q3
    have q0 := congrArg (fun x => x.2.2.1) e
    simp only [] at q0
    rw [sout0_C_0_eq (F := Ideal)] at q0
    exact q3.trans q0.symm
  · have q4 := congrArg (fun x => x.2.1) e
    simp only [] at q4
    rw [out0_C_4_eq (F := Ideal)] at q4
    have q1 := congrArg (fun x => x.2.2.2) e
    simp only [] at q1
    rw [sout0_C_1_eq (F := Ideal)] at q1
    exact q4.trans q1.symm

/-- THE SCRATCH COLUMNS AFTER EACH POINT: at the point j of tile j / 25, row p of the two columns holds the running
    maximum and the running normaliser of row 512·(j / 25) + p over the vocabulary blocks 0 … j % 25. -/
theorem scratch_inv : ∀ (j : ℕ) (hj : j < cfg0.N) (p : Fin 512) (n : Fin 2048) (k : ℕ) (hk : k < 25),
    n.val = 512 * (j / 25) + p.val → k = j % 25 →
    (outsAt0 V c j hj).2.2.1 (ix2 p 0) = (acc h32000 (gl V c n) k hk).1
      ∧ (outsAt0 V c j hj).2.2.2 (ix2 p 0) = (acc h32000 (gl V c n) k hk).2 := by
  intro j
  induction j using Nat.strong_induction_on with
  | _ j ih =>
    intro hj p n k hk hn hkj
    obtain rfl : n = ⟨512 * (j / 25) + p.val, row_lt ⟨j, hj⟩ p⟩ := Fin.ext hn
    subst hkj
    have hb : blockLogit (iblk0 V c 0 ⟨j, hj⟩) (iblk0 V c 1 ⟨j, hj⟩) (iblk0 V c 2 ⟨j, hj⟩) p
        = blk h32000 (gl V c ⟨512 * (j / 25) + p.val, row_lt ⟨j, hj⟩ p⟩) ⟨j % 25, hk⟩ :=
      blockLogit_eq V c ⟨j, hj⟩ p
    by_cases h0 : j % 25 = 0
    · obtain ⟨e0, e1⟩ := scratch_first V c j hj h0
      rw [e0, e1, pay6_apply _ _ _ _ (k0_pay2 (F := Ideal)) p 0, pay5_apply _ _ _ _ _ p 0, hb, pay1_apply, pay2_apply,
        acc_zero' _ _ hk h0]
      exact ⟨rfl, rfl⟩
    · obtain ⟨e0, e1⟩ := scratch_step V c j hj h0
      obtain ⟨i0, i1⟩ := ih (j - 1) (by omega) (lt_of_le_of_lt (Nat.sub_le _ _) hj) p
        ⟨512 * (j / 25) + p.val, row_lt ⟨j, hj⟩ p⟩ (j % 25 - 1) (by omega)
        (by show 512 * (j / 25) + p.val = 512 * ((j - 1) / 25) + p.val; omega) (by omega)
      rw [e0, e1, pay6_apply _ _ _ _ (outsAt0 V c (j - 1) (lt_of_le_of_lt (Nat.sub_le _ _) hj)).2.2.2 p 0,
        pay5_apply _ _ _ _ _ p 0, hb, i0, i1, acc_succ' _ _ hk h0]
      exact ⟨rfl, rfl⟩

end Tile

/-! ## The two output columns after the call -/

section Columns
open Cert.OnlineSoftmax

/-- Every row's maximum logit, as a column. -/
def rowMaxArr : S2048x1.Idx → EReal := fun i =>
  (Finset.univ : Finset (Fin 32000)).fold max ⊥ (gl V c ⟨(i 0).val, (i 0).isLt⟩)

/-- Every row's softmax normaliser, as a column. -/
def rowSumArr : S2048x1.Idx → EReal := fun i =>
  ∑ v : Fin 32000, Ideal.exp (gl V c ⟨(i 0).val, (i 0).isLt⟩ v
    - (Finset.univ : Finset (Fin 32000)).fold max ⊥ (gl V c ⟨(i 0).val, (i 0).isLt⟩))

/-- At a tile's last point, row p of the two output blocks holds the maximum and the normaliser of the whole of row
    512·(j / 25) + p, when that row's logits are real numbers. -/
theorem last_point (hreal : ∀ n v, IsRealS (gl V c n v)) (j : ℕ) (hj : j < cfg0.N) (h1 : j % 25 = 24) (p : Fin 512)
    (u : Fin 1) :
    (outsAt0 V c j hj).1 (ix2 p u)
        = (Finset.univ : Finset (Fin 32000)).fold max ⊥ (gl V c ⟨512 * (j / 25) + p.val, row_lt ⟨j, hj⟩ p⟩)
      ∧ (outsAt0 V c j hj).2.1 (ix2 p u)
        = ∑ v : Fin 32000, Ideal.exp (gl V c ⟨512 * (j / 25) + p.val, row_lt ⟨j, hj⟩ p⟩ v
            - (Finset.univ : Finset (Fin 32000)).fold max ⊥ (gl V c ⟨512 * (j / 25) + p.val, row_lt ⟨j, hj⟩ p⟩)) := by
  obtain rfl : u = 0 := Subsingleton.elim _ _
  obtain ⟨o3, o4⟩ := out_last V c j hj h1
  obtain ⟨s0, s1⟩ := scratch_inv V c j hj p ⟨512 * (j / 25) + p.val, row_lt ⟨j, hj⟩ p⟩ 24 (by norm_num) rfl h1.symm
  have hl : acc h32000 (gl V c ⟨512 * (j / 25) + p.val, row_lt ⟨j, hj⟩ p⟩) 24 (by norm_num) = _ :=
    acc_last (K := 25) (B := 1280) h32000 (by norm_num) (by norm_num) (gl V c ⟨512 * (j / 25) + p.val, row_lt ⟨j, hj⟩ p⟩)
      (hreal _)
  have hl1 := congrArg Prod.fst hl
  have hl2 := congrArg Prod.snd hl
  simp only [] at hl1 hl2
  exact ⟨(congrFun o3 _).trans (s0.trans hl1), (congrFun o4 _).trans (s1.trans hl2)⟩

/-- An index of an output column is in point t's block iff each coordinate is in the block's range on its axis. -/
theorem mem_blk3 (t : Fin cfg0.N) (i : S2048x1.Idx) :
    i ∈ ((cfg0.win 3).blk t).view.set
      ↔ ∀ a : Fin 2, win0_3.index t a * S512x1.size a ≤ (i a).val ∧ (i a).val < win0_3.index t a * S512x1.size a + S512x1.size a := by
  show i ∈ ((View.whole main_v13_0).slice (win0_3.rect t)).set ↔ _
  rw [View.set_slice_whole, Rect.mem_set_unit]
  exact Iff.rfl
theorem mem_blk4 (t : Fin cfg0.N) (i : S2048x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v13_1).slice (win0_4.rect t)).set ↔ _
  rw [View.set_slice_whole, Rect.mem_set_unit]
  exact Iff.rfl

/-- What a point writes back to the first output column is its block of a column G, when row p of what the body left is G at row 512·(t / 25) + p. -/
theorem flushed3_of_rows (G : S2048x1.Idx → EReal) (t : Fin cfg0.N)
    (hG : ∀ (p : Fin 512) (u : Fin 1),
      (outsAt0 V c t.val t.isLt).1 (ix2 p u) = G (ix2 ⟨512 * (t.val / 25) + p.val, row_lt t p⟩ u)) :
    (dat0 (F := Ideal) V c).flushed 3 t = ((cfg0.win 3).blk t).view.read (Elt Ideal) G := by
  obtain ⟨-, -, -, -, -, -, e0, e1, -⟩ := idx_facts t
  show (cfg0.win 3).cut (grid0.coords t) ((dat0 (F := Ideal) V c).after 3 t) = _
  rw [after0_3]
  funext y
  obtain ⟨p, u, rfl⟩ : ∃ (p : Fin 512) (u : Fin 1), y = ix2 p u := ⟨y 0, y 1, eq_ix2 y⟩
  show (outsAt0 V c t.val t.isLt).1 (ix2 p u) = G (((cfg0.win 3).blk t).view.emb (ix2 p u))
  rw [hG p u]
  refine congrArg G (funext fun a => Fin.ext ?_)
  match a with
  | ⟨0, _⟩ => show 512 * (t.val / 25) + p.val = win0_3.index t (0 : Fin 2) * 512 + 1 * p.val; omega
  | ⟨1, _⟩ => show u.val = win0_3.index t (1 : Fin 2) * 1 + 1 * u.val; omega

/-- What a tile's last point writes back to the first output column is its block of the rows' maxima. -/
theorem flushed3_eq (hreal : ∀ n v, IsRealS (gl V c n v)) (t : Fin cfg0.N) (hf : (cfg0.win 3).flush t = true) :
    (dat0 (F := Ideal) V c).flushed 3 t = ((cfg0.win 3).blk t).view.read (Elt Ideal) (rowMaxArr V c) := by
  have h1 : t.val % 25 = 24 := (flush0_3 t).mp hf
  refine flushed3_of_rows V c (rowMaxArr V c) t fun p u => ?_
  rw [(last_point V c hreal t.val t.isLt h1 p u).1]
  unfold rowMaxArr
  exact congrArg (fun n => (Finset.univ : Finset (Fin 32000)).fold max ⊥ (gl V c n)) (Fin.ext rfl)

/-- The same for the second output column. -/
theorem flushed4_of_rows (G : S2048x1.Idx → EReal) (t : Fin cfg0.N)
    (hG : ∀ (p : Fin 512) (u : Fin 1),
      (outsAt0 V c t.val t.isLt).2.1 (ix2 p u) = G (ix2 ⟨512 * (t.val / 25) + p.val, row_lt t p⟩ u)) :
    (dat0 (F := Ideal) V c).flushed 4 t = ((cfg0.win 4).blk t).view.read (Elt Ideal) G := by
  obtain ⟨-, -, -, -, -, -, -, -, e0, e1⟩ := idx_facts t
  show (cfg0.win 4).cut (grid0.coords t) ((dat0 (F := Ideal) V c).after 4 t) = _
  rw [after0_4]
  funext y
  obtain ⟨p, u, rfl⟩ : ∃ (p : Fin 512) (u : Fin 1), y = ix2 p u := ⟨y 0, y 1, eq_ix2 y⟩
  show (outsAt0 V c t.val t.isLt).2.1 (ix2 p u) = G (((cfg0.win 4).blk t).view.emb (ix2 p u))
  rw [hG p u]
  refine congrArg G (funext fun a => Fin.ext ?_)
  match a with
  | ⟨0, _⟩ => show 512 * (t.val / 25) + p.val = win0_4.index t (0 : Fin 2) * 512 + 1 * p.val; omega
  | ⟨1, _⟩ => show u.val = win0_4.index t (1 : Fin 2) * 1 + 1 * u.val; omega

/-- What a tile's last point writes back to the second output column is its block of the rows' normalisers. -/
theorem flushed4_eq (hreal : ∀ n v, IsRealS (gl V c n v)) (t : Fin cfg0.N) (hf : (cfg0.win 4).flush t = true) :
    (dat0 (F := Ideal) V c).flushed 4 t = ((cfg0.win 4).blk t).view.read (Elt Ideal) (rowSumArr V c) := by
  have h1 : t.val % 25 = 24 := (flush0_4 t).mp hf
  refine flushed4_of_rows V c (rowSumArr V c) t fun p u => ?_
  rw [(last_point V c hreal t.val t.isLt h1 p u).2]
  unfold rowSumArr
  exact congrArg (fun n => ∑ v : Fin 32000, Ideal.exp (gl V c n v - (Finset.univ : Finset (Fin 32000)).fold max ⊥ (gl V c n))) (Fin.ext rfl)

/-- The last point of a row's tile. -/
theorem lastPt_lt (i : S2048x1.Idx) : 25 * ((i 0).val / 512) + 24 < cfg0.N := by
  have h : (i 0).val < 2048 := (i 0).isLt
  show 25 * ((i 0).val / 512) + 24 < grid0.N
  rw [N_0]; omega

/-- Every row of the first output column is in the block some tile's last point writes back. -/
theorem cover3 (i : S2048x1.Idx) : ∃ t : Fin cfg0.N, (cfg0.win 3).flush t = true ∧ i ∈ ((cfg0.win 3).blk t).view.set := by
  have h0 : (i 0).val < 2048 := (i 0).isLt
  have h1 : (i 1).val < 1 := (i 1).isLt
  refine ⟨⟨25 * ((i 0).val / 512) + 24, lastPt_lt i⟩, (flush0_3 _).mpr (by show (25 * ((i 0).val / 512) + 24) % 25 = 24; omega), ?_⟩
  obtain ⟨-, -, -, -, -, -, e0, e1, -⟩ := idx_facts ⟨25 * ((i 0).val / 512) + 24, lastPt_lt i⟩
  have e0' : win0_3.index ⟨25 * ((i 0).val / 512) + 24, lastPt_lt i⟩ (0 : Fin 2) = (25 * ((i 0).val / 512) + 24) / 25 := e0
  rw [mem_blk3]
  intro a
  match a with
  | ⟨0, _⟩ =>
    show win0_3.index ⟨25 * ((i 0).val / 512) + 24, lastPt_lt i⟩ (0 : Fin 2) * 512 ≤ (i 0).val
      ∧ (i 0).val < win0_3.index ⟨25 * ((i 0).val / 512) + 24, lastPt_lt i⟩ (0 : Fin 2) * 512 + 512
    omega
  | ⟨1, _⟩ =>
    show win0_3.index ⟨25 * ((i 0).val / 512) + 24, lastPt_lt i⟩ (1 : Fin 2) * 1 ≤ (i 1).val
      ∧ (i 1).val < win0_3.index ⟨25 * ((i 0).val / 512) + 24, lastPt_lt i⟩ (1 : Fin 2) * 1 + 1
    omega

/-- The same for the second output column. -/
theorem cover4 (i : S2048x1.Idx) : ∃ t : Fin cfg0.N, (cfg0.win 4).flush t = true ∧ i ∈ ((cfg0.win 4).blk t).view.set := by
  have h0 : (i 0).val < 2048 := (i 0).isLt
  have h1 : (i 1).val < 1 := (i 1).isLt
  refine ⟨⟨25 * ((i 0).val / 512) + 24, lastPt_lt i⟩, (flush0_4 _).mpr (by show (25 * ((i 0).val / 512) + 24) % 25 = 24; omega), ?_⟩
  obtain ⟨-, -, -, -, -, -, -, -, e0, e1⟩ := idx_facts ⟨25 * ((i 0).val / 512) + 24, lastPt_lt i⟩
  have e0' : win0_4.index ⟨25 * ((i 0).val / 512) + 24, lastPt_lt i⟩ (0 : Fin 2) = (25 * ((i 0).val / 512) + 24) / 25 := e0
  rw [mem_blk4]
  intro a
  match a with
  | ⟨0, _⟩ =>
    show win0_4.index ⟨25 * ((i 0).val / 512) + 24, lastPt_lt i⟩ (0 : Fin 2) * 512 ≤ (i 0).val
      ∧ (i 0).val < win0_4.index ⟨25 * ((i 0).val / 512) + 24, lastPt_lt i⟩ (0 : Fin 2) * 512 + 512
    omega
  | ⟨1, _⟩ =>
    show win0_4.index ⟨25 * ((i 0).val / 512) + 24, lastPt_lt i⟩ (1 : Fin 2) * 1 ≤ (i 1).val
      ∧ (i 1).val < win0_4.index ⟨25 * ((i 0).val / 512) + 24, lastPt_lt i⟩ (1 : Fin 2) * 1 + 1
    omega

/-- THE FIRST OUTPUT COLUMN after the call: every row's maximum logit. -/
theorem final3 (hreal : ∀ n v, IsRealS (gl V c n v)) : (dat0 (F := Ideal) V c).arrAt 3 cfg0.N = rowMaxArr V c :=
  (dat0 (F := Ideal) V c).arrAt_eq_of_cover 3 (rowMaxArr V c) (fun t hf => flushed3_eq V c hreal t hf) (cover3)

/-- THE SECOND OUTPUT COLUMN after the call: every row's softmax normaliser. -/
theorem final4 (hreal : ∀ n v, IsRealS (gl V c n v)) : (dat0 (F := Ideal) V c).arrAt 4 cfg0.N = rowSumArr V c :=
  (dat0 (F := Ideal) V c).arrAt_eq_of_cover 4 (rowSumArr V c) (fun t hf => flushed4_eq V c hreal t hf) (cover4)

end Columns

end Cert.KernelIdeal.R0

end
-- ==== Proof.R1Final.lean ====
/-
  The second kernel's output array as one function of the arrays the region finds.

  The grid has 4 × 25 points; point (a, b) stores the [512, 1280] block with block indices (a, b) of the
  [2048, 32000] output, computed from the blocks with the same row index a and column index b of its seven operands.
  The blocks tile the output, so the output ends holding, at row n and column v,

      log (max ε (exp (Σₖ hidden (n, k) · weights (v, k) + bias (0, v) − rowMax (n, 0)) · (1 / rowSum (n, 0)) · (1 − gate (n, 0)) + delta (n, v))).
-/
import proofs.«178329_j25546465477119_2_alg».proof.Proof.Region1Value
import Idealize.ShloMosaic.Lib.Pipeline.Value
import Idealize.ShloMosaic.Lib.ValueIdx

noncomputable section

namespace Cert.KernelIdeal.R1

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The output array from the seven operand arrays: at row n = i 0 and column v = i 1. -/
def outArr (a0 : S2048x512.Idx → EReal) (a12 : S32000x512.Idx → EReal) (a11 : S1x32000.Idx → EReal)
    (a13_0 a13_1 a10 : S2048x1.Idx → EReal) (a34 : S2048x32000.Idx → EReal) : S2048x32000.Idx → EReal := fun i =>
  Ideal.log (max (Ideal.ofBits .f32 0x1E3CE508#32)
    (Ideal.exp (((∑ k : Fin 512, a0 (ix2 (i 0) k) * a12 (ix2 (i 1) k)) + a11 (ix2 0 (i 1))) - a13_0 (ix2 (i 0) 0))
      * Ideal.div (Ideal.ofBits .f32 0x3F800000#32) (a13_1 (ix2 (i 0) 0))
      * (Ideal.ofBits .f32 0x3F800000#32 - a10 (ix2 (i 0) 0))
      + a34 i))

/-- The output array from the arrays the region finds. -/
def G1 (c : Dev nD) : S2048x32000.Idx → EReal :=
  outArr (V c main_arg0) (V c main_v12) (V c main_v11) (V c main_v13_0) (V c main_v13_1) (V c main_v10) (V c main_v34)

/-- The output array at an index, written out. -/
theorem outArr_apply (a0 : S2048x512.Idx → EReal) (a12 : S32000x512.Idx → EReal) (a11 : S1x32000.Idx → EReal)
    (a13_0 a13_1 a10 : S2048x1.Idx → EReal) (a34 : S2048x32000.Idx → EReal) (i : S2048x32000.Idx) :
    outArr a0 a12 a11 a13_0 a13_1 a10 a34 i
      = Ideal.log (max (Ideal.ofBits .f32 0x1E3CE508#32)
          (Ideal.exp (((∑ k : Fin 512, a0 (ix2 (i 0) k) * a12 (ix2 (i 1) k)) + a11 (ix2 0 (i 1))) - a13_0 (ix2 (i 0) 0))
            * Ideal.div (Ideal.ofBits .f32 0x3F800000#32) (a13_1 (ix2 (i 0) 0))
            * (Ideal.ofBits .f32 0x3F800000#32 - a10 (ix2 (i 0) 0))
            + a34 i)) := rfl

/-- The same at row n and column v given as numbers. -/
theorem outArr_ix2 (a0 : S2048x512.Idx → EReal) (a12 : S32000x512.Idx → EReal) (a11 : S1x32000.Idx → EReal)
    (a13_0 a13_1 a10 : S2048x1.Idx → EReal) (a34 : S2048x32000.Idx → EReal) (n : Fin 2048) (v : Fin 32000) :
    outArr a0 a12 a11 a13_0 a13_1 a10 a34 (ix2 n v)
      = Ideal.log (max (Ideal.ofBits .f32 0x1E3CE508#32)
          (Ideal.exp (((∑ k : Fin 512, a0 (ix2 n k) * a12 (ix2 v k)) + a11 (ix2 0 v)) - a13_0 (ix2 n 0))
            * Ideal.div (Ideal.ofBits .f32 0x3F800000#32) (a13_1 (ix2 n 0))
            * (Ideal.ofBits .f32 0x3F800000#32 - a10 (ix2 n 0))
            + a34 (ix2 n v))) := rfl

/-- The output array is that function of the seven arrays the region finds. -/
theorem G1_def (c : Dev nD) : G1 V c
    = outArr (V c main_arg0) (V c main_v12) (V c main_v11) (V c main_v13_0) (V c main_v13_1) (V c main_v10) (V c main_v34) := rfl

/-- An entry depends only on the six numbers it is made of. -/
theorem entry_congr {s s' b b' mx mx' l l' g g' d d' : EReal} (hs : s = s') (hb : b = b') (hmx : mx = mx') (hl : l = l')
    (hg : g = g') (hd : d = d') :
    Ideal.log (max (Ideal.ofBits .f32 0x1E3CE508#32)
        (Ideal.exp ((s + b) - mx) * Ideal.div (Ideal.ofBits .f32 0x3F800000#32) l * (Ideal.ofBits .f32 0x3F800000#32 - g) + d))
      = Ideal.log (max (Ideal.ofBits .f32 0x1E3CE508#32)
        (Ideal.exp ((s' + b') - mx') * Ideal.div (Ideal.ofBits .f32 0x3F800000#32) l' * (Ideal.ofBits .f32 0x3F800000#32 - g') + d')) := by
  subst hs hb hmx hl hg hd; rfl

/-- The printed index maps over the grid: point t = 25·a + b has row block a and column block b; the operands' blocks
    follow the output's on the axes they share and stay at 0 on the others. -/
theorem idx_facts1 : ∀ t : Fin cfg1.N,
    win1_0.index t (0 : Fin 2) = win1_7.index t (0 : Fin 2) ∧ win1_0.index t (1 : Fin 2) = 0
    ∧ win1_1.index t (0 : Fin 2) = win1_7.index t (1 : Fin 2) ∧ win1_1.index t (1 : Fin 2) = 0
    ∧ win1_2.index t (0 : Fin 2) = 0 ∧ win1_2.index t (1 : Fin 2) = win1_7.index t (1 : Fin 2)
    ∧ win1_3.index t (0 : Fin 2) = win1_7.index t (0 : Fin 2) ∧ win1_3.index t (1 : Fin 2) = 0
    ∧ win1_4.index t (0 : Fin 2) = win1_7.index t (0 : Fin 2) ∧ win1_4.index t (1 : Fin 2) = 0
    ∧ win1_5.index t (0 : Fin 2) = win1_7.index t (0 : Fin 2) ∧ win1_5.index t (1 : Fin 2) = 0
    ∧ win1_6.index t (0 : Fin 2) = win1_7.index t (0 : Fin 2) ∧ win1_6.index t (1 : Fin 2) = win1_7.index t (1 : Fin 2)
    ∧ win1_7.index t (0 : Fin 2) = t.val / 25 ∧ win1_7.index t (1 : Fin 2) = t.val % 25 :=
  (by decide +kernel : ∀ t : Fin grid1.N, _)

/-! ### Each operand block, read where the output block's rectangle says

  Inside a block, coordinate x on an axis of block index b and block extent e is the array's coordinate b · e + x. -/

/-- The hidden block: rows follow the output's rows, all 512 columns. -/
theorem read0 (c : Dev nD) (t : Fin cfg1.N) (p k : Fin 512) (n : Fin 2048)
    (hn : n.val = win1_7.index t (0 : Fin 2) * 512 + p.val) :
    iblk1 V c 0 t (ix2 p k) = (V c main_arg0 : S2048x512.Idx → EReal) (ix2 n k) := by
  obtain ⟨e0, e1, -⟩ := idx_facts1 t
  show V c main_arg0 (((cfg1.win 0).blk t).view.emb (ix2 p k)) = V c main_arg0 (ix2 n k)
  refine congrArg (V c main_arg0) (funext fun a => Fin.ext ?_)
  match a with
  | ⟨0, _⟩ => show win1_0.index t (0 : Fin 2) * 512 + 1 * p.val = n.val; omega
  | ⟨1, _⟩ => show win1_0.index t (1 : Fin 2) * 512 + 1 * k.val = k.val; omega

/-- The weights block: its rows follow the output's columns, all 512 columns. -/
theorem read1 (c : Dev nD) (t : Fin cfg1.N) (q : Fin 1280) (k : Fin 512) (v : Fin 32000)
    (hv : v.val = win1_7.index t (1 : Fin 2) * 1280 + q.val) :
    iblk1 V c 1 t (ix2 q k) = (V c main_v12 : S32000x512.Idx → EReal) (ix2 v k) := by
  obtain ⟨-, -, e0, e1, -⟩ := idx_facts1 t
  show V c main_v12 (((cfg1.win 1).blk t).view.emb (ix2 q k)) = V c main_v12 (ix2 v k)
  refine congrArg (V c main_v12) (funext fun a => Fin.ext ?_)
  match a with
  | ⟨0, _⟩ => show win1_1.index t (0 : Fin 2) * 1280 + 1 * q.val = v.val; omega
  | ⟨1, _⟩ => show win1_1.index t (1 : Fin 2) * 512 + 1 * k.val = k.val; omega

/-- The bias row's block: columns follow the output's columns. -/
theorem read2 (c : Dev nD) (t : Fin cfg1.N) (q : Fin 1280) (v : Fin 32000)
    (hv : v.val = win1_7.index t (1 : Fin 2) * 1280 + q.val) :
    iblk1 V c 2 t (ix2 0 q) = (V c main_v11 : S1x32000.Idx → EReal) (ix2 0 v) := by
  obtain ⟨-, -, -, -, e0, e1, -⟩ := idx_facts1 t
  show V c main_v11 (((cfg1.win 2).blk t).view.emb (ix2 0 q)) = V c main_v11 (ix2 0 v)
  refine congrArg (V c main_v11) (funext fun a => Fin.ext ?_)
  match a with
  | ⟨0, _⟩ => show win1_2.index t (0 : Fin 2) * 1 + 1 * 0 = 0; omega
  | ⟨1, _⟩ => show win1_2.index t (1 : Fin 2) * 1280 + 1 * q.val = v.val; omega

/-- The row maxima's block: rows follow the output's rows. -/
theorem read3 (c : Dev nD) (t : Fin cfg1.N) (p : Fin 512) (n : Fin 2048)
    (hn : n.val = win1_7.index t (0 : Fin 2) * 512 + p.val) :
    iblk1 V c 3 t (ix2 p 0) = (V c main_v13_0 : S2048x1.Idx → EReal) (ix2 n 0) := by
  obtain ⟨-, -, -, -, -, -, e0, e1, -⟩ := idx_facts1 t
  show V c main_v13_0 (((cfg1.win 3).blk t).view.emb (ix2 p 0)) = V c main_v13_0 (ix2 n 0)
  refine congrArg (V c main_v13_0) (funext fun a => Fin.ext ?_)
  match a with
  | ⟨0, _⟩ => show win1_3.index t (0 : Fin 2) * 512 + 1 * p.val = n.val; omega
  | ⟨1, _⟩ => show win1_3.index t (1 : Fin 2) * 1 + 1 * 0 = 0; omega

/-- The row sums' block. -/
theorem read4 (c : Dev nD) (t : Fin cfg1.N) (p : Fin 512) (n : Fin 2048)
    (hn : n.val = win1_7.index t (0 : Fin 2) * 512 + p.val) :
    iblk1 V c 4 t (ix2 p 0) = (V c main_v13_1 : S2048x1.Idx → EReal) (ix2 n 0) := by
  obtain ⟨-, -, -, -, -, -, -, -, e0, e1, -⟩ := idx_facts1 t
  show V c main_v13_1 (((cfg1.win 4).blk t).view.emb (ix2 p 0)) = V c main_v13_1 (ix2 n 0)
  refine congrArg (V c main_v13_1) (funext fun a => Fin.ext ?_)
  match a with
  | ⟨0, _⟩ => show win1_4.index t (0 : Fin 2) * 512 + 1 * p.val = n.val; omega
  | ⟨1, _⟩ => show win1_4.index t (1 : Fin 2) * 1 + 1 * 0 = 0; omega

/-- The copy gate's block. -/
theorem read5 (c : Dev nD) (t : Fin cfg1.N) (p : Fin 512) (n : Fin 2048)
    (hn : n.val = win1_7.index t (0 : Fin 2) * 512 + p.val) :
    iblk1 V c 5 t (ix2 p 0) = (V c main_v10 : S2048x1.Idx → EReal) (ix2 n 0) := by
  obtain ⟨-, -, -, -, -, -, -, -, -, -, e0, e1, -⟩ := idx_facts1 t
  show V c main_v10 (((cfg1.win 5).blk t).view.emb (ix2 p 0)) = V c main_v10 (ix2 n 0)
  refine congrArg (V c main_v10) (funext fun a => Fin.ext ?_)
  match a with
  | ⟨0, _⟩ => show win1_5.index t (0 : Fin 2) * 512 + 1 * p.val = n.val; omega
  | ⟨1, _⟩ => show win1_5.index t (1 : Fin 2) * 1 + 1 * 0 = 0; omega

/-- The scattered mass's block: the output's own rectangle. -/
theorem read6 (c : Dev nD) (t : Fin cfg1.N) (p : Fin 512) (q : Fin 1280) (i : S2048x32000.Idx)
    (hn : (i 0).val = win1_7.index t (0 : Fin 2) * 512 + p.val) (hv : (i 1).val = win1_7.index t (1 : Fin 2) * 1280 + q.val) :
    iblk1 V c 6 t (ix2 p q) = (V c main_v34 : S2048x32000.Idx → EReal) i := by
  obtain ⟨-, -, -, -, -, -, -, -, -, -, -, -, e0, e1, -⟩ := idx_facts1 t
  show V c main_v34 (((cfg1.win 6).blk t).view.emb (ix2 p q)) = V c main_v34 i
  refine congrArg (V c main_v34) (funext fun a => Fin.ext ?_)
  match a with
  | ⟨0, _⟩ => show win1_6.index t (0 : Fin 2) * 512 + 1 * p.val = (i 0).val; omega
  | ⟨1, _⟩ => show win1_6.index t (1 : Fin 2) * 1280 + 1 * q.val = (i 1).val; omega

/-- WHAT POINT t WRITES BACK is block t of the output array. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  funext j
  have hx : (cfg1.win 7).xinj (grid1.coords t) j = ix2 (⟨(j 0).val, (j 0).isLt⟩ : Fin 512) (⟨(j 1).val, (j 1).isLt⟩ : Fin 1280) := by
    funext a; match a with | ⟨0, _⟩ => rfl | ⟨1, _⟩ => rfl
  refine (congrArg (out1_7 (iblk1 V c 0 t) (iblk1 V c 1 t) (iblk1 V c 2 t) (iblk1 V c 3 t) (iblk1 V c 4 t) (iblk1 V c 5 t) (iblk1 V c 6 t)) hx).trans ?_
  refine (out1_7_apply (iblk1 V c 0 t) (iblk1 V c 1 t) (iblk1 V c 2 t) (iblk1 V c 3 t) (iblk1 V c 4 t) (iblk1 V c 5 t) (iblk1 V c 6 t) _ _).trans ?_
  have hn : ((((cfg1.win 7).blk t).view.emb j) 0).val = win1_7.index t (0 : Fin 2) * 512 + (j 0).val := by
    show win1_7.index t (0 : Fin 2) * 512 + 1 * (j 0).val = _; omega
  have hv : ((((cfg1.win 7).blk t).view.emb j) 1).val = win1_7.index t (1 : Fin 2) * 1280 + (j 1).val := by
    show win1_7.index t (1 : Fin 2) * 1280 + 1 * (j 1).val = _; omega
  refine Eq.trans ?_ (outArr_apply (V c main_arg0) (V c main_v12) (V c main_v11) (V c main_v13_0) (V c main_v13_1) (V c main_v10)
    (V c main_v34) (((cfg1.win 7).blk t).view.emb j)).symm
  refine entry_congr (Finset.sum_congr rfl fun k _ => ?_) ?_ ?_ ?_ ?_ ?_
  · exact congr (congrArg HMul.hMul (read0 V c t ⟨(j 0).val, (j 0).isLt⟩ k _ hn)) (read1 V c t ⟨(j 1).val, (j 1).isLt⟩ k _ hv)
  · exact read2 V c t ⟨(j 1).val, (j 1).isLt⟩ _ hv
  · exact read3 V c t ⟨(j 0).val, (j 0).isLt⟩ _ hn
  · exact read4 V c t ⟨(j 0).val, (j 0).isLt⟩ _ hn
  · exact read5 V c t ⟨(j 0).val, (j 0).isLt⟩ _ hn
  · exact read6 V c t ⟨(j 0).val, (j 0).isLt⟩ ⟨(j 1).val, (j 1).isLt⟩ _ hn hv

/-- An index of the output is in point t's block iff each coordinate is in the block's range on its axis. -/
theorem mem_blk1 (t : Fin cfg1.N) (i : S2048x32000.Idx) :
    i ∈ ((cfg1.win 7).blk t).view.set ↔ ∀ a : Fin 2, win1_7.index t a * S512x1280.size a ≤ (i a).val
      ∧ (i a).val < win1_7.index t a * S512x1280.size a + S512x1280.size a := by
  show i ∈ ((View.whole main_v35).slice (win1_7.rect t)).set ↔ _
  rw [View.set_slice_whole, Rect.mem_set_unit]
  exact Iff.rfl

/-- The blocks tile the output: row n, column v lies in the block of the point with row block n / 512 and column
    block v / 1280. -/
theorem cover1 (i : S2048x32000.Idx) :
    ∃ t : Fin cfg1.N, (cfg1.win 7).flush t = true ∧ i ∈ ((cfg1.win 7).blk t).view.set := by
  have hi0 : (i 0).val < 2048 := (i 0).isLt
  have hi1 : (i 1).val < 32000 := (i 1).isLt
  have hN : cfg1.N = 100 := N_1
  have ht : 25 * ((i 0).val / 512) + (i 1).val / 1280 < cfg1.N := by rw [hN]; omega
  obtain ⟨-, -, -, -, -, -, -, -, -, -, -, -, -, -, e0, e1⟩ := idx_facts1 ⟨25 * ((i 0).val / 512) + (i 1).val / 1280, ht⟩
  refine ⟨⟨25 * ((i 0).val / 512) + (i 1).val / 1280, ht⟩, flush1_7 _, ?_⟩
  rw [mem_blk1]
  intro a
  match a with
  | ⟨0, _⟩ =>
    show win1_7.index _ (0 : Fin 2) * 512 ≤ (i 0).val ∧ (i 0).val < win1_7.index _ (0 : Fin 2) * 512 + 512
    rw [e0]; show (25 * ((i 0).val / 512) + (i 1).val / 1280) / 25 * 512 ≤ _ ∧ _ < (25 * ((i 0).val / 512) + (i 1).val / 1280) / 25 * 512 + 512
    omega
  | ⟨1, _⟩ =>
    show win1_7.index _ (1 : Fin 2) * 1280 ≤ (i 1).val ∧ (i 1).val < win1_7.index _ (1 : Fin 2) * 1280 + 1280
    rw [e1]; show (25 * ((i 0).val / 512) + (i 1).val / 1280) % 25 * 1280 ≤ _ ∧ _ < (25 * ((i 0).val / 512) + (i 1).val / 1280) % 25 * 1280 + 1280
    omega

/-- THE OUTPUT ARRAY after the region. -/
theorem final1 (c : Dev nD) : (dat1 (F := Ideal) V c).arrAt 7 cfg1.N = G1 V c :=
  (dat1 V c).arrAt_eq_of_cover 7 (G1 V c) (fun t _ => flushed1_eq V c t) cover1

end Cert.KernelIdeal.R1

end
-- ==== Proof.KernelOut.lean ====
/- The kernel program's result array is the specification. With x0 … x6 the launch contents of the seven arguments, all
   of x0 (hidden states), x3 (vocabulary weights) and x4 (vocabulary bias) real: the logits the first call reads are the
   specification's logits; so its two output columns hold every row's maximum and normaliser; the second call reads
   those, the copy gate and the scattered attention mass the host operations computed, and the same logits; and what it
   leaves in the result array at (n, v) is the specification's value there. -/
import proofs.«178329_j25546465477119_2_alg».proof.Proof.FramesA
import proofs.«178329_j25546465477119_2_alg».proof.Proof.KernelHost
import proofs.«178329_j25546465477119_2_alg».proof.Proof.Spec
import proofs.«178329_j25546465477119_2_alg».proof.Proof.RefValue
import proofs.«178329_j25546465477119_2_alg».proof.Proof.LibRows
import proofs.«178329_j25546465477119_2_alg».proof.Proof.LibReals
import proofs.«178329_j25546465477119_2_alg».proof.Proof.R0Final
import proofs.«178329_j25546465477119_2_alg».proof.Proof.R1Final

set_option maxRecDepth 16384

noncomputable section

namespace Cert.KernelIdeal.Out

open Idealize.ShloMosaic Idealize.ShloMosaic.TcCoe Idealize.ShloMosaic.ValueIdx Idealize.SL.Sem
open Cert.KernelIdeal Cert.KernelIdeal.Gen Cert.Reals
open scoped BigOperators

variable (m : (ℓ : Loc nD τ sig) → Buf (Elt Ideal) ℓ) (c : Dev nD)

/-- The logits the first call reads are the specification's. -/
theorem gl_eq (n : Fin 2048) (v : Fin 32000) :
    R0.gl (Vr1 m) c n v = Cert.Spec.lg (m ((c.tc : Thread nD τ).loc main_arg0)) (m ((c.tc : Thread nD τ).loc main_arg3)) (m ((c.tc : Thread nD τ).loc main_arg4)) n v := by
  unfold R0.gl Cert.Spec.lg
  refine congrArg₂ (· + ·) (Finset.sum_congr rfl fun k _ => ?_) ?_
  · exact congrArg₂ (· * ·) (congrFun (Host.V1_arg0 m c) _) (Host.V1_v12_apply m c _)
  · exact (congrFun (Host.V1_v11 m c) _).trans (Cert.Lib.Rows.shapeCast_vec_row_apply _ _ v)

/-- Every logit the first call reads is a real number, when the hidden states, the weights and the bias are. -/
theorem gl_real (h0 : ∀ i : S2048x512.Idx, IsRealS (((m ((c.tc : Thread nD τ).loc main_arg0)) : S2048x512.Idx → EReal) i))
    (h3 : ∀ i : S32000x512.Idx, IsRealS (((m ((c.tc : Thread nD τ).loc main_arg3)) : S32000x512.Idx → EReal) i))
    (h4 : ∀ i : S32000.Idx, IsRealS (((m ((c.tc : Thread nD τ).loc main_arg4)) : S32000.Idx → EReal) i))
    (n : Fin 2048) (v : Fin 32000) : IsRealS (R0.gl (Vr1 m) c n v) := by
  rw [gl_eq]
  exact Cert.RefValue.lg_real _ _ _ h0 h3 h4 n v

/-- Every row's maximum over the first call's logits is the specification's row maximum. -/
theorem rowMaxArr_eq (n : Fin 2048) :
    R0.rowMaxArr (Vr1 m) c (ix2 n 0) = Cert.Spec.rowMax (m ((c.tc : Thread nD τ).loc main_arg0)) (m ((c.tc : Thread nD τ).loc main_arg3)) (m ((c.tc : Thread nD τ).loc main_arg4)) n := by
  unfold R0.rowMaxArr Cert.Spec.rowMax
  exact congrArg (fun f : Fin 32000 → EReal => (Finset.univ : Finset (Fin 32000)).fold max ⊥ f) (funext fun v => gl_eq m c n v)

/-- Every row's normaliser over the first call's logits is the specification's row normaliser. -/
theorem rowSumArr_eq (n : Fin 2048) :
    R0.rowSumArr (Vr1 m) c (ix2 n 0) = Cert.Spec.rowSum (m ((c.tc : Thread nD τ).loc main_arg0)) (m ((c.tc : Thread nD τ).loc main_arg3)) (m ((c.tc : Thread nD τ).loc main_arg4)) n := by
  unfold R0.rowSumArr Cert.Spec.rowSum Cert.Spec.rowMax
  refine Finset.sum_congr rfl fun v _ => ?_
  exact congrArg Ideal.exp (congrArg₂ (· - ·) (gl_eq m c n v)
    (congrArg (fun f : Fin 32000 → EReal => (Finset.univ : Finset (Fin 32000)).fold max ⊥ f) (funext fun v => gl_eq m c n v)))

/-- The second call finds, in the first call's first output column, every row's maximum. -/
theorem rowMax_eq (h0 : ∀ i : S2048x512.Idx, IsRealS (((m ((c.tc : Thread nD τ).loc main_arg0)) : S2048x512.Idx → EReal) i))
    (h3 : ∀ i : S32000x512.Idx, IsRealS (((m ((c.tc : Thread nD τ).loc main_arg3)) : S32000x512.Idx → EReal) i))
    (h4 : ∀ i : S32000.Idx, IsRealS (((m ((c.tc : Thread nD τ).loc main_arg4)) : S32000.Idx → EReal) i))
    (n : Fin 2048) :
    (Vr3 m c main_v13_0 : S2048x1.Idx → EReal) (ix2 n 0) = Cert.Spec.rowMax (m ((c.tc : Thread nD τ).loc main_arg0)) (m ((c.tc : Thread nD τ).loc main_arg3)) (m ((c.tc : Thread nD τ).loc main_arg4)) n := by
  have hA : (Vr3 m c main_v13_0 : S2048x1.Idx → EReal) = R0.rowMaxArr (Vr1 m) c :=
    ((Host.V3_v13_0 m (outsA m) c).trans (outs0_v13_0 m c)).trans (R0.final3 (Vr1 m) c (gl_real m c h0 h3 h4))
  exact (congrFun hA (ix2 n 0)).trans (rowMaxArr_eq m c n)

/-- And in its second output column every row's normaliser. -/
theorem rowSum_eq (h0 : ∀ i : S2048x512.Idx, IsRealS (((m ((c.tc : Thread nD τ).loc main_arg0)) : S2048x512.Idx → EReal) i))
    (h3 : ∀ i : S32000x512.Idx, IsRealS (((m ((c.tc : Thread nD τ).loc main_arg3)) : S32000x512.Idx → EReal) i))
    (h4 : ∀ i : S32000.Idx, IsRealS (((m ((c.tc : Thread nD τ).loc main_arg4)) : S32000.Idx → EReal) i))
    (n : Fin 2048) :
    (Vr3 m c main_v13_1 : S2048x1.Idx → EReal) (ix2 n 0) = Cert.Spec.rowSum (m ((c.tc : Thread nD τ).loc main_arg0)) (m ((c.tc : Thread nD τ).loc main_arg3)) (m ((c.tc : Thread nD τ).loc main_arg4)) n := by
  have hA : (Vr3 m c main_v13_1 : S2048x1.Idx → EReal) = R0.rowSumArr (Vr1 m) c :=
    ((Host.V3_v13_1 m (outsA m) c).trans (outs0_v13_1 m c)).trans (R0.final4 (Vr1 m) c (gl_real m c h0 h3 h4))
  exact (congrFun hA (ix2 n 0)).trans (rowSumArr_eq m c n)

/-- The result array the second call leaves, at (n, v), is the specification's value there. -/
theorem kernel_out (h0 : ∀ i : S2048x512.Idx, IsRealS (((m ((c.tc : Thread nD τ).loc main_arg0)) : S2048x512.Idx → EReal) i))
    (h3 : ∀ i : S32000x512.Idx, IsRealS (((m ((c.tc : Thread nD τ).loc main_arg3)) : S32000x512.Idx → EReal) i))
    (h4 : ∀ i : S32000.Idx, IsRealS (((m ((c.tc : Thread nD τ).loc main_arg4)) : S32000.Idx → EReal) i))
    (n : Fin 2048) (v : Fin 32000) :
    ((dat1 (F := Ideal) (Vr3 m) c).arrAt 7 cfg1.N : S2048x32000.Idx → EReal) (ix2 n v)
      = Cert.Spec.out (m ((c.tc : Thread nD τ).loc main_arg0)) (m ((c.tc : Thread nD τ).loc main_arg3)) (m ((c.tc : Thread nD τ).loc main_arg4))
          (fun n => Cert.ReferenceIdeal.Read.val_main_v10 (F := Ideal) (m ((c.tc : Thread nD τ).loc main_arg0)) (m ((c.tc : Thread nD τ).loc main_arg5)) (m ((c.tc : Thread nD τ).loc main_arg6)) (ix2 n 0))
          (fun n v => Cert.RefValue.delta (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (ix2 n v)) n v := by
  refine (congrFun (R1.final1 (Vr3 m) c) (ix2 n v)).trans ?_
  rw [R1.G1_def, R1.outArr_ix2]
  unfold Cert.Spec.out Cert.Spec.lg
  exact R1.entry_congr
    (Finset.sum_congr rfl fun k _ => congrArg₂ (· * ·) (congrFun (Host.V3_arg0 m (outsA m) c) _) (Host.V3_v12_apply m (outsA m) c _))
    ((congrFun (Host.V3_v11 m (outsA m) c) _).trans (Cert.Lib.Rows.shapeCast_vec_row_apply _ _ v))
    (rowMax_eq m c h0 h3 h4 n) (rowSum_eq m c h0 h3 h4 n)
    (congrFun (Host.V3_v10 m (outsA m) c) _) (congrFun (Host.V3_v34 m (outsA m) c) _)

end Cert.KernelIdeal.Out

end
-- ==== Proof.FiniteArgs.lean ====
/-
  Finite float arguments are real numbers.

  The precondition asks, of every float argument, that the absolute value of each entry be below plus infinity, and
  takes the conjunction of these tests over all entries and all arguments.  When that conjunction is true, every entry
  of the hidden states, of the output weights and of the output bias is an extended real that is neither infinity: a
  real number.
-/
import proofs.«178329_j25546465477119_2_alg».proof.ReferenceIdeal
import proofs.«178329_j25546465477119_2_alg».proof.Pre_finite_inputs
import proofs.«178329_j25546465477119_2_alg».proof.Proof.LibReals
import Idealize.ShloMosaic.Lib.ReduceAll
import Idealize.ShloMosaic.Lib.ValueIdx
import Idealize.ShloMosaic.Lib.Pipeline.Value

noncomputable section

namespace Cert.FiniteArgs

open Idealize.ShloMosaic Idealize.ShloMosaic.ValueIdx Cert.ReferenceIdeal

/-- The scalar shape has one index. -/
instance : Subsingleton (⟨0, ![]⟩ : Shape).Idx := ⟨fun a b => funext fun d => d.elim0⟩

/-- The single-precision word 0x7F800000 denotes plus infinity. -/
theorem ofBits_pos_inf : Ideal.ofBits .f32 0x7F800000#32 = ⊤ := by
  simp [Ideal.ofBits, Ideal.ieee]

/-- An extended real whose absolute value is below plus infinity is a real number. -/
theorem real_of_abs_lt_top (x : EReal)
    (h : Ideal.cmp .olt (max x (-x)) (Ideal.ofBits .f32 0x7F800000#32) = 1#1) : Cert.Reals.IsRealS x := by
  rw [ofBits_pos_inf] at h
  induction x using EReal.rec with
  | bot => simp [Ideal.cmp] at h
  | coe r => exact ⟨r, rfl⟩
  | top => simp [Ideal.cmp] at h

/-- One entry of one argument: if the test "absolute value below the broadcast plus infinity" is true at i, the
    entry at i is a real number. -/
theorem entry_real {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    Cert.Reals.IsRealS (x i) := by
  have hb' : broadcastInDim s ![] hb (constant (F := Ideal) ⟨0, ![]⟩ .f32 0x7F800000#32) i
      = Ideal.ofBits .f32 0x7F800000#32 :=
    broadcastInDim_apply _ hb _ i ix0 (fun a => a.elim0)
  have h' : Ideal.cmp .olt (max (x i) (-(x i))) (Ideal.ofBits .f32 0x7F800000#32) = 1#1 := by
    rw [← hb']; exact h
  exact real_of_abs_lt_top _ h'

/-- Under the precondition, every entry of the hidden states, of the output weights and of the output bias is a real
    number. -/
theorem real_of_pre [Cert.Pre_finite_inputs.Facts]
    (x0 : (⟨S2048x512, .f32⟩ : BufTy).Contents (Elt Ideal)) (x1 : (⟨S2048x400, .f32⟩ : BufTy).Contents (Elt Ideal))
    (x2 : (⟨S400x32x1, .i32⟩ : BufTy).Contents (Elt Ideal)) (x3 : (⟨S32000x512, .f32⟩ : BufTy).Contents (Elt Ideal))
    (x4 : (⟨S32000, .f32⟩ : BufTy).Contents (Elt Ideal)) (x5 : (⟨S1x512, .f32⟩ : BufTy).Contents (Elt Ideal))
    (x6 : (⟨S1, .f32⟩ : BufTy).Contents (Elt Ideal))
    (h : Cert.Pre_finite_inputs.fn (F := Ideal) x0 x1 x2 x3 x4 x5 x6 = fun _ => 1#1) :
    (∀ i, Cert.Reals.IsRealS (x0 i)) ∧ (∀ i, Cert.Reals.IsRealS (x3 i)) ∧ (∀ i, Cert.Reals.IsRealS (x4 i)) := by
  have h1 := congrFun h ix0
  dsimp only [Cert.Pre_finite_inputs.fn, Cert.Pre_finite_inputs.fn_part1, andi] at h1
  obtain ⟨h1, _⟩ := IntOp.andi_eq_one.1 h1
  obtain ⟨h1, _⟩ := IntOp.andi_eq_one.1 h1
  obtain ⟨h13, h17⟩ := IntOp.andi_eq_one.1 h1
  obtain ⟨h8, h12⟩ := IntOp.andi_eq_one.1 h13
  obtain ⟨h3, _⟩ := IntOp.andi_eq_one.1 h8
  refine ⟨fun i => ?_, fun i => ?_, fun i => ?_⟩
  · exact entry_real x0 _ i (Host.reduce_andi_all _ _ _ _ _ h3 i)
  · exact entry_real x3 _ i (Host.reduce_andi_all _ _ _ _ _ h12 i)
  · exact entry_real x4 _ i (Host.reduce_andi_all _ _ _ _ _ h17 i)

end Cert.FiniteArgs

end
-- ==== Proof.Claims.lean ====
/-
  The certificate's five claims, assembled.

  The three frames are the programs' frame runs. The idealization rewrote no operation, so there is nothing to
  preserve. For the algebraic claim both programs, at the ideal values and from memories that agree on the arguments,
  end with one array: the kernel's result (what its second call's write-backs leave) and the reference's result (its
  last operation's value) are, at every row n and vocabulary entry v, the same function of the arguments — the
  logarithm of the larger of the floor constant and the softmax probability times one minus the copy gate plus the
  scattered attention mass — because the precondition makes every hidden state, weight and bias a real number.
-/
import proofs.«178329_j25546465477119_2_alg».proof.Defs
import proofs.«178329_j25546465477119_2_alg».proof.Proof.Gen.Kernel
import proofs.«178329_j25546465477119_2_alg».proof.Proof.Gen.KernelIdeal
import proofs.«178329_j25546465477119_2_alg».proof.Proof.Gen.ReferenceIdeal
import proofs.«178329_j25546465477119_2_alg».proof.Proof.Gen.Pre_finite_inputs
import proofs.«178329_j25546465477119_2_alg».proof.Proof.Gen.ReferenceIdeal.Read
import proofs.«178329_j25546465477119_2_alg».proof.Proof.Frames
import proofs.«178329_j25546465477119_2_alg».proof.Proof.FramesK
import proofs.«178329_j25546465477119_2_alg».proof.Proof.KernelOut
import proofs.«178329_j25546465477119_2_alg».proof.Proof.RefValue
import proofs.«178329_j25546465477119_2_alg».proof.Proof.FiniteArgs

noncomputable section

namespace Cert.Proof.Claims

open Idealize.ShloMosaic Idealize.SL.Sem Idealize.ShloMosaic.ValueIdx

/-- The word-level kernel's frame. -/
theorem frame_k : Cert.frame_Kernel := fun m ρ _ => Cert.Kernel.Gen.frame m ρ

/-- The idealized kernel's frame. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: the idealized kernel is the kernel's own text read at the ideal values. -/
theorem preserves : Cert.preserves_Kernel_KernelIdeal := trivial

/-- At the ideal values the kernel's result array ends at what its second call's write-backs leave, and the reference's
    at its last operation's value; read at (n, v), both are the specification's value there of arguments that agree and
    that the precondition makes real numbers. -/
theorem algebraic : Cert.algebraic_KernelIdeal_ReferenceIdeal := by
  intro m ρ m' ρ' hpre hagree
  refine ⟨fun c => (Cert.KernelIdeal.Gen.dat1 (F := Ideal) (Cert.KernelIdeal.Gen.Vr3 m) c).arrAt 7 Cert.KernelIdeal.cfg1.N,
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v53_eq, a0, a1, a2, a3, a4, a5, a6]
  obtain ⟨h0, h3, h4⟩ := Cert.FiniteArgs.real_of_pre _ _ _ _ _ _ _ (hpre c)
  funext i
  obtain ⟨n, v, rfl⟩ : ∃ (n : Fin 2048) (v : Fin 32000), i = ix2 n v := ⟨i 0, i 1, eq_ix2 i⟩
  rw [Cert.RefValue.ref_out _ _ _ _ _ _ _ h0 h3 h4 n v]
  exact (Cert.KernelIdeal.Out.kernel_out m c h0 h3 h4 n v).symm

end Cert.Proof.Claims

end
-- ==== Proof.lean ====
/-
  A pointer-generator output layer, the kernel against its reference, on the extended reals.

  Both programs compute, for every row n of 2048 hidden states and every vocabulary entry v of 32000,

      log (max 1e-20 (softmax (hidden · Wᵀ + b) (n, v) · (1 − p_copy n) + the attention mass scattered onto (n, v))),

  with p_copy the logistic function of hidden · Wcᵀ + bc. The reference takes the softmax in two passes — each row's
  maximum, then the exponentials' sum — and scatter-adds the attention mass into the probabilities. The kernel runs two
  pallas_calls over 4 row tiles × 25 vocabulary blocks: the first keeps, per row, a running maximum and a running
  normaliser over the blocks (each block rescales the normaliser by exp (old maximum − new maximum)) and writes both out
  at a tile's last block; the second recomputes each block's logits and forms exp (logit − maximum) · (1 / normaliser) ·
  (1 − p_copy) + delta, where delta is the same attention mass scattered, by the host, into an all-zero array.
  The two agree index by index when every float input is a real number: the running pair after the last block is the
  row's maximum and the sum of exponentials against it (exp (a − b) · exp (x − a) = exp (x − b) on reals); a · (1 / L)
  is a / L for a nonzero real L; and a scatter-add into an array is that array plus the scatter-add into zeros. The
  shared host chains (p_copy, the scatter's indices and updates) are kept as the same terms on both sides.

  The modules: the specification (Spec); the reference read at an index (RefValue) and realness of the inputs from the
  precondition (FiniteArgs); the running-maximum recurrence (OnlineSoftmax); each pallas_call's body run and proof data
  (R0Shared … R0Frame, Region1), the values they leave (R0Pieces, R0Value, R0Final, Region1Value, R1Final), the
  program's run over its four items (FramesA, Frames) and the kernel's host chains (KernelHost); the result array as
  the specification (KernelOut); the same frame for the word-level program (the …K modules); the claims (Claims).
-/
import proofs.«178329_j25546465477119_2_alg».proof.Defs
import proofs.«178329_j25546465477119_2_alg».proof.Proof.Gen.Kernel
import proofs.«178329_j25546465477119_2_alg».proof.Proof.Gen.KernelIdeal
import proofs.«178329_j25546465477119_2_alg».proof.Proof.Gen.ReferenceIdeal
import proofs.«178329_j25546465477119_2_alg».proof.Proof.Gen.Pre_finite_inputs
import proofs.«178329_j25546465477119_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
